-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x224x224x96 : Shape := ⟨4, ![4, 224, 224, 96]⟩
abbrev S4x2x224x224x96 : Shape := ⟨5, ![4, 2, 224, 224, 96]⟩
abbrev S_ : Shape := ⟨0, ![]⟩

class Facts : Prop where
  bcast_S_S4x224x224x96 : S_.BroadcastsInDim S4x224x224x96 (![] : Fin 0 → Fin S4x224x224x96.rank)
  reducesTo_S4x224x224x96_S_d0_1_2_3 : S4x224x224x96.ReducesTo [0, 1, 2, 3] S_
  h_S_ : 0 < S_.numel
  bcast_S_S4x2x224x224x96 : S_.BroadcastsInDim S4x2x224x224x96 (![] : Fin 0 → Fin S4x2x224x224x96.rank)
  reducesTo_S4x2x224x224x96_S_d0_1_2_3_4 : S4x2x224x224x96.ReducesTo [0, 1, 2, 3, 4] S_

variable [Facts]

def fn {F : FTy → Type} [FloatOps F] (main_arg0 : FVec F S4x224x224x96 .f32) (main_arg1 : FVec F S4x2x224x224x96 .f32) : IVec S_ 1 :=
  let main_v0 : FVec F S4x224x224x96 .f32 := Host.absf main_arg0
  let main_cst : FVec F S_ .f32 := constant S_ .f32 0x7F800000#32
  let main_v1 : FVec F S4x224x224x96 .f32 := broadcastInDim S4x224x224x96 ![] bcast_S_S4x224x224x96 main_cst
  let main_v2 : IVec S4x224x224x96 1 := cmpf .olt main_v0 main_v1
  let main_c : IVec S_ 1 := constantI S_ 1 1#1
  let main_v3 : IVec S_ 1 := (fun x v => Host.reduce IntOp.andi x v reducesTo_S4x224x224x96_S_d0_1_2_3 h_S_) main_v2 main_c
  let main_v4 : FVec F S4x2x224x224x96 .f32 := Host.absf main_arg1
  let main_cst_0 : FVec F S_ .f32 := constant S_ .f32 0x7F800000#32
  let main_v5 : FVec F S4x2x224x224x96 .f32 := broadcastInDim S4x2x224x224x96 ![] bcast_S_S4x2x224x224x96 main_cst_0
  let main_v6 : IVec S4x2x224x224x96 1 := cmpf .olt main_v4 main_v5
  let main_c_1 : IVec S_ 1 := constantI S_ 1 1#1
  let main_v7 : IVec S_ 1 := (fun x v => Host.reduce IntOp.andi x v reducesTo_S4x2x224x224x96_S_d0_1_2_3_4 h_S_) main_v6 main_c_1
  let main_v8 : IVec S_ 1 := andi main_v3 main_v7
  main_v8
-- ==== Kernel.lean ====
abbrev S4x224x224x96 : Shape := ⟨4, ![4, 224, 224, 96]⟩
abbrev S4x2x224x224x96 : Shape := ⟨5, ![4, 2, 224, 224, 96]⟩
abbrev S4x224x96x224 : Shape := ⟨4, ![4, 224, 96, 224]⟩
abbrev S4x2x224x96x224 : Shape := ⟨5, ![4, 2, 224, 96, 224]⟩
abbrev S96x96 : Shape := ⟨2, ![96, 96]⟩
abbrev S1x28x96x224 : Shape := ⟨4, ![1, 28, 96, 224]⟩
abbrev S96x224 : Shape := ⟨2, ![96, 224]⟩
abbrev S96 : Shape := ⟨1, ![96]⟩
abbrev S96x1 : Shape := ⟨2, ![96, 1]⟩
abbrev S1x96x1 : Shape := ⟨3, ![1, 96, 1]⟩
abbrev S1 : Shape := ⟨1, ![1]⟩
abbrev S1x1x1 : Shape := ⟨3, ![1, 1, 1]⟩
abbrev S1x1x28x96x224 : Shape := ⟨5, ![1, 1, 28, 96, 224]⟩
abbrev S1x1x1x96x224 : Shape := ⟨5, ![1, 1, 1, 96, 224]⟩

abbrev nBuf : Space → Nat
  | .hbm => 7
  | .vmem => 9
  | .smem => 0
  | _ => 0

abbrev bufTy : (tb : Table) → Fin (tcTables nBuf tb) → BufTy
  | .hbm, ⟨0, _⟩ => ⟨S4x224x224x96, .f32⟩
  | .hbm, ⟨1, _⟩ => ⟨S4x2x224x224x96, .f32⟩
  | .hbm, ⟨2, _⟩ => ⟨S4x224x96x224, .f32⟩
  | .hbm, ⟨3, _⟩ => ⟨S4x2x224x96x224, .f32⟩
  | .hbm, ⟨4, _⟩ => ⟨S96x96, .f32⟩
  | .hbm, ⟨5, _⟩ => ⟨S4x2x224x96x224, .f32⟩
  | .hbm, ⟨6, _⟩ => ⟨S4x2x224x224x96, .f32⟩
  | .local _ .vmem, ⟨0, _⟩ => ⟨S1x28x96x224, .f32⟩
  | .local _ .vmem, ⟨1, _⟩ => ⟨S1x28x96x224, .f32⟩
  | .local _ .vmem, ⟨2, _⟩ => ⟨S96x96, .f32⟩
  | .local _ .vmem, ⟨3, _⟩ => ⟨S96x224, .f32⟩
  | .local _ .vmem, ⟨4, _⟩ => ⟨S96x96, .f32⟩
  | .local _ .vmem, ⟨5, _⟩ => ⟨S1x1x28x96x224, .f32⟩
  | .local _ .vmem, ⟨6, _⟩ => ⟨S1x1x28x96x224, .f32⟩
  | .local _ .vmem, ⟨7, _⟩ => ⟨S1x1x28x96x224, .f32⟩
  | .local _ .vmem, ⟨8, _⟩ => ⟨S1x1x28x96x224, .f32⟩
  | _, _ => ⟨S4x224x224x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c3_i32 : BitVec 32 := 3#32
  let v17 : BitVec 1 := Scalar.cmpi .eq arg0 c3_i32
  let arg1 : BitVec 32 := BitVec.ofNat 32 (i 1).val
  let c7_i32 : BitVec 32 := 7#32
  let v18 : BitVec 1 := Scalar.cmpi .eq arg1 c7_i32
  let v19 : BitVec 1 := Scalar.andi v17 v18
  let v20 : BitVec 32 := Scalar.extui v19
  let c0_i32_10 : BitVec 32 := 0#32
  let v21 : BitVec 1 := Scalar.cmpi .ne v20 c0_i32_10
  v21

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x28x96x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev grid1 : Pipeline.Grid := ⟨3, ![4, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc1_transform_2 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage1_0 : Fin 1 → Memref sig .tc .vmem S96x96 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1x1x28x96x224 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x28x96x224 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  transposes_S4x224x224x96_S4x224x96x224_0_1_3_2 : S4x224x224x96.Transposes [0, 1, 3, 2] S4x224x96x224
  transposes_S4x2x224x224x96_S4x2x224x96x224_0_1_2_4_3 : S4x2x224x224x96.Transposes [0, 1, 2, 4, 3] S4x2x224x96x224
  inb_S96x224_S96x224_0_0 : ∀ a, (![0, 0] : Fin 2 → Nat) a + S96x224.size a ≤ S96x224.size a
  h_S96x224 : 0 < S96x224.numel
  shapeCasts_S96x224_S96x224 : S96x224.ShapeCasts S96x224
  inb_S1x28x96x224_S1x28x96x224_0_0_0_0 : ∀ a, (![0, 0, 0, 0] : Fin 4 → Nat) a + S1x28x96x224.size a ≤ S1x28x96x224.size a
  h_S1x28x96x224 : 0 < S1x28x96x224.numel
  shapeCasts_S1x28x96x224_S1x28x96x224 : S1x28x96x224.ShapeCasts S1x28x96x224
  natLt_1_32 : 1 < 32
  reduces_S1x28x96x224_S96x224 : S1x28x96x224.Reduces [0, 1] S96x224
  reduces_S96x224_S96 : S96x224.Reduces [1] S96
  shapeCasts_S96_S96x1 : S96.ShapeCasts S96x1
  iota_S96x96_d0_w32 : S96x96.Iotas .tc 32 [0]
  iota_S96x96_d1_w32 : S96x96.Iotas .tc 32 [1]
  shapeCasts_S96x1_S1x96x1 : S96x1.ShapeCasts S1x96x1
  reduces_S1x96x1_S1 : S1x96x1.Reduces [1, 2] S1
  shapeCasts_S1_S1x1x1 : S1.ShapeCasts S1x1x1
  inpos_S1x1x1_p0_0_0 : ∀ a, (![0, 0, 0] : Fin 3 → Nat) a < S1x1x1.size a
  broadcasts_S96x1_S96x96 : S96x1.Broadcasts S96x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x1x28x96x224_S1x1x1x96x224_0_0_0_0_0 : ∀ a, (![0, 0, 0, 0, 0] : Fin 5 → Nat) a + S1x1x1x96x224.size a ≤ S1x1x28x96x224.size a
  h_S1x1x1x96x224 : 0 < S1x1x1x96x224.numel
  shapeCasts_S1x1x1x96x224_S96x224 : S1x1x1x96x224.ShapeCasts S96x224
  shapeCasts_S96x224_S1x1x1x96x224 : S96x224.ShapeCasts S1x1x1x96x224
  inb_S1x1x28x96x224_S1x1x1x96x224_0_0_1_0_0 : ∀ a, (![0, 0, 1, 0, 0] : Fin 5 → Nat) a + S1x1x1x96x224.size a ≤ S1x1x28x96x224.size a
  inb_S1x1x28x96x224_S1x1x1x96x224_0_0_2_0_0 : ∀ a, (![0, 0, 2, 0, 0] : Fin 5 → Nat) a + S1x1x1x96x224.size a ≤ S1x1x28x96x224.size a
  inb_S1x1x28x96x224_S1x1x1x96x224_0_0_3_0_0 : ∀ a, (![0, 0, 3, 0, 0] : Fin 5 → Nat) a + S1x1x1x96x224.size a ≤ S1x1x28x96x224.size a
  inb_S1x1x28x96x224_S1x1x1x96x224_0_0_4_0_0 : ∀ a, (![0, 0, 4, 0, 0] : Fin 5 → Nat) a + S1x1x1x96x224.size a ≤ S1x1x28x96x224.size a
  inb_S1x1x28x96x224_S1x1x1x96x224_0_0_5_0_0 : ∀ a, (![0, 0, 5, 0, 0] : Fin 5 → Nat) a + S1x1x1x96x224.size a ≤ S1x1x28x96x224.size a
  inb_S1x1x28x96x224_S1x1x1x96x224_0_0_6_0_0 : ∀ a, (![0, 0, 6, 0, 0] : Fin 5 → Nat) a + S1x1x1x96x224.size a ≤ S1x1x28x96x224.size a
  inb_S1x1x28x96x224_S1x1x1x96x224_0_0_7_0_0 : ∀ a, (![0, 0, 7, 0, 0] : Fin 5 → Nat) a + S1x1x1x96x224.size a ≤ S1x1x28x96x224.size a
  inb_S1x1x28x96x224_S1x1x1x96x224_0_0_8_0_0 : ∀ a, (![0, 0, 8, 0, 0] : Fin 5 → Nat) a + S1x1x1x96x224.size a ≤ S1x1x28x96x224.size a
  inb_S1x1x28x96x224_S1x1x1x96x224_0_0_9_0_0 : ∀ a, (![0, 0, 9, 0, 0] : Fin 5 → Nat) a + S1x1x1x96x224.size a ≤ S1x1x28x96x224.size a
  inb_S1x1x28x96x224_S1x1x1x96x224_0_0_10_0_0 : ∀ a, (![0, 0, 10, 0, 0] : Fin 5 → Nat) a + S1x1x1x96x224.size a ≤ S1x1x28x96x224.size a
  inb_S1x1x28x96x224_S1x1x1x96x224_0_0_11_0_0 : ∀ a, (![0, 0, 11, 0, 0] : Fin 5 → Nat) a + S1x1x1x96x224.size a ≤ S1x1x28x96x224.size a
  inb_S1x1x28x96x224_S1x1x1x96x224_0_0_12_0_0 : ∀ a, (![0, 0, 12, 0, 0] : Fin 5 → Nat) a + S1x1x1x96x224.size a ≤ S1x1x28x96x224.size a
  inb_S1x1x28x96x224_S1x1x1x96x224_0_0_13_0_0 : ∀ a, (![0, 0, 13, 0, 0] : Fin 5 → Nat) a + S1x1x1x96x224.size a ≤ S1x1x28x96x224.size a
  inb_S1x1x28x96x224_S1x1x1x96x224_0_0_14_0_0 : ∀ a, (![0, 0, 14, 0, 0] : Fin 5 → Nat) a + S1x1x1x96x224.size a ≤ S1x1x28x96x224.size a
  inb_S1x1x28x96x224_S1x1x1x96x224_0_0_15_0_0 : ∀ a, (![0, 0, 15, 0, 0] : Fin 5 → Nat) a + S1x1x1x96x224.size a ≤ S1x1x28x96x224.size a
  inb_S1x1x28x96x224_S1x1x1x96x224_0_0_16_0_0 : ∀ a, (![0, 0, 16, 0, 0] : Fin 5 → Nat) a + S1x1x1x96x224.size a ≤ S1x1x28x96x224.size a
  inb_S1x1x28x96x224_S1x1x1x96x224_0_0_17_0_0 : ∀ a, (![0, 0, 17, 0, 0] : Fin 5 → Nat) a + S1x1x1x96x224.size a ≤ S1x1x28x96x224.size a
  inb_S1x1x28x96x224_S1x1x1x96x224_0_0_18_0_0 : ∀ a, (![0, 0, 18, 0, 0] : Fin 5 → Nat) a + S1x1x1x96x224.size a ≤ S1x1x28x96x224.size a
  inb_S1x1x28x96x224_S1x1x1x96x224_0_0_19_0_0 : ∀ a, (![0, 0, 19, 0, 0] : Fin 5 → Nat) a + S1x1x1x96x224.size a ≤ S1x1x28x96x224.size a
  inb_S1x1x28x96x224_S1x1x1x96x224_0_0_20_0_0 : ∀ a, (![0, 0, 20, 0, 0] : Fin 5 → Nat) a + S1x1x1x96x224.size a ≤ S1x1x28x96x224.size a
  inb_S1x1x28x96x224_S1x1x1x96x224_0_0_21_0_0 : ∀ a, (![0, 0, 21, 0, 0] : Fin 5 → Nat) a + S1x1x1x96x224.size a ≤ S1x1x28x96x224.size a
  inb_S1x1x28x96x224_S1x1x1x96x224_0_0_22_0_0 : ∀ a, (![0, 0, 22, 0, 0] : Fin 5 → Nat) a + S1x1x1x96x224.size a ≤ S1x1x28x96x224.size a
  inb_S1x1x28x96x224_S1x1x1x96x224_0_0_23_0_0 : ∀ a, (![0, 0, 23, 0, 0] : Fin 5 → Nat) a + S1x1x1x96x224.size a ≤ S1x1x28x96x224.size a
  inb_S1x1x28x96x224_S1x1x1x96x224_0_0_24_0_0 : ∀ a, (![0, 0, 24, 0, 0] : Fin 5 → Nat) a + S1x1x1x96x224.size a ≤ S1x1x28x96x224.size a
  inb_S1x1x28x96x224_S1x1x1x96x224_0_0_25_0_0 : ∀ a, (![0, 0, 25, 0, 0] : Fin 5 → Nat) a + S1x1x1x96x224.size a ≤ S1x1x28x96x224.size a
  inb_S1x1x28x96x224_S1x1x1x96x224_0_0_26_0_0 : ∀ a, (![0, 0, 26, 0, 0] : Fin 5 → Nat) a + S1x1x1x96x224.size a ≤ S1x1x28x96x224.size a
  inb_S1x1x28x96x224_S1x1x1x96x224_0_0_27_0_0 : ∀ a, (![0, 0, 27, 0, 0] : Fin 5 → Nat) a + S1x1x1x96x224.size a ≤ S1x1x28x96x224.size a
  transposes_S4x2x224x96x224_S4x2x224x224x96_0_1_2_4_3 : S4x2x224x96x224.Transposes [0, 1, 2, 4, 3] S4x2x224x224x96
  dot_S96x96_S96x1_S96x1_1_0_0_1_n_n_wf : DotDims.WF S96x96 S96x1 S96x1 [1] [0] [0] [1] [] []
  dot_S96x96_S96x224_S96x224_0_0_1_1_n_n_wf : DotDims.WF S96x96 S96x224 S96x224 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x28x96x224.size a ≤ S4x224x96x224.size a
  hwx0_0 : ∀ i : grid0.Coords, EltTy.bits .f32 = 32 ∨ (Rect.block (s := S4x224x96x224) S1x28x96x224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S96x96.size a ≤ S96x96.size a
  hwx1_0 : ∀ i : grid1.Coords, EltTy.bits .f32 = 32 ∨ (Rect.block (s := S96x96) S96x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x28x96x224.size a ≤ S4x2x224x96x224.size a
  hwx1_1 : ∀ i : grid1.Coords, EltTy.bits .f32 = 32 ∨ (Rect.block (s := S4x2x224x96x224) S1x1x28x96x224.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x28x96x224.size a ≤ S4x2x224x96x224.size a
  hwx1_2 : ∀ i : grid1.Coords, EltTy.bits .f32 = 32 ∨ (Rect.block (s := S4x2x224x96x224) S1x1x28x96x224.size (cc1_transform_2 i) (hinb1_2 i)).WholeWords (EltTy.packing .f32)

variable [Facts₀]

def dot_S96x96_S96x1_S96x1_1_0_0_1_n_n : DotDims S96x96 S96x1 S96x1 where
  lhsContracting := [1]
  rhsContracting := [0]
  lhsNonContracting := [0]
  rhsNonContracting := [1]
  lhsBatch := []
  rhsBatch := []
  wf := dot_S96x96_S96x1_S96x1_1_0_0_1_n_n_wf
def dot_S96x96_S96x224_S96x224_0_0_1_1_n_n : DotDims S96x96 S96x224 S96x224 where
  lhsContracting := [0]
  rhsContracting := [0]
  lhsNonContracting := [1]
  rhsNonContracting := [1]
  lhsBatch := []
  rhsBatch := []
  wf := dot_S96x96_S96x224_S96x224_0_0_1_1_n_n_wf

abbrev win0_0 : Pipeline.Window sig grid0 :=
  Pipeline.Window.ofSpec (Memref.whole main_v0) S1x28x96x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S96x96.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v2) S96x96.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x28x96x224.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1x28x96x224.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x224x224x96 : Shape := ⟨4, ![4, 224, 224, 96]⟩
abbrev S4x2x224x224x96 : Shape := ⟨5, ![4, 2, 224, 224, 96]⟩
abbrev S_ : Shape := ⟨0, ![]⟩
abbrev S96 : Shape := ⟨1, ![96]⟩
abbrev S96x1 : Shape := ⟨2, ![96, 1]⟩
abbrev S1 : Shape := ⟨1, ![1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S4x224x224x96, .f32⟩
  | .hbm, ⟨1, _⟩ => ⟨S4x2x224x224x96, .f32⟩
  | .hbm, ⟨2, _⟩ => ⟨S_, .f32⟩
  | .hbm, ⟨3, _⟩ => ⟨S4x224x224x96, .f32⟩
  | .hbm, ⟨4, _⟩ => ⟨S4x224x224x96, .i1⟩
  | .hbm, ⟨5, _⟩ => ⟨S_, .i1⟩
  | .hbm, ⟨6, _⟩ => ⟨S96, .i1⟩
  | .hbm, ⟨7, _⟩ => ⟨S96, .i1⟩
  | .hbm, ⟨8, _⟩ => ⟨S96, .i32⟩
  | .hbm, ⟨9, _⟩ => ⟨S_, .i32⟩
  | .hbm, ⟨10, _⟩ => ⟨S_, .i32⟩
  | .hbm, ⟨11, _⟩ => ⟨S96, .i32⟩
  | .hbm, ⟨12, _⟩ => ⟨S_, .i32⟩
  | .hbm, ⟨13, _⟩ => ⟨S96, .i32⟩
  | .hbm, ⟨14, _⟩ => ⟨S_, .i32⟩
  | .hbm, ⟨15, _⟩ => ⟨S_, .i32⟩
  | .hbm, ⟨16, _⟩ => ⟨S96, .i32⟩
  | .hbm, ⟨17, _⟩ => ⟨S96, .i32⟩
  | .hbm, ⟨18, _⟩ => ⟨S_, .i32⟩
  | .hbm, ⟨19, _⟩ => ⟨S96, .i32⟩
  | .hbm, ⟨20, _⟩ => ⟨S96, .i1⟩
  | .hbm, ⟨21, _⟩ => ⟨S_, .i32⟩
  | .hbm, ⟨22, _⟩ => ⟨S96, .i32⟩
  | .hbm, ⟨23, _⟩ => ⟨S96, .i32⟩
  | .hbm, ⟨24, _⟩ => ⟨S96, .i32⟩
  | .hbm, ⟨25, _⟩ => ⟨S96x1, .i32⟩
  | .hbm, ⟨26, _⟩ => ⟨S_, .i32⟩
  | .hbm, ⟨27, _⟩ => ⟨S96, .i32⟩
  | .hbm, ⟨28, _⟩ => ⟨S96, .i32⟩
  | .hbm, ⟨29, _⟩ => ⟨S_, .i32⟩
  | .hbm, ⟨30, _⟩ => ⟨S_, .i32⟩
  | .hbm, ⟨31, _⟩ => ⟨S96, .i32⟩
  | .hbm, ⟨32, _⟩ => ⟨S_, .i32⟩
  | .hbm, ⟨33, _⟩ => ⟨S96, .i32⟩
  | .hbm, ⟨34, _⟩ => ⟨S96, .i32⟩
  | .hbm, ⟨35, _⟩ => ⟨S96, .i32⟩
  | .hbm, ⟨36, _⟩ => ⟨S_, .i32⟩
  | .hbm, ⟨37, _⟩ => ⟨S96, .i32⟩
  | .hbm, ⟨38, _⟩ => ⟨S96, .i1⟩
  | .hbm, ⟨39, _⟩ => ⟨S96, .i32⟩
  | .hbm, ⟨40, _⟩ => ⟨S96, .i32⟩
  | .hbm, ⟨41, _⟩ => ⟨S_, .i32⟩
  | .hbm, ⟨42, _⟩ => ⟨S96, .i32⟩
  | .hbm, ⟨43, _⟩ => ⟨S96, .i1⟩
  | .hbm, ⟨44, _⟩ => ⟨S96, .i1⟩
  | .hbm, ⟨45, _⟩ => ⟨S_, .i32⟩
  | .hbm, ⟨46, _⟩ => ⟨S96, .i32⟩
  | .hbm, ⟨47, _⟩ => ⟨S96, .i32⟩
  | .hbm, ⟨48, _⟩ => ⟨S96, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S96, .i32⟩
  | .hbm, ⟨56, _⟩ => ⟨S96, .i32⟩
  | .hbm, ⟨57, _⟩ => ⟨S_, .i32⟩
  | .hbm, ⟨58, _⟩ => ⟨S96, .i32⟩
  | .hbm, ⟨59, _⟩ => ⟨S96, .i1⟩
  | .hbm, ⟨60, _⟩ => ⟨S_, .i32⟩
  | .hbm, ⟨61, _⟩ => ⟨S96, .i32⟩
  | .hbm, ⟨62, _⟩ => ⟨S96, .i1⟩
  | .hbm, ⟨63, _⟩ => ⟨S_, .i32⟩
  | .hbm, ⟨64, _⟩ => ⟨S_, .i1⟩
  | .hbm, ⟨65, _⟩ => ⟨S96, .i1⟩
  | .hbm, ⟨66, _⟩ => ⟨S96, .i1⟩
  | .hbm, ⟨67, _⟩ => ⟨S96, .i1⟩
  | .hbm, ⟨68, _⟩ => ⟨S96, .i32⟩
  | .hbm, ⟨69, _⟩ => ⟨S96, .i32⟩
  | .hbm, ⟨70, _⟩ => ⟨S96, .i32⟩
  | .hbm, ⟨71, _⟩ => ⟨S_, .i32⟩
  | .hbm, ⟨72, _⟩ => ⟨S96, .i32⟩
  | .hbm, ⟨73, _⟩ => ⟨S96, .i1⟩
  | .hbm, ⟨74, _⟩ => ⟨S_, .i32⟩
  | .hbm, ⟨75, _⟩ => ⟨S96, .i32⟩
  | .hbm, ⟨76, _⟩ => ⟨S96, .i32⟩
  | .hbm, ⟨77, _⟩ => ⟨S96, .i32⟩
  | .hbm, ⟨78, _⟩ => ⟨S96x1, .i32⟩
  | .hbm, ⟨79, _⟩ => ⟨S1, .i32⟩
  | .hbm, ⟨80, _⟩ => ⟨S_, .i32⟩
  | .hbm, ⟨81, _⟩ => ⟨S96x1, .i32⟩
  | .hbm, ⟨82, _⟩ => ⟨S96x1, .i1⟩
  | .hbm, ⟨83, _⟩ => ⟨S1x1, .i32⟩
  | .hbm, ⟨84, _⟩ => ⟨S96x1, .i32⟩
  | .hbm, ⟨85, _⟩ => ⟨S96x1, .i1⟩
  | .hbm, ⟨86, _⟩ => ⟨S96x1, .i1⟩
  | .hbm, ⟨87, _⟩ => ⟨S_, .i1⟩
  | .hbm, ⟨88, _⟩ => ⟨S96, .i1⟩
  | .hbm, ⟨89, _⟩ => ⟨S4x2x224x224x96, .f32⟩
  | .hbm, ⟨90, _⟩ => ⟨S4x2x224x224x96, .i1⟩
  | .hbm, ⟨91, _⟩ => ⟨S_, .f32⟩
  | .hbm, ⟨92, _⟩ => ⟨S4x2x224x224x96, .f32⟩
  | .hbm, ⟨93, _⟩ => ⟨S4x2x224x224x96, .f32⟩
  | _, _ => ⟨S4x224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_c : Ref sig .tc := ⟨.hbm, 9, rfl⟩
abbrev main_call0_call0_v0 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_call2_call0_c : Ref sig .tc := ⟨.hbm, 29, rfl⟩
abbrev main_call2_call0_v0 : Ref sig .tc := ⟨.hbm, 30, rfl⟩
abbrev main_v15 : Ref sig .tc := ⟨.hbm, 31, rfl⟩
abbrev main_c_5 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_c : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_c_0 : Ref sig .tc := ⟨.hbm, 45, rfl⟩
abbrev main_call3_v11 : Ref sig .tc := ⟨.hbm, 46, rfl⟩
abbrev main_call3_v12 : Ref sig .tc := ⟨.hbm, 47, rfl⟩
abbrev main_v16 : Ref sig .tc := ⟨.hbm, 48, rfl⟩
abbrev main_c_6 : Ref sig .tc := ⟨.hbm, 49, rfl⟩
abbrev main_call4_v0 : Ref sig .tc := ⟨.hbm, 50, rfl⟩
abbrev main_call4_c : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_v5 : Ref sig .tc := ⟨.hbm, 58, rfl⟩
abbrev main_call4_v6 : Ref sig .tc := ⟨.hbm, 59, rfl⟩
abbrev main_call4_c_2 : Ref sig .tc := ⟨.hbm, 60, rfl⟩
abbrev main_call4_v7 : Ref sig .tc := ⟨.hbm, 61, rfl⟩
abbrev main_call4_v8 : Ref sig .tc := ⟨.hbm, 62, rfl⟩
abbrev main_call4_c_3 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_v17 : Ref sig .tc := ⟨.hbm, 70, rfl⟩
abbrev main_call5_c : Ref sig .tc := ⟨.hbm, 71, rfl⟩
abbrev main_call5_v0 : Ref sig .tc := ⟨.hbm, 72, rfl⟩
abbrev main_call5_v1 : Ref sig .tc := ⟨.hbm, 73, rfl⟩
abbrev main_call5_c_0 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_v5 : Ref sig .tc := ⟨.hbm, 78, rfl⟩
abbrev main_call5_c_1 : Ref sig .tc := ⟨.hbm, 79, rfl⟩
abbrev main_call5_c_2 : Ref sig .tc := ⟨.hbm, 80, rfl⟩
abbrev main_call5_v6 : Ref sig .tc := ⟨.hbm, 81, rfl⟩
abbrev main_call5_v7 : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_v11 : Ref sig .tc := ⟨.hbm, 86, rfl⟩
abbrev main_call5_c_3 : Ref sig .tc := ⟨.hbm, 87, rfl⟩
abbrev main_call5_v12 : Ref sig .tc := ⟨.hbm, 88, rfl⟩
abbrev main_call5_v13 : Ref sig .tc := ⟨.hbm, 89, rfl⟩
abbrev main_call5_v14 : Ref sig .tc := ⟨.hbm, 90, rfl⟩
abbrev main_call5_cst : Ref sig .tc := ⟨.hbm, 91, rfl⟩
abbrev main_call5_v15 : Ref sig .tc := ⟨.hbm, 92, rfl⟩
abbrev main_v18 : Ref sig .tc := ⟨.hbm, 93, rfl⟩

abbrev nD : Nat := 1
abbrev τ : Topo := Topo.v7x

variable {F : FTy → Type} [FloatOps F]

class Facts₀ : Prop where
  bcast_S_S4x224x224x96 : S_.BroadcastsInDim S4x224x224x96 (![] : Fin 0 → Fin S4x224x224x96.rank)
  reducesTo_S4x224x224x96_S96_d0_1_2 : S4x224x224x96.ReducesTo [0, 1, 2] S96
  h_S_ : 0 < S_.numel
  natLt_1_32 : 1 < 32
  bcast_S_S_ : S_.BroadcastsInDim S_ (![] : Fin 0 → Fin S_.rank)
  reduceWindows_S96_S96_w96s1p95_0 : S96.ReduceWindows (![96] : Fin 1 → Nat) ![1] ![95] ![0] S96
  bcast_S_S96 : S_.BroadcastsInDim S96 (![] : Fin 0 → Fin S96.rank)
  bcast_S96_S96x1_0 : S96.BroadcastsInDim S96x1 (![0] : Fin 1 → Fin S96x1.rank)
  bcast_S_S96x1 : S_.BroadcastsInDim S96x1 (![] : Fin 0 → Fin S96x1.rank)
  bcast_S1_S1x1_1 : S1.BroadcastsInDim S1x1 (![1] : Fin 1 → Fin S1x1.rank)
  bcast_S1x1_S96x1_0_1 : S1x1.BroadcastsInDim S96x1 (![0, 1] : Fin 2 → Fin S96x1.rank)
  reducesTo_S96x1_S96_d1 : S96x1.ReducesTo [1] S96
  bcast_S96_S4x2x224x224x96_4 : S96.BroadcastsInDim S4x2x224x224x96 (![4] : Fin 1 → Fin S4x2x224x224x96.rank)
  bcast_S_S4x2x224x224x96 : S_.BroadcastsInDim S4x2x224x224x96 (![] : Fin 0 → Fin S4x2x224x224x96.rank)
  scatter_S96_S96x1_S96_n_0_0_1_wf : ScatterDims.WF S96 S96x1 S96 [] [0] [0] 1
  gather_S4x2x224x224x96_S96x1_S4x2x224x224x96_0123_4_n_n_4_1_422242241_wf : GatherDims.WF S4x2x224x224x96 S96x1 S4x2x224x224x96 [0, 1, 2, 3] [4] [] [4] [] 1 ![4, 2, 224, 224, 1]

variable [Facts₀]

def scatter_S96_S96x1_S96_n_0_0_1 : ScatterDims S96 S96x1 S96 where
  updateWindowDims := []
  insertedWindowDims := [0]
  scatterDimsToOperandDims := [0]
  indexVectorDim := 1
  wf := scatter_S96_S96x1_S96_n_0_0_1_wf
def gather_S4x2x224x224x96_S96x1_S4x2x224x224x96_0123_4_n_n_4_1_422242241 : GatherDims S4x2x224x224x96 S96x1 S4x2x224x224x96 where
  offsetDims := [0, 1, 2, 3]
  collapsedSliceDims := [4]
  operandBatchingDims := []
  startIndicesBatchingDims := []
  startIndexMap := [4]
  indexVectorDim := 1
  sliceSizes := ![4, 2, 224, 224, 1]
  wf := gather_S4x2x224x224x96_S96x1_S4x2x224x224x96_0123_4_n_n_4_1_422242241_wf

class Facts : Prop extends Facts₀ where

variable [Facts]
-- ==== Proof.K.R0Shared.lean ====
/-
  The mask pass (the first of the two kernel launches) on its 4 × 8 grid: what its three control cases share.

  At every grid point the body loads the point's block of the (transposed) mask input, a [1, 28, 96, 224] slab, and
  folds "is this entry nonzero" into a [96, 224] scratch by a running maximum; at the FIRST point (0, 0) it first
  resets the scratch to zero, and at the LAST point (3, 7) it afterwards reduces the scratch along its second axis to
  a per-channel flag and writes the 96 × 96 placement matrix computed from the flags into its output block.
  So there are three cases: the first point, the points strictly between, the last point. The output block is stored
  only in the last case; elsewhere the output window is idle and not written back.
-/
import proofs.«123979_g27556510171775_cont_sun_c4_435_14_alg».proof.Proof.Gen.Kernel.Launch
import proofs.«123979_g27556510171775_cont_sun_c4_435_14_alg».proof.Proof.Gen.Kernel.Skeleton
import proofs.«123979_g27556510171775_cont_sun_c4_435_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of the mask pass at point `t`, read off its array as the launch finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point and the
    body leaves it in place), for any proof data whose array is `V`'s. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end

/-! ## The two conditions, decided over the grid -/

/-- "This is the first point": both grid coordinates are zero (the body's first conditional, as it computes it). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 of the 32 and nowhere else. -/
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last point": the coordinates are (3, 7) (the body's second conditional). -/
abbrev cond0_1 (i : grid0.Coords) : Prop := k0_cond2 i = 1#1
/-- It holds at point 31 of the 32 and nowhere else. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

/-- The input window is never idle. -/
theorem liveAt0_0 : ∀ t : Fin cfg0.N, cfg0.idle 0 (grid0.coords t) = false := by decide +kernel
/-- Away from the last point the output window is idle (the body stores nothing into it) and is not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- At the last point it is live. -/
theorem liveAt0_1 : ∀ t : Fin cfg0.N, cond0_1 (grid0.coords t) → cfg0.idle 1 (grid0.coords t) = false := by decide +kernel

/-! ## The memrefs the body is called with -/

/-- One staging buffer of the output window, through which its contents are stated. -/
abbrev VO0_1 : View sig .tc .vmem S96x96 .f32 := (Memref.whole cc0_stg1_0 : Memref sig .tc .vmem S96x96 .f32).view
/-- Each window's current staging memref at point `t`, as the pipeline passes it, and its wholeness. -/
abbrev ms0_0 (t : Fin cfg0.N) : Memref sig .tc .vmem S1x28x96x224 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x96 .f32 := win0_1.stage (cfg0.slots t 1)
abbrev hs0_1 (t : Fin cfg0.N) : (ms0_1 t).IsWhole := hstage0_1 ((cfg0.slots t 1).cast nbuf0_1)
/-- The scratch the body carries from point to point: a whole scoped buffer of the kernel's own. -/
abbrev scM0_0 : Memref sig .tc .vmem S96x224 .f32 := Memref.whole cc0_scratch0
abbrev VS0_0 : View sig .tc .vmem S96x224 .f32 := scM0_0.view

/-- The scoped buffers the mask pass does not stage, other than its scratch: the second launch's five staging
    buffers, each whole at some contents. They ride through the mask pass untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The launch's invariant for a kernel that keeps nothing (the scoped buffers it does not stage at anything, the
    generator register at some state), with the scratch singled out as a memref owned at some contents. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0; rw [scopedRest0_eq]; simp only [scM0_0, owns_whole]; try rfl

end Cert.Kernel.Hand

end
-- ==== Proof.K.R0RunA.lean ====
/-
  The mask body at the FIRST grid point: the scratch, found at anything, is reset to zero and then takes the running
  maximum with this point's slab; the output block is not touched.
-/
import proofs.«123979_g27556510171775_cont_sun_c4_435_14_alg».proof.Proof.K.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the first point, on whole memrefs: the input block `x0` and the idle output block `xi1` are handed
    back as found; the scratch, found at anything, ends with the listed pieces written (the witness the run finds). -/
noncomputable def kernelRun0_A (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : cond0_0 i) (hc1 : ¬cond0_1 i)
    (x0 : Vec F S1x28x96x224 .f32) :
    Σ' (L1 : List (View.Piece (Elt F) S96x96 .f32)), { LS0 : List (View.Piece (Elt F) S96x224 .f32) //
      ∀ (xi1 : Vec F S96x96 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__mask_body i arg2 harg2 arg3 harg3 arg4 harg4) K } := by
  refine ⟨[], ?_, fun xi1 E K => ?run⟩
  case run =>
    simp only [cc0__mask_body_eq_skeleton]; unfold cc0__mask_body_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K.R0RunB.lean ====
/-
  The mask body at a grid point strictly between the first and the last: the scratch, found at what the point before
  left (`xs0`), takes the running maximum with this point's slab; the output block is not touched.
-/
import proofs.«123979_g27556510171775_cont_sun_c4_435_14_alg».proof.Proof.K.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at a middle point, on whole memrefs: the input block `x0` and the idle output block `xi1` are handed
    back as found; the scratch, found at `xs0`, ends with the listed pieces written (the witness the run finds). -/
noncomputable def kernelRun0_B (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : ¬cond0_1 i)
    (x0 : Vec F S1x28x96x224 .f32) (xs0 : Vec F S96x224 .f32) :
    Σ' (L1 : List (View.Piece (Elt F) S96x96 .f32)), { LS0 : List (View.Piece (Elt F) S96x224 .f32) //
      ∀ (xi1 : Vec F S96x96 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__mask_body i arg2 harg2 arg3 harg3 arg4 harg4) K } := by
  refine ⟨[], ?_, fun xi1 E K => ?run⟩
  case run =>
    simp only [cc0__mask_body_eq_skeleton]; unfold cc0__mask_body_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K.R0RunC.lean ====
/-
  The mask body at the LAST grid point: the scratch, found at what the point before left (`xs0`), takes the running
  maximum with this point's slab, and the placement matrix computed from the scratch is stored into the output block.
-/
import proofs.«123979_g27556510171775_cont_sun_c4_435_14_alg».proof.Proof.K.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the last point, on whole memrefs: the input block `x0` is handed back as found; the output block,
    found at anything, and the scratch, found at `xs0`, end with the listed pieces written (the witnesses the run finds). -/
noncomputable def kernelRun0_C (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : cond0_1 i)
    (x0 : Vec F S1x28x96x224 .f32) (xs0 : Vec F S96x224 .f32) :
    Σ' (L1 : List (View.Piece (Elt F) S96x96 .f32)), { LS0 : List (View.Piece (Elt F) S96x224 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__mask_body i arg2 harg2 arg3 harg3 arg4 harg4) K } := by
  refine ⟨?_, ?_, fun E K => ?run⟩
  case run =>
    simp only [cc0__mask_body_eq_skeleton]; unfold cc0__mask_body_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.K.R0Frame.lean ====
/-
  The mask pass's proof data and its body obligation.

  What the scratch holds after point `n` is defined by recursion on `n`: at point 0 what the first case leaves, at a
  later point what the middle (or last) case leaves given what point `n - 1` left. The launch's invariant before point
  `n > 0` holds the scratch at exactly that; before point 0 it holds it at anything. The output block holds the
  placement matrix after the last point only; at every other point the window is idle and nothing consults it.
-/
import proofs.«123979_g27556510171775_cont_sun_c4_435_14_alg».proof.Proof.K.R0RunA
import proofs.«123979_g27556510171775_cont_sun_c4_435_14_alg».proof.Proof.K.R0RunB
import proofs.«123979_g27556510171775_cont_sun_c4_435_14_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The first case stores nothing into the output block: a placeholder nothing consults. -/
def out0_A_1 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : cond0_0 i) (hc1 : ¬cond0_1 i)
    (x0 : Vec F S1x28x96x224 .f32) : Vec F S96x96 .f32 :=
  VO0_1.read (Elt F) (VO0_1.writes (Elt F) VO0_1.junk (kernelRun0_A c i arg2 harg2 arg3 harg3 arg4 harg4 hc0 hc1 x0).1)
/-- Its stores into the scratch tile it. -/
theorem scover0_A_0 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : cond0_0 i) (hc1 : ¬cond0_1 i)
    (x0 : Vec F S1x28x96x224 .f32) (y : S96x224.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S96x224.size (by sl_kernel_rfl) y
/-- What the first case leaves in the scratch. -/
def sout0_A_0 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : cond0_0 i) (hc1 : ¬cond0_1 i)
    (x0 : Vec F S1x28x96x224 .f32) : Vec F S96x224 .f32 :=
  VS0_0.read (Elt F) (VS0_0.writes (Elt F) VS0_0.junk (kernelRun0_A c i arg2 harg2 arg3 harg3 arg4 harg4 hc0 hc1 x0).2.1)

/-- The middle case stores nothing into the output block: a placeholder nothing consults. -/
def out0_B_1 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : ¬cond0_1 i)
    (x0 : Vec F S1x28x96x224 .f32) (xs0 : Vec F S96x224 .f32) : Vec F S96x96 .f32 :=
  VO0_1.read (Elt F) (VO0_1.writes (Elt F) VO0_1.junk (kernelRun0_B c i arg2 harg2 arg3 harg3 arg4 harg4 hc0 hc1 x0 xs0).1)
theorem scover0_B_0 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : ¬cond0_1 i)
    (x0 : Vec F S1x28x96x224 .f32) (xs0 : Vec F S96x224 .f32) (y : S96x224.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S96x224.size (by sl_kernel_rfl) y
/-- What the middle case leaves in the scratch. -/
def sout0_B_0 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : ¬cond0_1 i)
    (x0 : Vec F S1x28x96x224 .f32) (xs0 : Vec F S96x224 .f32) : Vec F S96x224 .f32 :=
  VS0_0.read (Elt F) (VS0_0.writes (Elt F) VS0_0.junk (kernelRun0_B c i arg2 harg2 arg3 harg3 arg4 harg4 hc0 hc1 x0 xs0).2.1)

/-- The last case's one store into the output block covers it. -/
theorem cover0_C_1 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : cond0_1 i)
    (x0 : Vec F S1x28x96x224 .f32) (xs0 : Vec F S96x224 .f32) (y : S96x96.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S96x96.size (by sl_kernel_rfl) y
/-- What the last case leaves in the output block. -/
def out0_C_1 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : cond0_1 i)
    (x0 : Vec F S1x28x96x224 .f32) (xs0 : Vec F S96x224 .f32) : Vec F S96x96 .f32 :=
  VO0_1.read (Elt F) (VO0_1.writes (Elt F) VO0_1.junk (kernelRun0_C c i arg2 harg2 arg3 harg3 arg4 harg4 hc0 hc1 x0 xs0).1)
theorem scover0_C_0 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : cond0_1 i)
    (x0 : Vec F S1x28x96x224 .f32) (xs0 : Vec F S96x224 .f32) (y : S96x224.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S96x224.size (by sl_kernel_rfl) y
/-- What the last case leaves in the scratch. -/
def sout0_C_0 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : cond0_1 i)
    (x0 : Vec F S1x28x96x224 .f32) (xs0 : Vec F S96x224 .f32) : Vec F S96x224 .f32 :=
  VS0_0.read (Elt F) (VS0_0.writes (Elt F) VS0_0.junk (kernelRun0_C c i arg2 harg2 arg3 harg3 arg4 harg4 hc0 hc1 x0 xs0).2.1)

/-! ## Which case a point is in -/

theorem N0_eq : cfg0.N = 32 := N_0
theorem c0_of_zero (t : Fin cfg0.N) (h : t.val = 0) : cond0_0 (grid0.coords t) := (hcond0_0 t).mpr (by rw [h])
theorem nc1_of_zero (t : Fin cfg0.N) (h : t.val = 0) : ¬cond0_1 (grid0.coords t) := fun hc => by
  have := (hcond0_1 t).mp hc; rw [h] at this; omega
theorem nc0_of_pos (t : Fin cfg0.N) (h : t.val ≠ 0) : ¬cond0_0 (grid0.coords t) := fun hc => by
  have h' := (hcond0_0 t).mp hc; have hN : t.val < 32 := lt_of_lt_of_eq t.isLt N0_eq; omega

section
variable (V : (c : Dev nD) → (b : Ref sig .tc) → Buf (Elt F) ((c : Thread nD τ).loc b))

/-! ## What the output block and the scratch hold after each point -/

/-- After point `n`: (the output block, the scratch). Point 0 is the first case; a later point is the last case when
    it is point 31 and the middle case otherwise, each over what point `n - 1` left in the scratch. -/
def outsAt0 (c : Dev nD) : (n : ℕ) → n < cfg0.N → Vec F S96x96 .f32 × Vec F S96x224 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) (c0_of_zero ⟨0, hn⟩ rfl) (nc1_of_zero ⟨0, hn⟩ rfl) (iblk0 V c 0 ⟨0, hn⟩),
      sout0_A_0 c (grid0.coords ⟨0, hn⟩) (ms0_0 ⟨0, hn⟩) (hs0_0 ⟨0, hn⟩) (ms0_1 ⟨0, hn⟩) (hs0_1 ⟨0, hn⟩) scM0_0 (Memref.isWhole_whole _) (c0_of_zero ⟨0, hn⟩ rfl) (nc1_of_zero ⟨0, hn⟩ rfl) (iblk0 V c 0 ⟨0, hn⟩))
  | n + 1, hn =>
    if h1 : (n + 1) % 32 = 31 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_of_pos ⟨n + 1, hn⟩ (Nat.succ_ne_zero n)) ((hcond0_1 ⟨n + 1, hn⟩).mpr h1) (iblk0 V c 0 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_of_pos ⟨n + 1, hn⟩ (Nat.succ_ne_zero n)) ((hcond0_1 ⟨n + 1, hn⟩).mpr h1) (iblk0 V c 0 ⟨n + 1, hn⟩) (outsAt0 c n (Nat.lt_of_succ_lt hn)).2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_of_pos ⟨n + 1, hn⟩ (Nat.succ_ne_zero n)) (fun h => h1 ((hcond0_1 ⟨n + 1, hn⟩).mp h)) (iblk0 V c 0 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_of_pos ⟨n + 1, hn⟩ (Nat.succ_ne_zero n)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (hz : t.val = 0) :
    outsAt0 V c t.val t.isLt = (out0_A_1 c (grid0.coords t) (ms0_0 t) (hs0_0 t) (ms0_1 t) (hs0_1 t) scM0_0 (Memref.isWhole_whole _) (c0_of_zero t hz) (nc1_of_zero t hz) (iblk0 V c 0 t),
      sout0_A_0 c (grid0.coords t) (ms0_0 t) (hs0_0 t) (ms0_1 t) (hs0_1 t) scM0_0 (Memref.isWhole_whole _) (c0_of_zero t hz) (nc1_of_zero t hz) (iblk0 V c 0 t)) := by
  obtain ⟨n, hn⟩ := t
  cases n with
  | zero => exact rfl
  | succ n => exact absurd hz (Nat.succ_ne_zero n)

theorem outsAt0_B (c : Dev nD) (t : Fin cfg0.N) (hz : t.val ≠ 0) (h1 : ¬t.val % 32 = 31) :
    outsAt0 V c t.val t.isLt = (out0_B_1 c (grid0.coords t) (ms0_0 t) (hs0_0 t) (ms0_1 t) (hs0_1 t) scM0_0 (Memref.isWhole_whole _) (nc0_of_pos t hz) (fun h => h1 ((hcond0_1 t).mp h)) (iblk0 V c 0 t) (outsAt0 V c (t.val - 1) (Nat.lt_of_le_of_lt (Nat.sub_le _ _) t.isLt)).2,
      sout0_B_0 c (grid0.coords t) (ms0_0 t) (hs0_0 t) (ms0_1 t) (hs0_1 t) scM0_0 (Memref.isWhole_whole _) (nc0_of_pos t hz) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl hz
  | succ n => exact (dif_neg h1).trans rfl

theorem outsAt0_C (c : Dev nD) (t : Fin cfg0.N) (hz : t.val ≠ 0) (h1 : t.val % 32 = 31) :
    outsAt0 V c t.val t.isLt = (out0_C_1 c (grid0.coords t) (ms0_0 t) (hs0_0 t) (ms0_1 t) (hs0_1 t) scM0_0 (Memref.isWhole_whole _) (nc0_of_pos t hz) ((hcond0_1 t).mpr h1) (iblk0 V c 0 t) (outsAt0 V c (t.val - 1) (Nat.lt_of_le_of_lt (Nat.sub_le _ _) t.isLt)).2,
      sout0_C_0 c (grid0.coords t) (ms0_0 t) (hs0_0 t) (ms0_1 t) (hs0_1 t) scM0_0 (Memref.isWhole_whole _) (nc0_of_pos t hz) ((hcond0_1 t).mpr h1) (iblk0 V c 0 t) (outsAt0 V c (t.val - 1) (Nat.lt_of_le_of_lt (Nat.sub_le _ _) t.isLt)).2) := by
  obtain ⟨n, hn⟩ := t
  cases n with
  | zero => exact absurd rfl hz
  | succ n => exact (dif_pos h1).trans rfl

/-! ## The invariant between points -/

/-- Before point `n`: at `n = 0` the launch's own invariant (the scratch at anything); afterwards the scratch at what
    point `n - 1` left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ others0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The proof data -/

/-- The mask pass's proof data on core `c`: the arrays as the launch finds them; after the body at point `t` the input
    block in place and the output block at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the point is the first, a middle or the last one, and
    that case's run applies; the invariant hands the body the scratch at what the point before left (at anything at the
    first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt N0_eq
  rw [show (dat0 V c).leavesExact 0 t = owns (c : Thread nD τ) (ms0_0 t) fullShare ((dat0 V c).after 0 t) from by
    unfold Dat.leavesExact; rw [liveAt0_0 t], after0_0]
  by_cases hz : t.val = 0
  · have h1 : ¬t.val % 32 = 31 := by omega
    rw [Dat.leavesExact_idle (dat0 V c) 1 t (idleAt0_1 t (fun h => h1 ((hcond0_1 t).mp h))) (noFlush0_1 t (fun h => h1 ((hcond0_1 t).mp h)))]
    rw [outsAt0_A V c t hz]
    unfold sout0_A_0; (try dsimp only)
    rw [PhiS_castSucc V c t, PhiS_zero V c _ _ hz, PhiA0_eq]
    iintro ⟨⟨⟨HS0, Hoth⟩, Hg⟩, Ho, ⟨%d0, H0⟩, ⟨%d1, H1⟩⟩
    iapply ((kernelRun0_A c (grid0.coords t) _ _ _ _ _ _ (c0_of_zero t hz) (nc1_of_zero t hz) (iblk0 V c 0 t)).2.2 _ Set.univ _)
    isplitl [H0]; · iexact H0
    isplitl [H1]; · iexact H1
    isplitl [HS0]; · iexact HS0
    iintro ⟨H0, H1, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A_0 c _ _ _ _ _ _ _ _ _ _)
        iexact Hoth
      iexact Hg
    isplitl [Ho]; · iexact Ho
    isplitl [H0]; · iexact H0
    iexists _; iexact H1
  · by_cases h1 : t.val % 32 = 31
    · rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t hz h1]
      unfold out0_C_1 sout0_C_0; (try dsimp only)
      rw [PhiS_castSucc V c t, PhiS_pos V c _ _ hz]
      iintro ⟨⟨⟨HS0, Hoth⟩, Hg⟩, Ho, ⟨%d0, H0⟩, ⟨%d1, H1⟩⟩
      iapply ((kernelRun0_C c (grid0.coords t) _ _ _ _ _ _ (nc0_of_pos t hz) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [Dat.leavesExact_idle (dat0 V c) 1 t (idleAt0_1 t (fun h => h1 ((hcond0_1 t).mp h))) (noFlush0_1 t (fun h => h1 ((hcond0_1 t).mp h)))]
      rw [outsAt0_B V c t hz h1]
      unfold sout0_B_0; (try dsimp only)
      rw [PhiS_castSucc V c t, PhiS_pos V c _ _ hz]
      iintro ⟨⟨⟨HS0, Hoth⟩, Hg⟩, Ho, ⟨%d0, H0⟩, ⟨%d1, H1⟩⟩
      iapply ((kernelRun0_B c (grid0.coords t) _ _ _ _ _ _ (nc0_of_pos t hz) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _)
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the launch's own back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 32 := N0_eq; omega)

end

end Cert.Kernel.Hand

end
-- ==== Proof.K.R1Run.lean ====
/-
  The gather pass (the second kernel launch) on its 4 × 2 × 8 grid: the body's run.

  At every grid point the body loads the whole 96 × 96 placement matrix and, for each of the 28 rows of the point's
  [1, 1, 28, 96, 224] slab of the (transposed) data input, contracts the row's [96, 224] slice with the matrix along
  the channel axis and stores the product into the same row of the output slab. Every point does the same: one case.
-/
import proofs.«123979_g27556510171775_cont_sun_c4_435_14_alg».proof.Proof.Gen.Kernel.Launch
import proofs.«123979_g27556510171775_cont_sun_c4_435_14_alg».proof.Proof.Gen.Kernel.Skeleton
import proofs.«123979_g27556510171775_cont_sun_c4_435_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run on whole memrefs: the matrix `x0` and the data slab `x1` are handed back as found; the output slab,
    found at anything, ends with the listed pieces written (the witness the run finds: one piece per row). -/
noncomputable def kernelRun1 (c : Dev nD) (i : grid1.Coords) (arg3 : Memref sig .tc .vmem S96x96 .f32) (harg3 : arg3.IsWhole) (arg4 : Memref sig .tc .vmem S1x1x28x96x224 .f32) (harg4 : arg4.IsWhole) (arg5 : Memref sig .tc .vmem S1x1x28x96x224 .f32) (harg5 : arg5.IsWhole)
    (x0 : Vec F S96x96 .f32) (x1 : Vec F S1x1x28x96x224 .f32) :
    { L2 : List (View.Piece (Elt F) S1x1x28x96x224 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc1__gather_body i arg3 harg3 arg4 harg4 arg5 harg5) K } := by
  refine ⟨?_, fun E K => ?run⟩
  case run =>
    simp only [cc1__gather_body_eq_skeleton]; unfold cc1__gather_body_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Hand

end
-- ==== Proof.K.R1Frame.lean ====
/-
  The gather pass's proof data and its body obligation: after the body at point `t` the two input blocks (the
  placement matrix, fetched once, and the point's data slab) are in place and the output slab holds what the body's 28
  stores leave, a function of the two input blocks; the launch's invariant is untouched (the kernel keeps nothing).
-/
import proofs.«123979_g27556510171775_cont_sun_c4_435_14_alg».proof.Proof.K.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

abbrev VO1_2 : View sig .tc .vmem S1x1x28x96x224 .f32 := (Memref.whole cc1_stg2_0 : Memref sig .tc .vmem S1x1x28x96x224 .f32).view
abbrev ms1_0 (t : Fin cfg1.N) : Memref sig .tc .vmem S96x96 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x28x96x224 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x28x96x224 .f32 := win1_2.stage (cfg1.slots t 2)
abbrev hs1_2 (t : Fin cfg1.N) : (ms1_2 t).IsWhole := hstage1_2 ((cfg1.slots t 2).cast nbuf1_2)

/-! ## What the body leaves in the output slab -/

/-- The body's 28 stores tile the output slab, one row each. -/
theorem cover1_2 (c : Dev nD) (i : grid1.Coords) (arg3 : Memref sig .tc .vmem S96x96 .f32) (harg3 : arg3.IsWhole) (arg4 : Memref sig .tc .vmem S1x1x28x96x224 .f32) (harg4 : arg4.IsWhole) (arg5 : Memref sig .tc .vmem S1x1x28x96x224 .f32) (harg5 : arg5.IsWhole)
    (x0 : Vec F S96x96 .f32) (x1 : Vec F S1x1x28x96x224 .f32) (y : S1x1x28x96x224.Idx) :
    ∃ pc ∈ (kernelRun1 c i arg3 harg3 arg4 harg4 arg5 harg5 x0 x1).1, y ∈ pc.1.set :=
  View.cover_of_tiledL (kernelRun1 c i arg3 harg3 arg4 harg4 arg5 harg5 x0 x1).1 S1x1x1x96x224.size (by sl_kernel_rfl) y
/-- What they leave there. -/
def out1_2 (c : Dev nD) (i : grid1.Coords) (arg3 : Memref sig .tc .vmem S96x96 .f32) (harg3 : arg3.IsWhole) (arg4 : Memref sig .tc .vmem S1x1x28x96x224 .f32) (harg4 : arg4.IsWhole) (arg5 : Memref sig .tc .vmem S1x1x28x96x224 .f32) (harg5 : arg5.IsWhole)
    (x0 : Vec F S96x96 .f32) (x1 : Vec F S1x1x28x96x224 .f32) : Vec F S1x1x28x96x224 .f32 :=
  VO1_2.read (Elt F) (VO1_2.writes (Elt F) VO1_2.junk (kernelRun1 c i arg3 harg3 arg4 harg4 arg5 harg5 x0 x1).1)

section
variable (V : (c : Dev nD) → (b : Ref sig .tc) → Buf (Elt F) ((c : Thread nD τ).loc b))

/-- Window `w`'s block of the gather pass at point `t`, read off its array as the launch finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The gather pass's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 c (grid1.coords t) (ms1_0 t) (hs1_0 t) (ms1_1 t) (hs1_1 t) (ms1_2 t) (hs1_2 t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t
    = out1_2 c (grid1.coords t) (ms1_0 t) (hs1_0 t) (ms1_1 t) (hs1_1 t) (ms1_2 t) (hs1_2 t) (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold out1_2
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
/-
  The kernel program's run: @main is two transposes (the inputs relabelled so that the channel axis is next to last),
  the mask pass, the gather pass, and one transpose of the result back. Its run is stated once, with every unscoped
  buffer's final contents NAMED: the launch contents folded through the first stretch of host operations, the mask
  pass's arrays at what its write-backs leave, the gather pass's likewise, and the last transpose. Both the frame
  (the arguments end as launched) and the value of the result are read off that one post.
-/
import proofs.«123979_g27556510171775_cont_sun_c4_435_14_alg».proof.Proof.K.R0Frame
import proofs.«123979_g27556510171775_cont_sun_c4_435_14_alg».proof.Proof.K.R1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two transposes (the mask pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the mask pass's exit (the gather pass's entry): its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the gather pass's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last transpose: the end. -/
abbrev W4 : Dev nD → Valuation τ sig (Elt F) := fun c => StableHlo.after hostOps2 (W3 m ρ c)

/-! ### The arguments end as launched: no host operation writes one and neither pass stages one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Both passes' proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The two passes as segments -/

set_option backward.isDefEq.respectTransparency.types false in
/-- The mask pass over the thread state: entered from every unscoped buffer at `W1`, left at `W2`. Its arrays
    are split out of the unscoped buffers and put back at the exit contents; the generator register goes into the
    launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather pass over the thread state: entered from every unscoped buffer at `W2`, left at `W3`. Its arrays
    are split out of the unscoped buffers and put back at the exit contents; the generator register goes into the
    launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and every final state holds every unscoped buffer at the last boundary's
    contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any `F`: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

end Cert.Kernel.Hand

end
-- ==== Proof.KI.R0Shared.lean ====
/-
  The mask pass (the first of the two kernel launches) on its 4 × 8 grid: what its three control cases share.

  At every grid point the body loads the point's block of the (transposed) mask input, a [1, 28, 96, 224] slab, and
  folds "is this entry nonzero" into a [96, 224] scratch by a running maximum; at the FIRST point (0, 0) it first
  resets the scratch to zero, and at the LAST point (3, 7) it afterwards reduces the scratch along its second axis to
  a per-channel flag and writes the 96 × 96 placement matrix computed from the flags into its output block.
  So there are three cases: the first point, the points strictly between, the last point. The output block is stored
  only in the last case; elsewhere the output window is idle and not written back.
-/
import proofs.«123979_g27556510171775_cont_sun_c4_435_14_alg».proof.Proof.Gen.KernelIdeal.Launch
import proofs.«123979_g27556510171775_cont_sun_c4_435_14_alg».proof.Proof.Gen.KernelIdeal.Skeleton
import proofs.«123979_g27556510171775_cont_sun_c4_435_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of the mask pass at point `t`, read off its array as the launch finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point and the
    body leaves it in place), for any proof data whose array is `V`'s. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end

/-! ## The two conditions, decided over the grid -/

/-- "This is the first point": both grid coordinates are zero (the body's first conditional, as it computes it). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 of the 32 and nowhere else. -/
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last point": the coordinates are (3, 7) (the body's second conditional). -/
abbrev cond0_1 (i : grid0.Coords) : Prop := k0_cond2 i = 1#1
/-- It holds at point 31 of the 32 and nowhere else. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

/-- The input window is never idle. -/
theorem liveAt0_0 : ∀ t : Fin cfg0.N, cfg0.idle 0 (grid0.coords t) = false := by decide +kernel
/-- Away from the last point the output window is idle (the body stores nothing into it) and is not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- At the last point it is live. -/
theorem liveAt0_1 : ∀ t : Fin cfg0.N, cond0_1 (grid0.coords t) → cfg0.idle 1 (grid0.coords t) = false := by decide +kernel

/-! ## The memrefs the body is called with -/

/-- One staging buffer of the output window, through which its contents are stated. -/
abbrev VO0_1 : View sig .tc .vmem S96x96 .f32 := (Memref.whole cc0_stg1_0 : Memref sig .tc .vmem S96x96 .f32).view
/-- Each window's current staging memref at point `t`, as the pipeline passes it, and its wholeness. -/
abbrev ms0_0 (t : Fin cfg0.N) : Memref sig .tc .vmem S1x28x96x224 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x96 .f32 := win0_1.stage (cfg0.slots t 1)
abbrev hs0_1 (t : Fin cfg0.N) : (ms0_1 t).IsWhole := hstage0_1 ((cfg0.slots t 1).cast nbuf0_1)
/-- The scratch the body carries from point to point: a whole scoped buffer of the kernel's own. -/
abbrev scM0_0 : Memref sig .tc .vmem S96x224 .f32 := Memref.whole cc0_scratch0
abbrev VS0_0 : View sig .tc .vmem S96x224 .f32 := scM0_0.view

/-- The scoped buffers the mask pass does not stage, other than its scratch: the second launch's five staging
    buffers, each whole at some contents. They ride through the mask pass untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The launch's invariant for a kernel that keeps nothing (the scoped buffers it does not stage at anything, the
    generator register at some state), with the scratch singled out as a memref owned at some contents. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0; rw [scopedRest0_eq]; simp only [scM0_0, owns_whole]; try rfl

end Cert.KernelIdeal.Hand

end
-- ==== Proof.KI.R0RunA.lean ====
/-
  The mask body at the FIRST grid point: the scratch, found at anything, is reset to zero and then takes the running
  maximum with this point's slab; the output block is not touched.
-/
import proofs.«123979_g27556510171775_cont_sun_c4_435_14_alg».proof.Proof.KI.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the first point, on whole memrefs: the input block `x0` and the idle output block `xi1` are handed
    back as found; the scratch, found at anything, ends with the listed pieces written (the witness the run finds). -/
noncomputable def kernelRun0_A (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : cond0_0 i) (hc1 : ¬cond0_1 i)
    (x0 : Vec F S1x28x96x224 .f32) :
    Σ' (L1 : List (View.Piece (Elt F) S96x96 .f32)), { LS0 : List (View.Piece (Elt F) S96x224 .f32) //
      ∀ (xi1 : Vec F S96x96 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__mask_body i arg2 harg2 arg3 harg3 arg4 harg4) K } := by
  refine ⟨[], ?_, fun xi1 E K => ?run⟩
  case run =>
    simp only [cc0__mask_body_eq_skeleton]; unfold cc0__mask_body_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.R0RunB.lean ====
/-
  The mask body at a grid point strictly between the first and the last: the scratch, found at what the point before
  left (`xs0`), takes the running maximum with this point's slab; the output block is not touched.
-/
import proofs.«123979_g27556510171775_cont_sun_c4_435_14_alg».proof.Proof.KI.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at a middle point, on whole memrefs: the input block `x0` and the idle output block `xi1` are handed
    back as found; the scratch, found at `xs0`, ends with the listed pieces written (the witness the run finds). -/
noncomputable def kernelRun0_B (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : ¬cond0_1 i)
    (x0 : Vec F S1x28x96x224 .f32) (xs0 : Vec F S96x224 .f32) :
    Σ' (L1 : List (View.Piece (Elt F) S96x96 .f32)), { LS0 : List (View.Piece (Elt F) S96x224 .f32) //
      ∀ (xi1 : Vec F S96x96 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__mask_body i arg2 harg2 arg3 harg3 arg4 harg4) K } := by
  refine ⟨[], ?_, fun xi1 E K => ?run⟩
  case run =>
    simp only [cc0__mask_body_eq_skeleton]; unfold cc0__mask_body_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.R0RunC.lean ====
/-
  The mask body at the LAST grid point: the scratch, found at what the point before left (`xs0`), takes the running
  maximum with this point's slab, and the placement matrix computed from the scratch is stored into the output block.
-/
import proofs.«123979_g27556510171775_cont_sun_c4_435_14_alg».proof.Proof.KI.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the last point, on whole memrefs: the input block `x0` is handed back as found; the output block,
    found at anything, and the scratch, found at `xs0`, end with the listed pieces written (the witnesses the run finds). -/
noncomputable def kernelRun0_C (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : cond0_1 i)
    (x0 : Vec F S1x28x96x224 .f32) (xs0 : Vec F S96x224 .f32) :
    Σ' (L1 : List (View.Piece (Elt F) S96x96 .f32)), { LS0 : List (View.Piece (Elt F) S96x224 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__mask_body i arg2 harg2 arg3 harg3 arg4 harg4) K } := by
  refine ⟨?_, ?_, fun E K => ?run⟩
  case run =>
    simp only [cc0__mask_body_eq_skeleton]; unfold cc0__mask_body_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KI.R0Frame.lean ====
/-
  The mask pass's proof data and its body obligation.

  What the scratch holds after point `n` is defined by recursion on `n`: at point 0 what the first case leaves, at a
  later point what the middle (or last) case leaves given what point `n - 1` left. The launch's invariant before point
  `n > 0` holds the scratch at exactly that; before point 0 it holds it at anything. The output block holds the
  placement matrix after the last point only; at every other point the window is idle and nothing consults it.
-/
import proofs.«123979_g27556510171775_cont_sun_c4_435_14_alg».proof.Proof.KI.R0RunA
import proofs.«123979_g27556510171775_cont_sun_c4_435_14_alg».proof.Proof.KI.R0RunB
import proofs.«123979_g27556510171775_cont_sun_c4_435_14_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The first case stores nothing into the output block: a placeholder nothing consults. -/
def out0_A_1 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : cond0_0 i) (hc1 : ¬cond0_1 i)
    (x0 : Vec F S1x28x96x224 .f32) : Vec F S96x96 .f32 :=
  VO0_1.read (Elt F) (VO0_1.writes (Elt F) VO0_1.junk (kernelRun0_A c i arg2 harg2 arg3 harg3 arg4 harg4 hc0 hc1 x0).1)
/-- Its stores into the scratch tile it. -/
theorem scover0_A_0 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : cond0_0 i) (hc1 : ¬cond0_1 i)
    (x0 : Vec F S1x28x96x224 .f32) (y : S96x224.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S96x224.size (by sl_kernel_rfl) y
/-- What the first case leaves in the scratch. -/
def sout0_A_0 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : cond0_0 i) (hc1 : ¬cond0_1 i)
    (x0 : Vec F S1x28x96x224 .f32) : Vec F S96x224 .f32 :=
  VS0_0.read (Elt F) (VS0_0.writes (Elt F) VS0_0.junk (kernelRun0_A c i arg2 harg2 arg3 harg3 arg4 harg4 hc0 hc1 x0).2.1)

/-- The middle case stores nothing into the output block: a placeholder nothing consults. -/
def out0_B_1 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : ¬cond0_1 i)
    (x0 : Vec F S1x28x96x224 .f32) (xs0 : Vec F S96x224 .f32) : Vec F S96x96 .f32 :=
  VO0_1.read (Elt F) (VO0_1.writes (Elt F) VO0_1.junk (kernelRun0_B c i arg2 harg2 arg3 harg3 arg4 harg4 hc0 hc1 x0 xs0).1)
theorem scover0_B_0 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : ¬cond0_1 i)
    (x0 : Vec F S1x28x96x224 .f32) (xs0 : Vec F S96x224 .f32) (y : S96x224.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S96x224.size (by sl_kernel_rfl) y
/-- What the middle case leaves in the scratch. -/
def sout0_B_0 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : ¬cond0_1 i)
    (x0 : Vec F S1x28x96x224 .f32) (xs0 : Vec F S96x224 .f32) : Vec F S96x224 .f32 :=
  VS0_0.read (Elt F) (VS0_0.writes (Elt F) VS0_0.junk (kernelRun0_B c i arg2 harg2 arg3 harg3 arg4 harg4 hc0 hc1 x0 xs0).2.1)

/-- The last case's one store into the output block covers it. -/
theorem cover0_C_1 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : cond0_1 i)
    (x0 : Vec F S1x28x96x224 .f32) (xs0 : Vec F S96x224 .f32) (y : S96x96.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S96x96.size (by sl_kernel_rfl) y
/-- What the last case leaves in the output block. -/
def out0_C_1 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : cond0_1 i)
    (x0 : Vec F S1x28x96x224 .f32) (xs0 : Vec F S96x224 .f32) : Vec F S96x96 .f32 :=
  VO0_1.read (Elt F) (VO0_1.writes (Elt F) VO0_1.junk (kernelRun0_C c i arg2 harg2 arg3 harg3 arg4 harg4 hc0 hc1 x0 xs0).1)
theorem scover0_C_0 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : cond0_1 i)
    (x0 : Vec F S1x28x96x224 .f32) (xs0 : Vec F S96x224 .f32) (y : S96x224.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S96x224.size (by sl_kernel_rfl) y
/-- What the last case leaves in the scratch. -/
def sout0_C_0 (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : cond0_1 i)
    (x0 : Vec F S1x28x96x224 .f32) (xs0 : Vec F S96x224 .f32) : Vec F S96x224 .f32 :=
  VS0_0.read (Elt F) (VS0_0.writes (Elt F) VS0_0.junk (kernelRun0_C c i arg2 harg2 arg3 harg3 arg4 harg4 hc0 hc1 x0 xs0).2.1)

/-! ## Which case a point is in -/

theorem N0_eq : cfg0.N = 32 := N_0
theorem c0_of_zero (t : Fin cfg0.N) (h : t.val = 0) : cond0_0 (grid0.coords t) := (hcond0_0 t).mpr (by rw [h])
theorem nc1_of_zero (t : Fin cfg0.N) (h : t.val = 0) : ¬cond0_1 (grid0.coords t) := fun hc => by
  have := (hcond0_1 t).mp hc; rw [h] at this; omega
theorem nc0_of_pos (t : Fin cfg0.N) (h : t.val ≠ 0) : ¬cond0_0 (grid0.coords t) := fun hc => by
  have h' := (hcond0_0 t).mp hc; have hN : t.val < 32 := lt_of_lt_of_eq t.isLt N0_eq; omega

section
variable (V : (c : Dev nD) → (b : Ref sig .tc) → Buf (Elt F) ((c : Thread nD τ).loc b))

/-! ## What the output block and the scratch hold after each point -/

/-- After point `n`: (the output block, the scratch). Point 0 is the first case; a later point is the last case when
    it is point 31 and the middle case otherwise, each over what point `n - 1` left in the scratch. -/
def outsAt0 (c : Dev nD) : (n : ℕ) → n < cfg0.N → Vec F S96x96 .f32 × Vec F S96x224 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) (c0_of_zero ⟨0, hn⟩ rfl) (nc1_of_zero ⟨0, hn⟩ rfl) (iblk0 V c 0 ⟨0, hn⟩),
      sout0_A_0 c (grid0.coords ⟨0, hn⟩) (ms0_0 ⟨0, hn⟩) (hs0_0 ⟨0, hn⟩) (ms0_1 ⟨0, hn⟩) (hs0_1 ⟨0, hn⟩) scM0_0 (Memref.isWhole_whole _) (c0_of_zero ⟨0, hn⟩ rfl) (nc1_of_zero ⟨0, hn⟩ rfl) (iblk0 V c 0 ⟨0, hn⟩))
  | n + 1, hn =>
    if h1 : (n + 1) % 32 = 31 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_of_pos ⟨n + 1, hn⟩ (Nat.succ_ne_zero n)) ((hcond0_1 ⟨n + 1, hn⟩).mpr h1) (iblk0 V c 0 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_of_pos ⟨n + 1, hn⟩ (Nat.succ_ne_zero n)) ((hcond0_1 ⟨n + 1, hn⟩).mpr h1) (iblk0 V c 0 ⟨n + 1, hn⟩) (outsAt0 c n (Nat.lt_of_succ_lt hn)).2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_of_pos ⟨n + 1, hn⟩ (Nat.succ_ne_zero n)) (fun h => h1 ((hcond0_1 ⟨n + 1, hn⟩).mp h)) (iblk0 V c 0 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_of_pos ⟨n + 1, hn⟩ (Nat.succ_ne_zero n)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (hz : t.val = 0) :
    outsAt0 V c t.val t.isLt = (out0_A_1 c (grid0.coords t) (ms0_0 t) (hs0_0 t) (ms0_1 t) (hs0_1 t) scM0_0 (Memref.isWhole_whole _) (c0_of_zero t hz) (nc1_of_zero t hz) (iblk0 V c 0 t),
      sout0_A_0 c (grid0.coords t) (ms0_0 t) (hs0_0 t) (ms0_1 t) (hs0_1 t) scM0_0 (Memref.isWhole_whole _) (c0_of_zero t hz) (nc1_of_zero t hz) (iblk0 V c 0 t)) := by
  obtain ⟨n, hn⟩ := t
  cases n with
  | zero => exact rfl
  | succ n => exact absurd hz (Nat.succ_ne_zero n)

theorem outsAt0_B (c : Dev nD) (t : Fin cfg0.N) (hz : t.val ≠ 0) (h1 : ¬t.val % 32 = 31) :
    outsAt0 V c t.val t.isLt = (out0_B_1 c (grid0.coords t) (ms0_0 t) (hs0_0 t) (ms0_1 t) (hs0_1 t) scM0_0 (Memref.isWhole_whole _) (nc0_of_pos t hz) (fun h => h1 ((hcond0_1 t).mp h)) (iblk0 V c 0 t) (outsAt0 V c (t.val - 1) (Nat.lt_of_le_of_lt (Nat.sub_le _ _) t.isLt)).2,
      sout0_B_0 c (grid0.coords t) (ms0_0 t) (hs0_0 t) (ms0_1 t) (hs0_1 t) scM0_0 (Memref.isWhole_whole _) (nc0_of_pos t hz) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl hz
  | succ n => exact (dif_neg h1).trans rfl

theorem outsAt0_C (c : Dev nD) (t : Fin cfg0.N) (hz : t.val ≠ 0) (h1 : t.val % 32 = 31) :
    outsAt0 V c t.val t.isLt = (out0_C_1 c (grid0.coords t) (ms0_0 t) (hs0_0 t) (ms0_1 t) (hs0_1 t) scM0_0 (Memref.isWhole_whole _) (nc0_of_pos t hz) ((hcond0_1 t).mpr h1) (iblk0 V c 0 t) (outsAt0 V c (t.val - 1) (Nat.lt_of_le_of_lt (Nat.sub_le _ _) t.isLt)).2,
      sout0_C_0 c (grid0.coords t) (ms0_0 t) (hs0_0 t) (ms0_1 t) (hs0_1 t) scM0_0 (Memref.isWhole_whole _) (nc0_of_pos t hz) ((hcond0_1 t).mpr h1) (iblk0 V c 0 t) (outsAt0 V c (t.val - 1) (Nat.lt_of_le_of_lt (Nat.sub_le _ _) t.isLt)).2) := by
  obtain ⟨n, hn⟩ := t
  cases n with
  | zero => exact absurd rfl hz
  | succ n => exact (dif_pos h1).trans rfl

/-! ## The invariant between points -/

/-- Before point `n`: at `n = 0` the launch's own invariant (the scratch at anything); afterwards the scratch at what
    point `n - 1` left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ others0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The proof data -/

/-- The mask pass's proof data on core `c`: the arrays as the launch finds them; after the body at point `t` the input
    block in place and the output block at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the point is the first, a middle or the last one, and
    that case's run applies; the invariant hands the body the scratch at what the point before left (at anything at the
    first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt N0_eq
  rw [show (dat0 V c).leavesExact 0 t = owns (c : Thread nD τ) (ms0_0 t) fullShare ((dat0 V c).after 0 t) from by
    unfold Dat.leavesExact; rw [liveAt0_0 t], after0_0]
  by_cases hz : t.val = 0
  · have h1 : ¬t.val % 32 = 31 := by omega
    rw [Dat.leavesExact_idle (dat0 V c) 1 t (idleAt0_1 t (fun h => h1 ((hcond0_1 t).mp h))) (noFlush0_1 t (fun h => h1 ((hcond0_1 t).mp h)))]
    rw [outsAt0_A V c t hz]
    unfold sout0_A_0; (try dsimp only)
    rw [PhiS_castSucc V c t, PhiS_zero V c _ _ hz, PhiA0_eq]
    iintro ⟨⟨⟨HS0, Hoth⟩, Hg⟩, Ho, ⟨%d0, H0⟩, ⟨%d1, H1⟩⟩
    iapply ((kernelRun0_A c (grid0.coords t) _ _ _ _ _ _ (c0_of_zero t hz) (nc1_of_zero t hz) (iblk0 V c 0 t)).2.2 _ Set.univ _)
    isplitl [H0]; · iexact H0
    isplitl [H1]; · iexact H1
    isplitl [HS0]; · iexact HS0
    iintro ⟨H0, H1, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A_0 c _ _ _ _ _ _ _ _ _ _)
        iexact Hoth
      iexact Hg
    isplitl [Ho]; · iexact Ho
    isplitl [H0]; · iexact H0
    iexists _; iexact H1
  · by_cases h1 : t.val % 32 = 31
    · rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t hz h1]
      unfold out0_C_1 sout0_C_0; (try dsimp only)
      rw [PhiS_castSucc V c t, PhiS_pos V c _ _ hz]
      iintro ⟨⟨⟨HS0, Hoth⟩, Hg⟩, Ho, ⟨%d0, H0⟩, ⟨%d1, H1⟩⟩
      iapply ((kernelRun0_C c (grid0.coords t) _ _ _ _ _ _ (nc0_of_pos t hz) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [Dat.leavesExact_idle (dat0 V c) 1 t (idleAt0_1 t (fun h => h1 ((hcond0_1 t).mp h))) (noFlush0_1 t (fun h => h1 ((hcond0_1 t).mp h)))]
      rw [outsAt0_B V c t hz h1]
      unfold sout0_B_0; (try dsimp only)
      rw [PhiS_castSucc V c t, PhiS_pos V c _ _ hz]
      iintro ⟨⟨⟨HS0, Hoth⟩, Hg⟩, Ho, ⟨%d0, H0⟩, ⟨%d1, H1⟩⟩
      iapply ((kernelRun0_B c (grid0.coords t) _ _ _ _ _ _ (nc0_of_pos t hz) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _)
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the launch's own back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 32 := N0_eq; omega)

end

end Cert.KernelIdeal.Hand

end
-- ==== Proof.KI.R1Run.lean ====
/-
  The gather pass (the second kernel launch) on its 4 × 2 × 8 grid: the body's run.

  At every grid point the body loads the whole 96 × 96 placement matrix and, for each of the 28 rows of the point's
  [1, 1, 28, 96, 224] slab of the (transposed) data input, contracts the row's [96, 224] slice with the matrix along
  the channel axis and stores the product into the same row of the output slab. Every point does the same: one case.
-/
import proofs.«123979_g27556510171775_cont_sun_c4_435_14_alg».proof.Proof.Gen.KernelIdeal.Launch
import proofs.«123979_g27556510171775_cont_sun_c4_435_14_alg».proof.Proof.Gen.KernelIdeal.Skeleton
import proofs.«123979_g27556510171775_cont_sun_c4_435_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run on whole memrefs: the matrix `x0` and the data slab `x1` are handed back as found; the output slab,
    found at anything, ends with the listed pieces written (the witness the run finds: one piece per row). -/
noncomputable def kernelRun1 (c : Dev nD) (i : grid1.Coords) (arg3 : Memref sig .tc .vmem S96x96 .f32) (harg3 : arg3.IsWhole) (arg4 : Memref sig .tc .vmem S1x1x28x96x224 .f32) (harg4 : arg4.IsWhole) (arg5 : Memref sig .tc .vmem S1x1x28x96x224 .f32) (harg5 : arg5.IsWhole)
    (x0 : Vec F S96x96 .f32) (x1 : Vec F S1x1x28x96x224 .f32) :
    { L2 : List (View.Piece (Elt F) S1x1x28x96x224 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc1__gather_body i arg3 harg3 arg4 harg4 arg5 harg5) K } := by
  refine ⟨?_, fun E K => ?run⟩
  case run =>
    simp only [cc1__gather_body_eq_skeleton]; unfold cc1__gather_body_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Hand

end
-- ==== Proof.KI.R1Frame.lean ====
/-
  The gather pass's proof data and its body obligation: after the body at point `t` the two input blocks (the
  placement matrix, fetched once, and the point's data slab) are in place and the output slab holds what the body's 28
  stores leave, a function of the two input blocks; the launch's invariant is untouched (the kernel keeps nothing).
-/
import proofs.«123979_g27556510171775_cont_sun_c4_435_14_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

abbrev VO1_2 : View sig .tc .vmem S1x1x28x96x224 .f32 := (Memref.whole cc1_stg2_0 : Memref sig .tc .vmem S1x1x28x96x224 .f32).view
abbrev ms1_0 (t : Fin cfg1.N) : Memref sig .tc .vmem S96x96 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x28x96x224 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x28x96x224 .f32 := win1_2.stage (cfg1.slots t 2)
abbrev hs1_2 (t : Fin cfg1.N) : (ms1_2 t).IsWhole := hstage1_2 ((cfg1.slots t 2).cast nbuf1_2)

/-! ## What the body leaves in the output slab -/

/-- The body's 28 stores tile the output slab, one row each. -/
theorem cover1_2 (c : Dev nD) (i : grid1.Coords) (arg3 : Memref sig .tc .vmem S96x96 .f32) (harg3 : arg3.IsWhole) (arg4 : Memref sig .tc .vmem S1x1x28x96x224 .f32) (harg4 : arg4.IsWhole) (arg5 : Memref sig .tc .vmem S1x1x28x96x224 .f32) (harg5 : arg5.IsWhole)
    (x0 : Vec F S96x96 .f32) (x1 : Vec F S1x1x28x96x224 .f32) (y : S1x1x28x96x224.Idx) :
    ∃ pc ∈ (kernelRun1 c i arg3 harg3 arg4 harg4 arg5 harg5 x0 x1).1, y ∈ pc.1.set :=
  View.cover_of_tiledL (kernelRun1 c i arg3 harg3 arg4 harg4 arg5 harg5 x0 x1).1 S1x1x1x96x224.size (by sl_kernel_rfl) y
/-- What they leave there. -/
def out1_2 (c : Dev nD) (i : grid1.Coords) (arg3 : Memref sig .tc .vmem S96x96 .f32) (harg3 : arg3.IsWhole) (arg4 : Memref sig .tc .vmem S1x1x28x96x224 .f32) (harg4 : arg4.IsWhole) (arg5 : Memref sig .tc .vmem S1x1x28x96x224 .f32) (harg5 : arg5.IsWhole)
    (x0 : Vec F S96x96 .f32) (x1 : Vec F S1x1x28x96x224 .f32) : Vec F S1x1x28x96x224 .f32 :=
  VO1_2.read (Elt F) (VO1_2.writes (Elt F) VO1_2.junk (kernelRun1 c i arg3 harg3 arg4 harg4 arg5 harg5 x0 x1).1)

section
variable (V : (c : Dev nD) → (b : Ref sig .tc) → Buf (Elt F) ((c : Thread nD τ).loc b))

/-- Window `w`'s block of the gather pass at point `t`, read off its array as the launch finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The gather pass's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 c (grid1.coords t) (ms1_0 t) (hs1_0 t) (ms1_1 t) (hs1_1 t) (ms1_2 t) (hs1_2 t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t
    = out1_2 c (grid1.coords t) (ms1_0 t) (hs1_0 t) (ms1_1 t) (hs1_1 t) (ms1_2 t) (hs1_2 t) (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold out1_2
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
/-
  The kernel program's run: @main is two transposes (the inputs relabelled so that the channel axis is next to last),
  the mask pass, the gather pass, and one transpose of the result back. Its run is stated once, with every unscoped
  buffer's final contents NAMED: the launch contents folded through the first stretch of host operations, the mask
  pass's arrays at what its write-backs leave, the gather pass's likewise, and the last transpose. Both the frame
  (the arguments end as launched) and the value of the result are read off that one post.
-/
import proofs.«123979_g27556510171775_cont_sun_c4_435_14_alg».proof.Proof.KI.R0Frame
import proofs.«123979_g27556510171775_cont_sun_c4_435_14_alg».proof.Proof.KI.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two transposes (the mask pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the mask pass's exit (the gather pass's entry): its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the gather pass's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last transpose: the end. -/
abbrev W4 : Dev nD → Valuation τ sig (Elt F) := fun c => StableHlo.after hostOps2 (W3 m ρ c)

/-! ### The arguments end as launched: no host operation writes one and neither pass stages one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Both passes' proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The two passes as segments -/

set_option backward.isDefEq.respectTransparency.types false in
/-- The mask pass over the thread state: entered from every unscoped buffer at `W1`, left at `W2`. Its arrays
    are split out of the unscoped buffers and put back at the exit contents; the generator register goes into the
    launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather pass over the thread state: entered from every unscoped buffer at `W2`, left at `W3`. Its arrays
    are split out of the unscoped buffers and put back at the exit contents; the generator register goes into the
    launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and every final state holds every unscoped buffer at the last boundary's
    contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any `F`: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.KI.R0Pieces.lean ====
/-
  The mask pass's values, first half: what each case leaves is the body's arithmetic applied to what it loaded. At every
  point the scratch ends as `k0_pay2 x prev` — the running maximum of the previous scratch `prev` with "entry nonzero"
  over the 28 rows of the point's slab `x` — where `prev` is the zero array `k0_pay1` at the first point; and at the last
  point the output block ends as `k0_pay3` of that scratch. Hence the scratch after point `n` is a plain recursion over
  the points, and the output block after the last point is `k0_pay3` of the scratch after point 31.
-/
import proofs.«123979_g27556510171775_cont_sun_c4_435_14_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz4 : (![0, 0, 0, 0] : Fin 4 → ℕ) = fun _ => 0 := by funext a; fin_cases a <;> rfl

/-- A load of a whole buffer held at `x` reads `x`. -/
theorem readAt_whole4 (M : Memref sig .tc .vmem S1x28x96x224 .f32) (hM : M.IsWhole) (x : Vec F S1x28x96x224 .f32) :
    View.readAt (Elt F) M.view (Rect.unit (s := S1x28x96x224) ![0, 0, 0, 0] S1x28x96x224.size inb_S1x28x96x224_S1x28x96x224_0_0_0_0).toLoadRect (hM.unread x) = x := by
  rw [View.readAt_eq_ld, hM.read_unread]; exact View.ld_unit_zero (S := S1x28x96x224) hz4 _ x
theorem readAt_whole2 (M : Memref sig .tc .vmem S96x224 .f32) (hM : M.IsWhole) (x : Vec F S96x224 .f32) :
    View.readAt (Elt F) M.view (Rect.unit (s := S96x224) ![0, 0] S96x224.size inb_S96x224_S96x224_0_0).toLoadRect (hM.unread x) = x := by
  rw [View.readAt_eq_ld, hM.read_unread]; exact View.ld_unit_zero (S := S96x224) hz2 _ x

theorem sout0_A_0_eq (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : cond0_0 i) (hc1 : ¬cond0_1 i) (x0 : Vec F S1x28x96x224 .f32) :
    sout0_A_0 c i arg2 harg2 arg3 harg3 arg4 harg4 hc0 hc1 x0 = k0_pay2 x0 (k0_pay1 (F := F)) := by
  unfold sout0_A_0
  rw [View.read_writes_eq_canon _ _ _ (scover0_A_0 c i arg2 harg2 arg3 harg3 arg4 harg4 hc0 hc1 x0)]
  unfold kernelRun0_A
  dsimp only
  sl_unfold_words
  refine (View.canon_cons_unit_zero hz2 _ _ _).trans ?_
  refine congrArg₂ k0_pay2 (readAt_whole4 arg2 harg2 x0) ?_
  exact View.readCov_unit_zero _ hz2 _ _

theorem sout0_B_0_eq (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : ¬cond0_1 i) (x0 : Vec F S1x28x96x224 .f32) (xs0 : Vec F S96x224 .f32) :
    sout0_B_0 c i arg2 harg2 arg3 harg3 arg4 harg4 hc0 hc1 x0 xs0 = k0_pay2 x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  refine (View.canon_unit_zero hz2 _ _).trans ?_
  exact congrArg₂ k0_pay2 (readAt_whole4 arg2 harg2 x0) (readAt_whole2 arg4 harg4 xs0)

theorem sout0_C_0_eq (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : cond0_1 i) (x0 : Vec F S1x28x96x224 .f32) (xs0 : Vec F S96x224 .f32) :
    sout0_C_0 c i arg2 harg2 arg3 harg3 arg4 harg4 hc0 hc1 x0 xs0 = k0_pay2 x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  refine (View.canon_unit_zero hz2 _ _).trans ?_
  exact congrArg₂ k0_pay2 (readAt_whole4 arg2 harg2 x0) (readAt_whole2 arg4 harg4 xs0)

theorem out0_C_1_eq (c : Dev nD) (i : grid0.Coords) (arg2 : Memref sig .tc .vmem S1x28x96x224 .f32) (harg2 : arg2.IsWhole) (arg3 : Memref sig .tc .vmem S96x96 .f32) (harg3 : arg3.IsWhole) (arg4 : Memref sig .tc .vmem S96x224 .f32) (harg4 : arg4.IsWhole) (hc0 : ¬cond0_0 i) (hc1 : cond0_1 i) (x0 : Vec F S1x28x96x224 .f32) (xs0 : Vec F S96x224 .f32) :
    out0_C_1 c i arg2 harg2 arg3 harg3 arg4 harg4 hc0 hc1 x0 xs0 = k0_pay3 (k0_pay2 x0 xs0) := by
  unfold out0_C_1
  rw [View.read_writes_eq_canon _ _ _ (cover0_C_1 c i arg2 harg2 arg3 harg3 arg4 harg4 hc0 hc1 x0 xs0)]
  unfold kernelRun0_C
  dsimp only
  sl_unfold_words
  refine (View.canon_unit_zero hz2 _ _).trans ?_
  refine congrArg k0_pay3 ?_
  refine (View.readCov_unit_zero _ hz2 _ _).trans ?_
  exact congrArg₂ k0_pay2 (readAt_whole4 arg2 harg2 x0) (readAt_whole2 arg4 harg4 xs0)

section
variable (V : (c : Dev nD) → (b : Ref sig .tc) → Buf (Elt F) ((c : Thread nD τ).loc b))

/-- The scratch after point `n`: the running maximum started from zero at point 0. -/
def accN (c : Dev nD) : (n : ℕ) → n < cfg0.N → Vec F S96x224 .f32
  | 0, hn => k0_pay2 (iblk0 V c 0 ⟨0, hn⟩) (k0_pay1 (F := F))
  | n + 1, hn => k0_pay2 (iblk0 V c 0 ⟨n + 1, hn⟩) (accN c n (Nat.lt_of_succ_lt hn))

theorem accN_zero (c : Dev nD) (hn : 0 < cfg0.N) : accN V c 0 hn = k0_pay2 (iblk0 V c 0 ⟨0, hn⟩) (k0_pay1 (F := F)) := rfl
theorem accN_succ (c : Dev nD) (n : ℕ) (hn : n + 1 < cfg0.N) :
    accN V c (n + 1) hn = k0_pay2 (iblk0 V c 0 ⟨n + 1, hn⟩) (accN V c n (Nat.lt_of_succ_lt hn)) := rfl

theorem outsAt0_snd (c : Dev nD) : ∀ (n : ℕ) (hn : n < cfg0.N), (outsAt0 V c n hn).2 = accN V c n hn
  | 0, hn => by
    have e := congrArg Prod.snd (outsAt0_A V c ⟨0, hn⟩ rfl)
    dsimp only at e
    rw [sout0_A_0_eq] at e
    exact e
  | n + 1, hn => by
    have ih := outsAt0_snd c n (Nat.lt_of_succ_lt hn)
    by_cases h1 : (n + 1) % 32 = 31
    · have e := congrArg Prod.snd (outsAt0_C V c ⟨n + 1, hn⟩ (Nat.succ_ne_zero n) h1)
      dsimp only at e
      rw [sout0_C_0_eq] at e
      refine e.trans ?_
      exact congrArg (k0_pay2 (iblk0 V c 0 ⟨n + 1, hn⟩)) ih
    · have e := congrArg Prod.snd (outsAt0_B V c ⟨n + 1, hn⟩ (Nat.succ_ne_zero n) h1)
      dsimp only at e
      rw [sout0_B_0_eq] at e
      refine e.trans ?_
      exact congrArg (k0_pay2 (iblk0 V c 0 ⟨n + 1, hn⟩)) ih

/-- The output block after the last point is the placement matrix of the final scratch. -/
theorem outsAt0_fst_last (c : Dev nD) (hn : 31 < cfg0.N) : (outsAt0 V c 31 hn).1 = k0_pay3 (accN V c 31 hn) := by
  have e := congrArg Prod.fst (outsAt0_C V c ⟨31, hn⟩ (Nat.succ_ne_zero 30) rfl)
  dsimp only at e
  rw [out0_C_1_eq] at e
  refine e.trans ?_
  exact congrArg k0_pay3 (congrArg (k0_pay2 (iblk0 V c 0 ⟨31, hn⟩)) (outsAt0_snd V c 30 (Nat.lt_of_succ_lt hn)))

end

end Cert.KernelIdeal.Hand

end
-- ==== Proof.KI.Val0a.lean ====
/-
  The mask pass's arithmetic at an index, on the extended reals. "Entry nonzero" is the indicator `1` / `0`; the
  maximum over a nonempty family of indicators is the indicator of "some member holds"; the reset value is `0`; and one
  point's update of the scratch at `(ch, w)` is the maximum of the previous value with the indicator of "some of the 28
  rows of the point's slab is nonzero at `(ch, w)`".
-/
import proofs.«123979_g27556510171775_cont_sun_c4_435_14_alg».proof.Proof.Gen.KernelIdeal.Skeleton
import Idealize.ShloMosaic.Lib.ValueIdx
import Idealize.ShloMosaic.Lib.Pipeline.Value
import Idealize.ShloMosaic.PureOps.Ideal.Laws
import Idealize.ShloMosaic.PureOps.Reduce

set_option maxRecDepth 16384

noncomputable section

namespace Cert.KernelIdeal.Val

open Cert.KernelIdeal Cert.KernelIdeal.Gen
open Idealize.ShloMosaic Idealize.ShloMosaic.ValueIdx

/-! ## Indicators -/

theorem max_ite (A B : Prop) [Decidable A] [Decidable B] :
    max (if A then (1 : EReal) else 0) (if B then (1 : EReal) else 0) = if A ∨ B then 1 else 0 := by
  by_cases hA : A <;> by_cases hB : B <;> simp [hA, hB]

theorem max_zero_ite (B : Prop) [Decidable B] : max (0 : EReal) (if B then (1 : EReal) else 0) = if B then 1 else 0 := by
  by_cases hB : B <;> simp [hB]

theorem sup_ite {ι : Type} (s : Finset ι) (hs : s.Nonempty) (Q : ι → Prop) [DecidablePred Q] :
    s.sup (fun i => if Q i then (1 : EReal) else 0) = if ∃ i ∈ s, Q i then 1 else 0 := by
  split
  · rename_i h; obtain ⟨i, hi, hq⟩ := h
    apply le_antisymm
    · exact Finset.sup_le fun j _ => by split <;> simp
    · calc (1 : EReal) = (if Q i then 1 else 0) := by rw [if_pos hq]
        _ ≤ _ := Finset.le_sup (f := fun i => if Q i then (1 : EReal) else 0) hi
  · rename_i h
    apply le_antisymm
    · exact Finset.sup_le fun j hj => by rw [if_neg (fun hq => h ⟨j, hj, hq⟩)]
    · obtain ⟨j, hj⟩ := hs
      calc (0 : EReal) = (if Q j then 1 else 0) := by rw [if_neg (fun hq => h ⟨j, hj, hq⟩)]
        _ ≤ _ := Finset.le_sup (f := fun i => if Q i then (1 : EReal) else 0) hj

theorem fold_max_eq_sup {ι : Type} (s : Finset ι) (f : ι → EReal) : s.fold max ⊥ f = s.sup f := rfl

/-! ## The literals and "entry nonzero" -/

theorem ofBits_neginf : Ideal.ofBits .f32 0xFF800000#32 = (⊥ : EReal) := by
  simp [Ideal.ofBits, Ideal.ieee]

/-- "Entry nonzero" as the body computes it: compare, widen the bit, convert. -/
theorem nz_apply (a : EReal) :
    FloatOps.sitofp (F := Ideal) .f32 (BitVec.setWidth 32 (FloatOps.cmpf (F := Ideal) (φ := .f32) .one a (Ideal.ofBits .f32 0x00000000#32)))
      = if a ≠ 0 then (1 : EReal) else 0 := by
  rw [Ideal.ofBits_zero_f32]
  show (((BitVec.setWidth 32 (Ideal.cmp .one a 0)).toInt : ℝ) : EReal) = _
  unfold Ideal.cmp
  by_cases h : a = 0
  · subst h; simp
  · simp [h]

/-! ## The payloads at an index -/

theorem pay1_apply (j : S96x224.Idx) : k0_pay1 (F := Ideal) j = 0 := by
  unfold k0_pay1
  rw [shapeCast_self]
  exact Ideal.ofBits_zero_f32

theorem drop_ix4 (a : Fin 1) (row : Fin 28) (ch : Fin 96) (w : Fin 224) :
    reduces_S1x28x96x224_S96x224.drop (ix4 a row ch w) = ix2 ch w := by
  funext b
  match b with
  | ⟨0, _⟩ => rfl
  | ⟨1, _⟩ => rfl

/-- "Entry nonzero" over a whole slab. -/
def nzv (x : FVec Ideal S1x28x96x224 .f32) : FVec Ideal S1x28x96x224 .f32 :=
  sitofp .f32 (extui 32 (cmpf .one (shapeCast S1x28x96x224 x shapeCasts_S1x28x96x224_S1x28x96x224) (broadcast S1x28x96x224 (Scalar.ofBits (F := Ideal) .f32 0x00000000#32))) natLt_1_32)

theorem nzv_apply (x : FVec Ideal S1x28x96x224 .f32) (i : S1x28x96x224.Idx) : nzv x i = if x i ≠ 0 then (1 : EReal) else 0 := by
  unfold nzv
  rw [shapeCast_self]
  exact nz_apply (x i)

/-- The update of the scratch, in a plain spelling: the previous scratch joined with the maximum, over the slab's
    first two axes and from −∞, of "entry nonzero". -/
theorem pay2_eq (x : FVec Ideal S1x28x96x224 .f32) (prev : FVec Ideal S96x224 .f32) :
    k0_pay2 (F := Ideal) x prev
      = shapeCast S96x224 (maximumf prev (reduceFold reduces_S1x28x96x224_S96x224 (FloatOps.maximumf (F := Ideal) (φ := .f32))
          (FloatOps.ofBits (F := Ideal) .f32 0xFF800000#32) (nzv x))) shapeCasts_S96x224_S96x224 := rfl

theorem pay2_apply (x : FVec Ideal S1x28x96x224 .f32) (prev : FVec Ideal S96x224 .f32) (ch : Fin 96) (w : Fin 224) :
    k0_pay2 (F := Ideal) x prev (ix2 ch w)
      = max (prev (ix2 ch w)) (if ∃ row : Fin 28, x (ix4 (0 : Fin 1) row ch w) ≠ 0 then (1 : EReal) else 0) := by
  rw [pay2_eq, shapeCast_self]
  show max (prev (ix2 ch w)) (reduceFold reduces_S1x28x96x224_S96x224 (FloatOps.maximumf (F := Ideal) (φ := .f32))
      (FloatOps.ofBits (F := Ideal) .f32 0xFF800000#32) (nzv x) (ix2 ch w)) = _
  refine congrArg (max (prev (ix2 ch w))) ?_
  rw [reduceFold_eq_fold]
  show (Finset.univ.filter fun i => reduces_S1x28x96x224_S96x224.drop i = ix2 ch w).fold max (Ideal.ofBits .f32 0xFF800000#32) (nzv x) = _
  rw [ofBits_neginf, fold_max_eq_sup, show nzv x = (fun i => if x i ≠ 0 then (1 : EReal) else 0) from funext (nzv_apply x)]
  rw [sup_ite _ ⟨ix4 (0 : Fin 1) (0 : Fin 28) ch w, Finset.mem_filter.mpr ⟨Finset.mem_univ _, drop_ix4 _ _ _ _⟩⟩]
  refine if_congr ?_ rfl rfl
  constructor
  · rintro ⟨i, hi, hne⟩
    have hd := (Finset.mem_filter.mp hi).2
    obtain ⟨a, row, ch', w', rfl⟩ : ∃ (a : Fin 1) (row : Fin 28) (ch' : Fin 96) (w' : Fin 224), i = ix4 a row ch' w' :=
      ⟨i 0, i 1, i 2, i 3, eq_ix4 i⟩
    rw [drop_ix4] at hd
    obtain rfl : ch' = ch := congrFun hd 0
    obtain rfl : w' = w := congrFun hd 1
    obtain rfl : a = 0 := Subsingleton.elim _ _
    exact ⟨row, hne⟩
  · rintro ⟨row, hne⟩
    exact ⟨ix4 (0 : Fin 1) row ch w, Finset.mem_filter.mpr ⟨Finset.mem_univ _, drop_ix4 _ _ _ _⟩, hne⟩

end Cert.KernelIdeal.Val

end
-- ==== Proof.KI.Val0b.lean ====
/-
  The mask pass's values, second half, on the extended reals. A grid point `t` of the 32 is `(t / 8, t mod 8)`; its
  input block is rows `(t mod 8) · 28 … + 27` of image `t / 8` of the (transposed) mask input. Hence the scratch after
  the last point holds, at `(ch, w)`, the indicator of "some entry `(b, h, ch, w)` of the transposed mask input is
  nonzero".
-/
import proofs.«123979_g27556510171775_cont_sun_c4_435_14_alg».proof.Proof.KI.R0Pieces
import proofs.«123979_g27556510171775_cont_sun_c4_435_14_alg».proof.Proof.KI.Val0a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Val Idealize.ShloMosaic.ValueIdx

/-- The printed index maps of the mask pass, decided over the grid. -/
theorem idx_facts0 : ∀ t : Fin cfg0.N, win0_0.index t (0 : Fin 4) = t.val / 8 ∧ win0_0.index t (1 : Fin 4) = t.val % 8
    ∧ win0_0.index t (2 : Fin 4) = 0 ∧ win0_0.index t (3 : Fin 4) = 0
    ∧ win0_1.index t (0 : Fin 2) = 0 ∧ win0_1.index t (1 : Fin 2) = 0 :=
  (by decide +kernel : ∀ t : Fin grid0.N, _)

/-- Two conditionals with equivalent conditions agree, whatever procedures decide the conditions. -/
theorem ite_congr_iff {α : Type} {p q : Prop} {ip : Decidable p} {iq : Decidable q} (h : p ↔ q) (a b : α) :
    @ite α p ip a b = @ite α q iq a b := by
  by_cases hp : p
  · rw [if_pos hp, if_pos (h.mp hp)]
  · rw [if_neg hp, if_neg (fun hq => hp (h.mpr hq))]

section
variable (V : (c : Dev nD) → (b : Ref sig .tc) → Buf (Elt Ideal) ((c : Thread nD τ).loc b))

/-- The input block at point `t` and the (transposed) mask array, as arrays of extended reals. -/
abbrev blkE (c : Dev nD) (t : Fin cfg0.N) : FVec Ideal S1x28x96x224 .f32 := iblk0 V c 0 t
abbrev arrE (c : Dev nD) : FVec Ideal S4x224x96x224 .f32 := V c main_v0

/-- The input block at point `t`, read at row `row`: the array at image `t / 8`, row `(t mod 8) · 28 + row`. -/
theorem blkE_apply (c : Dev nD) (t : Fin cfg0.N) (row : Fin 28) (ch : Fin 96) (w : Fin 224) :
    blkE V c t (ix4 (0 : Fin 1) row ch w)
      = arrE V c (ix4 (⟨t.val / 8, by have := lt_of_lt_of_eq t.isLt N0_eq; omega⟩ : Fin 4)
          (⟨t.val % 8 * 28 + row.val, by have := row.isLt; omega⟩ : Fin 224) ch w) := by
  obtain ⟨e0, e1, e2, e3, -, -⟩ := idx_facts0 t
  show arrE V c (((cfg0.win 0).blk t).view.emb (ix4 (0 : Fin 1) row ch w)) = _
  refine congrArg (arrE V c) ?_
  funext a; apply Fin.ext
  match a with
  | ⟨0, _⟩ => show win0_0.index t (0 : Fin 4) * 1 + 1 * 0 = t.val / 8; omega
  | ⟨1, _⟩ => show win0_0.index t (1 : Fin 4) * 28 + 1 * row.val = t.val % 8 * 28 + row.val; omega
  | ⟨2, _⟩ => show win0_0.index t (2 : Fin 4) * 96 + 1 * ch.val = ch.val; omega
  | ⟨3, _⟩ => show win0_0.index t (3 : Fin 4) * 224 + 1 * w.val = w.val; omega

/-- "Some row of some block up to point `n` is nonzero at `(ch, w)`." -/
def AccP (c : Dev nD) (n : ℕ) (ch : Fin 96) (w : Fin 224) : Prop :=
  ∃ t : Fin cfg0.N, t.val ≤ n ∧ ∃ row : Fin 28, blkE V c t (ix4 (0 : Fin 1) row ch w) ≠ 0

open Classical in
/-- The scratch after point `n` is the indicator of that. -/
theorem accN_apply (c : Dev nD) : ∀ (n : ℕ) (hn : n < cfg0.N) (ch : Fin 96) (w : Fin 224),
    accN V c n hn (ix2 ch w) = if AccP V c n ch w then (1 : EReal) else 0
  | 0, hn, ch, w => by
    rw [accN_zero, pay2_apply, pay1_apply, max_zero_ite]
    refine ite_congr_iff ?_ _ _
    constructor
    · rintro ⟨row, h⟩; exact ⟨⟨0, hn⟩, le_refl _, row, h⟩
    · rintro ⟨t, ht, row, h⟩
      obtain rfl : t = ⟨0, hn⟩ := Fin.ext (Nat.le_zero.mp ht)
      exact ⟨row, h⟩
  | n + 1, hn, ch, w => by
    rw [accN_succ, pay2_apply, accN_apply c n (Nat.lt_of_succ_lt hn) ch w, max_ite]
    refine ite_congr_iff ?_ _ _
    constructor
    · rintro (⟨t, ht, row, h⟩ | ⟨row, h⟩)
      · exact ⟨t, Nat.le_succ_of_le ht, row, h⟩
      · exact ⟨⟨n + 1, hn⟩, le_refl _, row, h⟩
    · rintro ⟨t, ht, row, h⟩
      by_cases hlt : t.val ≤ n
      · exact Or.inl ⟨t, hlt, row, h⟩
      · obtain rfl : t = ⟨n + 1, hn⟩ := Fin.ext (show t.val = n + 1 by have : t.val ≤ n + 1 := ht; omega)
        exact Or.inr ⟨row, h⟩

theorem N0_31 : 31 < cfg0.N := by rw [N0_eq]; norm_num

open Classical in
/-- The scratch after the last point, in terms of the whole (transposed) mask input. -/
theorem acc_last_apply (c : Dev nD) (ch : Fin 96) (w : Fin 224) :
    accN V c 31 N0_31 (ix2 ch w)
      = if (∃ (b : Fin 4) (h : Fin 224), arrE V c (ix4 b h ch w) ≠ 0) then (1 : EReal) else 0 := by
  rw [accN_apply]
  refine ite_congr_iff ?_ _ _
  constructor
  · rintro ⟨t, -, row, h⟩
    rw [blkE_apply] at h
    exact ⟨_, _, h⟩
  · rintro ⟨b, h, hne⟩
    have hb := b.isLt; have hh := h.isLt
    have key : ∀ (p : Fin 4) (q : Fin 224), p.val = b.val → q.val = h.val → arrE V c (ix4 p q ch w) ≠ 0 :=
      fun p q hp hq => by obtain rfl := Fin.ext hp; obtain rfl := Fin.ext hq; exact hne
    refine ⟨⟨b.val * 8 + h.val / 28, by rw [N0_eq]; omega⟩, by show b.val * 8 + h.val / 28 ≤ 31; omega, ⟨h.val % 28, Nat.mod_lt _ (by norm_num)⟩, ?_⟩
    rw [blkE_apply]
    exact key _ _ (by show (b.val * 8 + h.val / 28) / 8 = b.val; omega) (by show (b.val * 8 + h.val / 28) % 8 * 28 + h.val % 28 = h.val; omega)

end

end Cert.KernelIdeal.Hand

end
-- ==== Proof.KI.Val0c.lean ====
/-
  The matrix array after the mask pass (at any float instance). The pass writes its output window back once, at the last
  point, and the window's one block is the whole array; so the array ends holding what the last point's body left in
  the block: the placement matrix `k0_pay3` of the scratch after point 31.
-/
import proofs.«123979_g27556510171775_cont_sun_c4_435_14_alg».proof.Proof.KI.Val0b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The scratch after a point depends on the point's number only. -/
theorem accN_val_congr (c : Dev nD) (n n' : ℕ) (h : n = n') (hn : n < cfg0.N) (hn' : n' < cfg0.N) : accN V c n hn = accN V c n' hn' := by
  subst h; rfl

/-- At the last point the output block is the placement matrix of that point's scratch. -/
theorem outsAt0_fst_at (c : Dev nD) (t : Fin cfg0.N) (hz : t.val ≠ 0) (h1 : t.val % 32 = 31) :
    (outsAt0 V c t.val t.isLt).1 = k0_pay3 (accN V c t.val t.isLt) := by
  have e := congrArg Prod.fst (outsAt0_C V c t hz h1)
  dsimp only at e
  rw [out0_C_1_eq] at e
  refine e.trans (congrArg k0_pay3 ?_)
  obtain ⟨n, hn⟩ := t
  cases n with
  | zero => exact absurd rfl hz
  | succ n => exact (congrArg (k0_pay2 (iblk0 V c 0 ⟨n + 1, hn⟩)) (outsAt0_snd V c n (Nat.lt_of_succ_lt hn))).trans (accN_succ V c n hn).symm

/-- An index of the matrix array is in the (one, whole-array) block of any point. -/
theorem mem_blk0_1 (t : Fin cfg0.N) (i : S96x96.Idx) :
    i ∈ ((cfg0.win 1).blk t).view.set ↔ ∀ a : Fin 2, win0_1.index t a * S96x96.size a ≤ (i a).val ∧ (i a).val < win0_1.index t a * S96x96.size a + S96x96.size a := by
  show i ∈ ((View.whole main_v2).slice (win0_1.rect t)).set ↔ _
  rw [View.set_slice_whole, Rect.mem_set_unit]
  exact Iff.rfl

/-- The matrix window's block at any point, read off an array `G`, is `G` itself. -/
theorem blk_read_whole (t : Fin cfg0.N) (G : Vec F S96x96 .f32) :
    (cfg0.win 1).cut (grid0.coords t) G = ((cfg0.win 1).blk t).view.read (Elt F) G := by
  obtain ⟨-, -, -, -, e4, e5⟩ := idx_facts0 t
  funext j
  show G j = G (((cfg0.win 1).blk t).view.emb j)
  refine congrArg G ?_
  funext a; apply Fin.ext
  match a with
  | ⟨0, _⟩ => show (j 0).val = win0_1.index t (0 : Fin 2) * 96 + 1 * (j 0).val; omega
  | ⟨1, _⟩ => show (j 1).val = win0_1.index t (1 : Fin 2) * 96 + 1 * (j 1).val; omega

/-- What a flushing point writes back is the whole placement matrix. -/
theorem flushed0_eq (c : Dev nD) (t : Fin cfg0.N) (ht : (cfg0.win 1).flush t = true) :
    (dat0 V c).flushed 1 t = ((cfg0.win 1).blk t).view.read (Elt F) (k0_pay3 (accN V c 31 N0_31)) := by
  have h31 : t.val % 32 = 31 := (flush0_1 t).mp ht
  have hN : t.val < 32 := lt_of_lt_of_eq t.isLt N0_eq
  have hz : t.val ≠ 0 := by omega
  show (cfg0.win 1).cut (grid0.coords t) ((dat0 V c).after 1 t) = _
  rw [after0_1, outsAt0_fst_at V c t hz h31, accN_val_congr V c t.val 31 (by omega) t.isLt N0_31]
  exact blk_read_whole t _

/-- THE MATRIX ARRAY after the mask pass: the placement matrix of the final scratch. -/
theorem final_P (c : Dev nD) : (dat0 V c).arrAt 1 cfg0.N = k0_pay3 (accN V c 31 N0_31) := by
  refine (dat0 V c).arrAt_eq_of_cover 1 _ (fun t ht => flushed0_eq V c t ht) (fun i => ?_)
  refine ⟨⟨31, N0_31⟩, (flush0_1 _).mpr rfl, ?_⟩
  obtain ⟨-, -, -, -, e4, e5⟩ := idx_facts0 ⟨31, N0_31⟩
  rw [mem_blk0_1]
  intro a
  match a with
  | ⟨0, _⟩ => show win0_1.index ⟨31, N0_31⟩ (0 : Fin 2) * 96 ≤ (i 0).val ∧ (i 0).val < win0_1.index ⟨31, N0_31⟩ (0 : Fin 2) * 96 + 96; have hi0 : (i 0).val < 96 := (i 0).isLt; omega
  | ⟨1, _⟩ => show win0_1.index ⟨31, N0_31⟩ (1 : Fin 2) * 96 ≤ (i 1).val ∧ (i 1).val < win0_1.index ⟨31, N0_31⟩ (1 : Fin 2) * 96 + 96; have hi1 : (i 1).val < 96 := (i 1).isLt; omega

end

end Cert.KernelIdeal.Hand

end
-- ==== Proof.KI.RowDot.lean ====
/-
  The gather pass's arithmetic at an index. For a 96 × 96 matrix `P` and a [96, 224] slice `X`, the body's product
  contracts the FIRST axis of both: entry `(k, w)` of the product is `Σ_c P (c, k) · X (c, w)`. Each of the body's 28
  stores writes, into row `r` of the output slab, that product for row `r` of the data slab (read as a [96, 224]
  slice and written back as a [1, 1, 1, 96, 224] piece); so the output slab is ONE function of the matrix and the data
  slab: entry `(0, 0, r, k, w)` is `Σ_c P (c, k) · x (0, 0, r, c, w)`.
-/
import proofs.«123979_g27556510171775_cont_sun_c4_435_14_alg».proof.Proof.Gen.KernelIdeal.Skeleton
import Idealize.ShloMosaic.Lib.ValueIdx
import Idealize.ShloMosaic.Lib.Pipeline.Value
import Idealize.ShloMosaic.Lib.Pipeline.FrameBody
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

/-- The product at an index: the sum over the contracted channel. -/
theorem rowdot_apply (P : FVec Ideal S96x96 .f32) (X : FVec Ideal S96x224 .f32) (k : Fin 96) (w : Fin 224) :
    matmul dot_S96x96_S96x224_S96x224_0_0_1_1_n_n none P X (constant (F := Ideal) S96x224 .f32 0x00000000#32) (ix2 k w)
      = ∑ c : Fin 96, P (ix2 c k) * X (ix2 c w) := by
  show FloatOps.matmul dot_S96x96_S96x224_S96x224_0_0_1_1_n_n none P X (constant (F := Ideal) S96x224 .f32 0x00000000#32) (ix2 k w) = _
  rw [Ideal.matmul_constant_zero_apply, ← Equiv.sum_comp (contrEquiv1 dot_S96x96_S96x224_S96x224_0_0_1_1_n_n 96 rfl rfl).symm]
  refine Finset.sum_congr rfl fun c _ => ?_
  have c2 := contrEquiv1_symm_val dot_S96x96_S96x224_S96x224_0_0_1_1_n_n 96 rfl rfl c
  have l2 : dot_S96x96_S96x224_S96x224_0_0_1_1_n_n.lhsIdx (ix2 k w) ((contrEquiv1 dot_S96x96_S96x224_S96x224_0_0_1_1_n_n 96 rfl rfl).symm c) = ix2 c k := by
    funext ax; apply Fin.ext
    match ax with
    | ⟨0, _⟩ => simp [DotDims.lhsIdx, dot_S96x96_S96x224_S96x224_0_0_1_1_n_n]; exact c2
    | ⟨1, _⟩ => simp [DotDims.lhsIdx, dot_S96x96_S96x224_S96x224_0_0_1_1_n_n]; rfl
  have r2 : dot_S96x96_S96x224_S96x224_0_0_1_1_n_n.rhsIdx (ix2 k w) ((contrEquiv1 dot_S96x96_S96x224_S96x224_0_0_1_1_n_n 96 rfl rfl).symm c) = ix2 c w := by
    funext ax; apply Fin.ext
    match ax with
    | ⟨0, _⟩ => simp [DotDims.rhsIdx, dot_S96x96_S96x224_S96x224_0_0_1_1_n_n]; exact c2
    | ⟨1, _⟩ => simp [DotDims.rhsIdx, dot_S96x96_S96x224_S96x224_0_0_1_1_n_n]; rfl
  rw [l2, r2]

/-- One row's payload: the row read as a [96, 224] slice, multiplied, written back as a one-row piece. -/
def rowPay {F : FTy → Type} [FloatOps F] (P : FVec F S96x96 .f32) (xr : Vec F S1x1x1x96x224 .f32) : FVec F S1x1x1x96x224 .f32 :=
  shapeCast S1x1x1x96x224 (matmul dot_S96x96_S96x224_S96x224_0_0_1_1_n_n none P (shapeCast S96x224 xr shapeCasts_S1x1x1x96x224_S96x224) (constant S96x224 .f32 0x00000000#32)) shapeCasts_S96x224_S1x1x1x96x224

theorem rowPay_apply (P : FVec Ideal S96x96 .f32) (xr : FVec Ideal S1x1x1x96x224 .f32) (k : Fin 96) (w : Fin 224) :
    rowPay (F := Ideal) P xr (ix5 (0 : Fin 1) (0 : Fin 1) (0 : Fin 1) k w) = ∑ c : Fin 96, P (ix2 c k) * xr (ix5 (0 : Fin 1) (0 : Fin 1) (0 : Fin 1) c w) := by
  unfold rowPay
  rw [shapeCast_apply _ shapeCasts_S96x224_S1x1x1x96x224 (ix5 (0 : Fin 1) (0 : Fin 1) (0 : Fin 1) k w) (ix2 k w) (by
    rw [Shape.rowMajor_val_two, Shape.rowMajor_val_five]
    show k.val * 224 + w.val = ((((0 : ℕ) * 1 + 0) * 1 + 0) * 96 + k.val) * 224 + w.val
    omega)]
  rw [rowdot_apply]
  refine Finset.sum_congr rfl fun c _ => ?_
  rw [shapeCast_apply xr shapeCasts_S1x1x1x96x224_S96x224 (ix2 c w) (ix5 (0 : Fin 1) (0 : Fin 1) (0 : Fin 1) c w) (by
    rw [Shape.rowMajor_val_two, Shape.rowMajor_val_five]
    show ((((0 : ℕ) * 1 + 0) * 1 + 0) * 96 + c.val) * 224 + w.val = c.val * 224 + w.val
    omega)]

/-- The output slab as one function of the matrix and the data slab. -/
def Gblk (P : FVec Ideal S96x96 .f32) (x1 : FVec Ideal S1x1x28x96x224 .f32) : FVec Ideal S1x1x28x96x224 .f32 :=
  fun y => ∑ c : Fin 96, P (ix2 c (y 3)) * x1 (ix5 (0 : Fin 1) (0 : Fin 1) (y 2) c (y 4))

end Cert.KernelIdeal.Val

end
-- ==== Proof.KI.R1Value.lean ====
/-
  The gather pass's value, on the extended reals: what the body's 28 stores leave in the output slab is the one
  function `Gblk` of the two input blocks — entry `(0, 0, r, k, w)` is `Σ_c P (c, k) · x (0, 0, r, c, w)` — because
  each store's piece is that function restricted to row `r`.
-/
import proofs.«123979_g27556510171775_cont_sun_c4_435_14_alg».proof.Proof.KI.R1Frame
import proofs.«123979_g27556510171775_cont_sun_c4_435_14_alg».proof.Proof.KI.RowDot

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Val Idealize.ShloMosaic.ValueIdx

theorem hz2' : (![0, 0] : Fin 2 → ℕ) = fun _ => 0 := by funext a; fin_cases a <;> rfl

/-- A load of the whole matrix buffer held at `x` reads `x`. -/
theorem readAt_whole96 (M : Memref sig .tc .vmem S96x96 .f32) (hM : M.IsWhole) (x : Vec F S96x96 .f32) :
    View.readAt (Elt F) M.view (Rect.unit (s := S96x96) ![0, 0] S96x96.size inb_S96x96_S96x96_0_0).toLoadRect (hM.unread x) = x := by
  rw [View.readAt_eq_ld, hM.read_unread]; exact View.ld_unit_zero (S := S96x96) hz2' _ x

/-- Row `r`'s rectangle places `(0, 0, 0, k, w)` at `(0, 0, r, k, w)`. -/
theorem emb_row (r : ℕ) (hr : r < 28) (inb : ∀ a, (![0, 0, r, 0, 0] : Fin 5 → ℕ) a + S1x1x1x96x224.size a ≤ S1x1x28x96x224.size a)
    (a b cc : Fin 1) (k : Fin 96) (w : Fin 224) :
    (Rect.unit (s := S1x1x28x96x224) ![0, 0, r, 0, 0] S1x1x1x96x224.size inb).emb (ix5 a b cc k w)
      = ix5 (0 : Fin 1) (0 : Fin 1) (⟨r, hr⟩ : Fin 28) k w := by
  have ha := a.isLt; have hb := b.isLt; have hc := cc.isLt
  funext ax; apply Fin.ext
  match ax with
  | ⟨0, _⟩ => show 0 + 1 * a.val = 0; omega
  | ⟨1, _⟩ => show 0 + 1 * b.val = 0; omega
  | ⟨2, _⟩ => show r + 1 * cc.val = r; omega
  | ⟨3, _⟩ => show 0 + 1 * k.val = k.val; omega
  | ⟨4, _⟩ => show 0 + 1 * w.val = w.val; omega

/-- One store's piece is `Gblk` on its row. -/
theorem piece_ok (P : FVec Ideal S96x96 .f32) (x1 : FVec Ideal S1x1x28x96x224 .f32) (M : Memref sig .tc .vmem S1x1x28x96x224 .f32) (hM : M.IsWhole)
    (r : ℕ) (hr : r < 28) (inb : ∀ a, (![0, 0, r, 0, 0] : Fin 5 → ℕ) a + S1x1x1x96x224.size a ≤ S1x1x28x96x224.size a)
    (x : S1x1x1x96x224.Idx) :
    rowPay (F := Ideal) P (View.readAt (Elt Ideal) M.view (Rect.unit (s := S1x1x28x96x224) ![0, 0, r, 0, 0] S1x1x1x96x224.size inb).toLoadRect (hM.unread x1)) x
      = Gblk P x1 ((Rect.unit (s := S1x1x28x96x224) ![0, 0, r, 0, 0] S1x1x1x96x224.size inb).emb x) := by
  obtain ⟨a, b, cc, k, w, rfl⟩ : ∃ (a b cc : Fin 1) (k : Fin 96) (w : Fin 224), x = ix5 a b cc k w := ⟨x 0, x 1, x 2, x 3, x 4, eq_ix5 x⟩
  obtain rfl : a = 0 := Subsingleton.elim _ _
  obtain rfl : b = 0 := Subsingleton.elim _ _
  obtain rfl : cc = 0 := Subsingleton.elim _ _
  rw [rowPay_apply, emb_row r hr inb]
  show _ = ∑ c : Fin 96, P (ix2 c k) * x1 (ix5 (0 : Fin 1) (0 : Fin 1) (⟨r, hr⟩ : Fin 28) c w)
  refine Finset.sum_congr rfl fun c _ => ?_
  congr 1
  rw [View.readAt_eq_ld, hM.read_unread]
  exact congrArg x1 (emb_row r hr inb 0 0 0 c w)

set_option maxHeartbeats 1600000 in
/-- What the body leaves in the output slab. -/
theorem out1_2_eq (c : Dev nD) (i : grid1.Coords) (arg3 : Memref sig .tc .vmem S96x96 .f32) (harg3 : arg3.IsWhole) (arg4 : Memref sig .tc .vmem S1x1x28x96x224 .f32) (harg4 : arg4.IsWhole) (arg5 : Memref sig .tc .vmem S1x1x28x96x224 .f32) (harg5 : arg5.IsWhole) (x0 : Vec Ideal S96x96 .f32) (x1 : Vec Ideal S1x1x28x96x224 .f32) :
    out1_2 (F := Ideal) c i arg3 harg3 arg4 harg4 arg5 harg5 x0 x1 = Gblk x0 x1 := by
  unfold out1_2
  rw [View.read_writes_eq_canon _ _ _ (cover1_2 c i arg3 harg3 arg4 harg4 arg5 harg5 x0 x1)]
  funext y
  have hcov := cover1_2 (F := Ideal) c i arg3 harg3 arg4 harg4 arg5 harg5 x0 x1 y
  revert hcov
  unfold kernelRun1
  dsimp only
  sl_unfold_words
  intro hcov
  have hP : k1_pay3 (F := Ideal) (View.readAt (Elt Ideal) arg3.view (Rect.unit (s := S96x96) ![0, 0] S96x96.size inb_S96x96_S96x96_0_0).toLoadRect (harg3.unread x0)) = x0 := by
    unfold k1_pay3; rw [shapeCast_self]; exact readAt_whole96 arg3 harg3 x0
  refine (View.canon_apply_of_pieces (Gblk (k1_pay3 (F := Ideal) (View.readAt (Elt Ideal) arg3.view (Rect.unit (s := S96x96) ![0, 0] S96x96.size inb_S96x96_S96x96_0_0).toLoadRect (harg3.unread x0))) x1) _ ?_ y hcov).trans (by rw [hP])
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl
  · intro x; exact piece_ok _ x1 arg4 harg4 27 (by omega) _ x
  · intro x; exact piece_ok _ x1 arg4 harg4 26 (by omega) _ x
  · intro x; exact piece_ok _ x1 arg4 harg4 25 (by omega) _ x
  · intro x; exact piece_ok _ x1 arg4 harg4 24 (by omega) _ x
  · intro x; exact piece_ok _ x1 arg4 harg4 23 (by omega) _ x
  · intro x; exact piece_ok _ x1 arg4 harg4 22 (by omega) _ x
  · intro x; exact piece_ok _ x1 arg4 harg4 21 (by omega) _ x
  · intro x; exact piece_ok _ x1 arg4 harg4 20 (by omega) _ x
  · intro x; exact piece_ok _ x1 arg4 harg4 19 (by omega) _ x
  · intro x; exact piece_ok _ x1 arg4 harg4 18 (by omega) _ x
  · intro x; exact piece_ok _ x1 arg4 harg4 17 (by omega) _ x
  · intro x; exact piece_ok _ x1 arg4 harg4 16 (by omega) _ x
  · intro x; exact piece_ok _ x1 arg4 harg4 15 (by omega) _ x
  · intro x; exact piece_ok _ x1 arg4 harg4 14 (by omega) _ x
  · intro x; exact piece_ok _ x1 arg4 harg4 13 (by omega) _ x
  · intro x; exact piece_ok _ x1 arg4 harg4 12 (by omega) _ x
  · intro x; exact piece_ok _ x1 arg4 harg4 11 (by omega) _ x
  · intro x; exact piece_ok _ x1 arg4 harg4 10 (by omega) _ x
  · intro x; exact piece_ok _ x1 arg4 harg4 9 (by omega) _ x
  · intro x; exact piece_ok _ x1 arg4 harg4 8 (by omega) _ x
  · intro x; exact piece_ok _ x1 arg4 harg4 7 (by omega) _ x
  · intro x; exact piece_ok _ x1 arg4 harg4 6 (by omega) _ x
  · intro x; exact piece_ok _ x1 arg4 harg4 5 (by omega) _ x
  · intro x; exact piece_ok _ x1 arg4 harg4 4 (by omega) _ x
  · intro x; exact piece_ok _ x1 arg4 harg4 3 (by omega) _ x
  · intro x; exact piece_ok _ x1 arg4 harg4 2 (by omega) _ x
  · intro x; exact piece_ok _ x1 arg4 harg4 1 (by omega) _ x
  · intro x; exact piece_ok _ x1 arg4 harg4 0 (by omega) _ x

end Cert.KernelIdeal.Hand

end
-- ==== Proof.KI.Val1b.lean ====
/-
  The gather pass's array value, on the extended reals. A grid point `t` of the 64 is `(t / 16, (t / 8) mod 2, t mod 8)`;
  its data block and its output block are rows `(t mod 8) · 28 … + 27` of image `(t / 16, (t / 8) mod 2)`, and its matrix
  block is the whole matrix. Every point writes its output block back, the 64 blocks tile the array, and what point `t`
  writes is block `t` of ONE function of the matrix array `P` and the (transposed) data array `X`:
  entry `(b, s, h, k, w)` is `Σ_c P (c, k) · X (b, s, h, c, w)`.
-/
import proofs.«123979_g27556510171775_cont_sun_c4_435_14_alg».proof.Proof.KI.R1Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Val Idealize.ShloMosaic.ValueIdx

/-- The printed index maps of the gather pass, decided over the grid. -/
theorem idx_facts1 : ∀ t : Fin cfg1.N, win1_0.index t (0 : Fin 2) = 0 ∧ win1_0.index t (1 : Fin 2) = 0
    ∧ win1_1.index t (0 : Fin 5) = t.val / 16 ∧ win1_1.index t (1 : Fin 5) = t.val / 8 % 2 ∧ win1_1.index t (2 : Fin 5) = t.val % 8
    ∧ win1_1.index t (3 : Fin 5) = 0 ∧ win1_1.index t (4 : Fin 5) = 0
    ∧ win1_2.index t (0 : Fin 5) = t.val / 16 ∧ win1_2.index t (1 : Fin 5) = t.val / 8 % 2 ∧ win1_2.index t (2 : Fin 5) = t.val % 8
    ∧ win1_2.index t (3 : Fin 5) = 0 ∧ win1_2.index t (4 : Fin 5) = 0 :=
  (by decide +kernel : ∀ t : Fin grid1.N, _)

theorem N1_eq : cfg1.N = 64 := N_1

/-- The gather pass's result array as one function of the matrix array and the data array. -/
def G1 (P : S96x96.Idx → EReal) (X : S4x2x224x96x224.Idx → EReal) : S4x2x224x96x224.Idx → EReal :=
  fun i => ∑ c : Fin 96, P (ix2 c (i 3)) * X (ix5 (i 0) (i 1) (i 2) c (i 4))

section
variable (V : (c : Dev nD) → (b : Ref sig .tc) → Buf (Elt Ideal) ((c : Thread nD τ).loc b))

/-- WHAT POINT `t` WRITES BACK is block `t` of `G1` of the two arrays as the pass finds them. -/
theorem flushed1_eq (c : Dev nD) (t : Fin cfg1.N) :
    (dat1 V c).flushed 2 t = ((cfg1.win 2).blk t).view.read (Elt Ideal) (G1 (V c main_v2) (V c main_v1)) := by
  obtain ⟨a0, a1, b0, b1, b2, b3, b4, c0, c1, c2, c3, c4⟩ := idx_facts1 t
  show (cfg1.win 2).cut (grid1.coords t) ((dat1 V c).after 2 t) = _
  rw [after1_2, out1_2_eq]
  funext j
  have hj0 : (j 0).val < 1 := (j 0).isLt
  have hj1 : (j 1).val < 1 := (j 1).isLt
  show Gblk (iblk1 V c 0 t) (iblk1 V c 1 t) j = G1 (V c main_v2) (V c main_v1) (((cfg1.win 2).blk t).view.emb j)
  unfold Gblk G1
  refine Finset.sum_congr rfl fun cc _ => ?_
  refine congrArg₂ (fun (a b : EReal) => a * b) ?_ ?_
  · show (V c main_v2 : S96x96.Idx → EReal) (((cfg1.win 0).blk t).view.emb (ix2 cc (j 3))) = _
    refine congrArg _ ?_
    funext a; apply Fin.ext
    match a with
    | ⟨0, _⟩ => show win1_0.index t (0 : Fin 2) * 96 + 1 * cc.val = cc.val; omega
    | ⟨1, _⟩ => show win1_0.index t (1 : Fin 2) * 96 + 1 * (j 3).val = win1_2.index t (3 : Fin 5) * 96 + 1 * (j 3).val; omega
  · show (V c main_v1 : S4x2x224x96x224.Idx → EReal) (((cfg1.win 1).blk t).view.emb (ix5 (0 : Fin 1) (0 : Fin 1) (j 2) cc (j 4))) = _
    refine congrArg _ ?_
    funext a; apply Fin.ext
    match a with
    | ⟨0, _⟩ => show win1_1.index t (0 : Fin 5) * 1 + 1 * 0 = win1_2.index t (0 : Fin 5) * 1 + 1 * (j 0).val; omega
    | ⟨1, _⟩ => show win1_1.index t (1 : Fin 5) * 1 + 1 * 0 = win1_2.index t (1 : Fin 5) * 1 + 1 * (j 1).val; omega
    | ⟨2, _⟩ => show win1_1.index t (2 : Fin 5) * 28 + 1 * (j 2).val = win1_2.index t (2 : Fin 5) * 28 + 1 * (j 2).val; omega
    | ⟨3, _⟩ => show win1_1.index t (3 : Fin 5) * 96 + 1 * cc.val = cc.val; omega
    | ⟨4, _⟩ => show win1_1.index t (4 : Fin 5) * 224 + 1 * (j 4).val = win1_2.index t (4 : Fin 5) * 224 + 1 * (j 4).val; omega

/-- An index of the result array is in point `t`'s block iff each coordinate is in the block's range on its axis. -/
theorem mem_blk1_2 (t : Fin cfg1.N) (i : S4x2x224x96x224.Idx) :
    i ∈ ((cfg1.win 2).blk t).view.set ↔ ∀ a : Fin 5, win1_2.index t a * S1x1x28x96x224.size a ≤ (i a).val ∧ (i a).val < win1_2.index t a * S1x1x28x96x224.size a + S1x1x28x96x224.size a := by
  show i ∈ ((View.whole main_v3).slice (win1_2.rect t)).set ↔ _
  rw [View.set_slice_whole, Rect.mem_set_unit]
  exact Iff.rfl

/-- THE RESULT ARRAY after the gather pass. -/
theorem final1 (c : Dev nD) : (dat1 V c).arrAt 2 cfg1.N = G1 (V c main_v2) (V c main_v1) := by
  refine (dat1 V c).arrAt_eq_of_cover 2 _ (fun t _ => flushed1_eq V c t) (fun i => ?_)
  have hi0 : (i 0).val < 4 := (i 0).isLt
  have hi1 : (i 1).val < 2 := (i 1).isLt
  have hi2 : (i 2).val < 224 := (i 2).isLt
  have hi3 : (i 3).val < 96 := (i 3).isLt
  have hi4 : (i 4).val < 224 := (i 4).isLt
  refine ⟨⟨(i 0).val * 16 + (i 1).val * 8 + (i 2).val / 28, by rw [N1_eq]; omega⟩, flush1_2 _, ?_⟩
  obtain ⟨-, -, -, -, -, -, -, c0, c1, c2, c3, c4⟩ := idx_facts1 ⟨(i 0).val * 16 + (i 1).val * 8 + (i 2).val / 28, by rw [N1_eq]; omega⟩
  rw [mem_blk1_2]
  intro a
  match a with
  | ⟨0, _⟩ => show win1_2.index _ (0 : Fin 5) * 1 ≤ (i 0).val ∧ (i 0).val < win1_2.index _ (0 : Fin 5) * 1 + 1; simp only at c0; omega
  | ⟨1, _⟩ => show win1_2.index _ (1 : Fin 5) * 1 ≤ (i 1).val ∧ (i 1).val < win1_2.index _ (1 : Fin 5) * 1 + 1; simp only at c1; omega
  | ⟨2, _⟩ => show win1_2.index _ (2 : Fin 5) * 28 ≤ (i 2).val ∧ (i 2).val < win1_2.index _ (2 : Fin 5) * 28 + 28; simp only at c2; omega
  | ⟨3, _⟩ => show win1_2.index _ (3 : Fin 5) * 96 ≤ (i 3).val ∧ (i 3).val < win1_2.index _ (3 : Fin 5) * 96 + 96; omega
  | ⟨4, _⟩ => show win1_2.index _ (4 : Fin 5) * 224 ≤ (i 4).val ∧ (i 4).val < win1_2.index _ (4 : Fin 5) * 224 + 224; omega

end

end Cert.KernelIdeal.Hand

end
-- ==== Proof.KI.PlaceDefs.lean ====
/-
  The placement payload as a composition of named stages. The generated payload is a chain of thirty-five operations; here
  its sub-terms are given names — the kept-channel column (row maxima of the flags), the two index matrices, the
  lower-triangular 0/1 matrix, the inclusive ranks (triangular matrix times the column), and the total number of kept
  channels — and the payload is restated over those names. The restatement holds by unfolding.
-/
import proofs.«123979_g27556510171775_cont_sun_c4_435_14_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Place

open Idealize.ShloMosaic Idealize.ShloMosaic.ValueIdx Cert.KernelIdeal Cert.KernelIdeal.Gen

/-- The kept-channel column: the row maxima of the flags, as a 96 × 1 column. -/
def cmCol (v : FVec Ideal S96x224 .f32) : FVec Ideal S96x1 .f32 :=
  shapeCast S96x1 (multiReduction .maximumf [1] S96 v 0xFF800000#32 reduces_S96x224_S96 (.inl rfl) rfl) shapeCasts_S96_S96x1

/-- The row and column index words. -/
def rowIota : IVec S96x96 32 := iota .tc S96x96 32 [0] iota_S96x96_d0_w32
def colIota : IVec S96x96 32 := iota .tc S96x96 32 [1] iota_S96x96_d1_w32

/-- The lower-triangular 0/1 matrix. -/
def tri : FVec Ideal S96x96 .f32 := sitofp .f32 (extui 32 (cmpi .sle colIota rowIota) natLt_1_32)

/-- The inclusive ranks: the triangular matrix times the kept-channel column. -/
def rankInc (v : FVec Ideal S96x224 .f32) : FVec Ideal S96x1 .f32 :=
  matmul dot_S96x96_S96x1_S96x1_1_0_0_1_n_n none tri (cmCol v) (constant S96x1 .f32 0x00000000#32)

/-- The number of kept channels, as the kernel sums it. -/
def total (v : FVec Ideal S96x224 .f32) : Ideal .f32 :=
  extractAt ![0, 0, 0]
    (shapeCast S1x1x1
      (multiReduction .add [1, 2] S1 (shapeCast S1x96x1 (cmCol v) shapeCasts_S96x1_S1x96x1) 0x00000000#32 reduces_S1x96x1_S1 (.inl rfl) rfl)
      shapeCasts_S1_S1x1x1)
    inpos_S1x1x1_p0_0_0

/-- The payload over the named stages: the one-hot of "rank equals slot" times the kept flag, plus the padding term
    "row 0 and slot at or past the total". -/
theorem pay3_eq (v : FVec Ideal S96x224 .f32) :
    k0_pay3 (F := Ideal) v
      = addf
          (mulf
            (select
              (cmpf .oeq (broadcastTo S96x96 (subf (rankInc v) (broadcast S96x1 (Scalar.ofBits .f32 0x3F800000#32))) broadcasts_S96x1_S96x96)
                (sitofp .f32 colIota))
              (broadcast S96x96 (Scalar.ofBits .f32 0x3F800000#32)) (broadcast S96x96 (Scalar.ofBits .f32 0x00000000#32)))
            (broadcastTo S96x96 (cmCol v) broadcasts_S96x1_S96x96))
          (select
            (andi (cmpi .eq rowIota (broadcast S96x96 0#32)) (cmpf .oge (sitofp .f32 colIota) (broadcast S96x96 (total v))))
            (broadcast S96x96 (Scalar.ofBits .f32 0x3F800000#32)) (broadcast S96x96 (Scalar.ofBits .f32 0x00000000#32))) := rfl

end Cert.KernelIdeal.Place
-- ==== Proof.KI.PlaceWords.lean ====
/-
  Words and counting facts behind the placement matrix: a 32-bit word of a number below 96 read signed is that number;
  signed and equality comparisons of two such words are the comparisons of the numbers; a widened one-bit word converted
  to a float is 1 or 0; the f32 pattern of minus infinity is the bottom of the extended reals; a sum of 0/1 indicators is
  the number of indices where the indicator holds; and the number of channels below a bound that satisfy a predicate is
  the predicate's count.
-/
import Idealize.ShloMosaic.Lib.ValueIdx
import Idealize.ShloMosaic.Lib.ValueLayout
import Idealize.ShloMosaic.Lib.IdealHost
import Idealize.ShloMosaic.PureOps.Ideal.Laws

namespace Cert.KernelIdeal.Place

open Idealize.ShloMosaic

/-- A number below 96, as a 32-bit word read signed, is itself. -/
theorem toInt_ofNat_small (n : ℕ) (h : n < 96) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- The signed comparison of two such words is the comparison of the numbers. -/
theorem sle_ofNat_small (a b : ℕ) (ha : a < 96) (hb : b < 96) :
    (BitVec.ofNat 32 a).sle (BitVec.ofNat 32 b) = decide (a ≤ b) := by
  unfold BitVec.sle
  rw [toInt_ofNat_small a ha, toInt_ofNat_small b hb]
  simp

/-- Such a word is the zero word exactly when the number is zero. -/
theorem beq_zero_ofNat_small (a : ℕ) (ha : a < 96) : (BitVec.ofNat 32 a == 0#32) = decide (a = 0) := by
  rw [Bool.eq_iff_iff, beq_iff_eq, decide_eq_true_eq]
  constructor
  · intro e
    have h1 := congrArg BitVec.toNat e
    rw [BitVec.toNat_ofNat, Nat.mod_eq_of_lt (by omega)] at h1
    exact h1
  · rintro rfl; rfl

/-- A one-bit word widened to 32 bits and converted to a float is 1 or 0. -/
theorem coe_toInt_setWidth_ofBool (t : Bool) :
    ((((BitVec.ofBool t).setWidth 32).toInt : ℝ) : EReal) = if t then 1 else 0 := by
  cases t <;> simp

/-- The conjunction of two one-bit words. -/
theorem andi_ofBool (a b : Bool) : IntOp.andi (BitVec.ofBool a) (BitVec.ofBool b) = BitVec.ofBool (a && b) := by
  cases a <;> cases b <;> rfl

/-- A one-bit word is the bit 1 exactly when its boolean is true. -/
theorem ofBool_eq_one_iff (a : Bool) : (BitVec.ofBool a = 1#1) ↔ a = true := by
  cases a <;> decide

/-- The f32 pattern of minus infinity is the bottom of the extended reals. -/
theorem ofBits_neg_inf_f32 : Ideal.ofBits .f32 0xFF800000#32 = (⊥ : EReal) := by
  simp [Ideal.ofBits, Ideal.ieee]

/-- A sum of 0/1 indicators is the number of indices where the indicator holds. -/
theorem sum_ite_card {ι : Type*} (s : Finset ι) (f : ι → Prop) [DecidablePred f] :
    ∑ i ∈ s, (if f i then (1 : EReal) else 0) = (((s.filter f).card : ℝ) : EReal) := by
  classical
  induction s using Finset.induction_on with
  | empty => simp
  | insert a s ha ih =>
    rw [Finset.sum_insert ha, ih, Finset.filter_insert]
    by_cases hf : f a
    · rw [if_pos hf, if_pos hf, Finset.card_insert_of_notMem (fun h => ha (Finset.mem_filter.1 h).1)]
      push_cast
      rw [add_comm]
    · rw [if_neg hf, if_neg hf, zero_add]

/-- The channels up to and including `c` that satisfy `p` are `Nat.count p (c + 1)` many. -/
theorem card_le_and (p : ℕ → Prop) [DecidablePred p] (c : Fin 96) :
    (Finset.univ.filter fun c' : Fin 96 => c'.val ≤ c.val ∧ p c'.val).card = Nat.count p (c.val + 1) := by
  rw [Nat.count_eq_card_filter_range, ← Finset.card_map Fin.valEmbedding]
  congr 1
  ext x
  simp only [Finset.mem_map, Finset.mem_filter, Finset.mem_univ, true_and, Fin.valEmbedding_apply, Finset.mem_range]
  constructor
  · rintro ⟨y, ⟨h1, h2⟩, rfl⟩; exact ⟨by omega, h2⟩
  · rintro ⟨h1, h2⟩; exact ⟨⟨x, by omega⟩, ⟨by show x ≤ c.val; omega, h2⟩, rfl⟩

/-- All the channels that satisfy `p` are `Nat.count p 96` many. -/
theorem card_all (p : ℕ → Prop) [DecidablePred p] :
    (Finset.univ.filter fun c' : Fin 96 => p c'.val).card = Nat.count p 96 := by
  rw [Nat.count_eq_card_filter_range, ← Finset.card_map Fin.valEmbedding]
  congr 1
  ext x
  simp only [Finset.mem_map, Finset.mem_filter, Finset.mem_univ, true_and, Fin.valEmbedding_apply, Finset.mem_range]
  constructor
  · rintro ⟨y, h2, rfl⟩; exact ⟨y.isLt, h2⟩
  · rintro ⟨h1, h2⟩; exact ⟨⟨x, h1⟩, h2, rfl⟩

end Cert.KernelIdeal.Place
-- ==== Proof.KI.PlaceStage1.lean ====
/-
  The first stages of the placement payload read at an index, at the ideal values: the kept-channel column is 1 on a
  channel with some flag set and 0 elsewhere (a maximum of 0/1 entries folded from minus infinity); the index matrices
  hold the words of the row and the column; the triangular matrix is 1 on and below the diagonal; the column index as a
  float is the column number.
-/
import proofs.«123979_g27556510171775_cont_sun_c4_435_14_alg».proof.Proof.KI.PlaceDefs
import proofs.«123979_g27556510171775_cont_sun_c4_435_14_alg».proof.Proof.KI.PlaceWords

noncomputable section

namespace Cert.KernelIdeal.Place

open Idealize.ShloMosaic Idealize.ShloMosaic.ValueIdx Cert.KernelIdeal Cert.KernelIdeal.Gen

/-- The kept-channel column at a channel: 1 when some flag of the channel's row is set, else 0 (the fold of `max` from
    minus infinity over 224 entries that are each 0 or 1). -/
theorem cmCol_apply (v : FVec Ideal S96x224 .f32) (A : Fin 96 → Fin 224 → Prop) [∀ ch w, Decidable (A ch w)]
    (hv : ∀ (ch : Fin 96) (w : Fin 224), v (ix2 ch w) = if A ch w then (1 : EReal) else 0) (ch : Fin 96) (u : Fin 1) :
    cmCol v (ix2 ch u) = if ∃ w, A ch w then (1 : EReal) else 0 := by
  unfold cmCol
  refine (shapeCast_apply _ shapeCasts_S96_S96x1 (ix2 ch u) (ix1 ch) ?_).trans ?_
  · rw [Shape.rowMajor_val_one, Shape.rowMajor_val_two]
    show ch.val = ch.val * 1 + u.val
    omega
  refine (Ideal.multiReduction_maximumf_single v 0xFF800000#32 reduces_S96x224_S96 (.inl rfl) rfl (ix1 ch)).trans ?_
  have hl : ∀ w : Fin 224, (reduces_S96x224_S96).lift (ix1 ch) w = ix2 ch w := fun w =>
    funext fun a => Fin.ext (by match a with | ⟨0, _⟩ => rfl | ⟨1, _⟩ => rfl)
  have hf : (v ∘ (reduces_S96x224_S96).lift (ix1 ch)) = fun w : Fin 224 => if A ch w then (1 : EReal) else 0 :=
    funext fun w => (congrArg v (hl w)).trans (hv ch w)
  rw [hf]
  show Finset.fold max (Ideal.ofBits .f32 0xFF800000#32) _ (Finset.univ : Finset (Fin 224)) = _
  rw [ofBits_neg_inf_f32]
  by_cases hex : ∃ w, A ch w
  · rw [if_pos hex]
    obtain ⟨w0, hw0⟩ := hex
    apply le_antisymm
    · rw [Finset.fold_max_le]
      refine ⟨bot_le, fun w _ => ?_⟩
      by_cases hw : A ch w
      · rw [if_pos hw]
      · rw [if_neg hw]; exact zero_le_one
    · rw [Finset.le_fold_max]
      exact Or.inr ⟨w0, Finset.mem_univ _, by rw [if_pos hw0]⟩
  · rw [if_neg hex]
    apply le_antisymm
    · rw [Finset.fold_max_le]
      refine ⟨bot_le, fun w _ => ?_⟩
      rw [if_neg (fun h => hex ⟨w, h⟩)]
    · rw [Finset.le_fold_max]
      exact Or.inr ⟨⟨0, by omega⟩, Finset.mem_univ _, by rw [if_neg (fun h => hex ⟨_, h⟩)]⟩

/-- The column index word at (c, k) is the word of k; the row index word is the word of c. -/
theorem colIota_apply (c k : Fin 96) : colIota (ix2 c k) = BitVec.ofNat 32 k.val := by
  show BitVec.ofNat 32 (0 * 96 + k.val) = _
  rw [Nat.zero_mul, Nat.zero_add]
theorem rowIota_apply (c k : Fin 96) : rowIota (ix2 c k) = BitVec.ofNat 32 c.val := by
  show BitVec.ofNat 32 (0 * 96 + c.val) = _
  rw [Nat.zero_mul, Nat.zero_add]

/-- The triangular matrix at (c, c') is 1 when c' ≤ c, else 0. -/
theorem tri_apply (c c' : Fin 96) : tri (ix2 c c') = if c'.val ≤ c.val then (1 : EReal) else 0 := by
  show ((((IntOp.cmpi .sle (colIota (ix2 c c')) (rowIota (ix2 c c'))).setWidth 32).toInt : ℝ) : EReal) = _
  rw [colIota_apply, rowIota_apply]
  show ((((BitVec.ofBool ((BitVec.ofNat 32 c'.val).sle (BitVec.ofNat 32 c.val))).setWidth 32).toInt : ℝ) : EReal) = _
  rw [sle_ofNat_small _ _ c'.isLt c.isLt, coe_toInt_setWidth_ofBool]
  by_cases h : c'.val ≤ c.val <;> simp [h]

/-- The column index as a float at (c, k) is k. -/
theorem colF_apply (c k : Fin 96) : (sitofp .f32 colIota : FVec Ideal S96x96 .f32) (ix2 c k) = ((k.val : ℝ) : EReal) := by
  show (((colIota (ix2 c k)).toInt : ℝ) : EReal) = _
  rw [colIota_apply, toInt_ofNat_small _ k.isLt]
  norm_cast

end Cert.KernelIdeal.Place
-- ==== Proof.KI.PlaceStage2.lean ====
/-
  The two contractions of the placement payload read at an index, at the ideal values: the triangular matrix times the
  kept-channel column is, at channel c, the number of kept channels up to and including c; the sum of the column is the
  number of kept channels; and a 96 × 1 column broadcast along its unit axis reads the column's entry of the row.
-/
import proofs.«123979_g27556510171775_cont_sun_c4_435_14_alg».proof.Proof.KI.PlaceStage1

noncomputable section

namespace Cert.KernelIdeal.Place

open Idealize.ShloMosaic Idealize.ShloMosaic.ValueIdx Cert.KernelIdeal Cert.KernelIdeal.Gen

/-- The inclusive rank at channel `c`: the number of kept channels up to and including `c`. Each product in the
    contraction is the indicator of "c' ≤ c and c' kept", and the sum of the indicators counts them. -/
theorem rankInc_apply (v : FVec Ideal S96x224 .f32) (p : ℕ → Prop) [DecidablePred p]
    (hcm : ∀ (ch : Fin 96) (u : Fin 1), cmCol v (ix2 ch u) = if p ch.val then (1 : EReal) else 0) (c : Fin 96) (u : Fin 1) :
    rankInc v (ix2 c u) = ((Nat.count p (c.val + 1) : ℝ) : EReal) := by
  unfold rankInc
  show FloatOps.matmul dot_S96x96_S96x1_S96x1_1_0_0_1_n_n none tri (cmCol v) (constant S96x1 .f32 0x00000000#32) (ix2 c u) = _
  rw [Ideal.matmul_constant_zero_apply,
    ← Equiv.sum_comp (contrEquiv1 dot_S96x96_S96x1_S96x1_1_0_0_1_n_n 96 rfl rfl).symm]
  have hterm : ∀ c' : Fin 96,
      tri (dot_S96x96_S96x1_S96x1_1_0_0_1_n_n.lhsIdx (ix2 c u) ((contrEquiv1 dot_S96x96_S96x1_S96x1_1_0_0_1_n_n 96 rfl rfl).symm c'))
        * cmCol v (dot_S96x96_S96x1_S96x1_1_0_0_1_n_n.rhsIdx (ix2 c u) ((contrEquiv1 dot_S96x96_S96x1_S96x1_1_0_0_1_n_n 96 rfl rfl).symm c'))
      = if c'.val ≤ c.val ∧ p c'.val then (1 : EReal) else 0 := by
    intro c'
    have c2 := contrEquiv1_symm_val dot_S96x96_S96x1_S96x1_1_0_0_1_n_n 96 rfl rfl c'
    have l2 : dot_S96x96_S96x1_S96x1_1_0_0_1_n_n.lhsIdx (ix2 c u)
        ((contrEquiv1 dot_S96x96_S96x1_S96x1_1_0_0_1_n_n 96 rfl rfl).symm c') = ix2 c c' := by
      funext ax; apply Fin.ext
      match ax with
      | ⟨0, _⟩ => simp [DotDims.lhsIdx, dot_S96x96_S96x1_S96x1_1_0_0_1_n_n] <;> rfl
      | ⟨1, _⟩ => simp [DotDims.lhsIdx, dot_S96x96_S96x1_S96x1_1_0_0_1_n_n] <;> exact c2
    have r2 : dot_S96x96_S96x1_S96x1_1_0_0_1_n_n.rhsIdx (ix2 c u)
        ((contrEquiv1 dot_S96x96_S96x1_S96x1_1_0_0_1_n_n 96 rfl rfl).symm c') = ix2 c' u := by
      funext ax; apply Fin.ext
      match ax with
      | ⟨0, _⟩ => simp [DotDims.rhsIdx, dot_S96x96_S96x1_S96x1_1_0_0_1_n_n] <;> exact c2
      | ⟨1, _⟩ => simp [DotDims.rhsIdx, dot_S96x96_S96x1_S96x1_1_0_0_1_n_n] <;> rfl
    rw [l2, r2, tri_apply, hcm]
    by_cases h1 : c'.val ≤ c.val <;> by_cases h2 : p c'.val <;> simp [h1, h2]
  rw [Finset.sum_congr rfl (fun c' _ => hterm c'), sum_ite_card, card_le_and]

/-- The indices of a 1 × 96 × 1 array are the 96 channels. -/
def midEquiv : Fin 96 ≃ S1x96x1.Idx where
  toFun c := ix3 (0 : Fin 1) c (0 : Fin 1)
  invFun i := i 1
  left_inv _ := rfl
  right_inv i := by
    funext a
    match a with
    | ⟨0, _⟩ => exact Fin.ext (by show 0 = (i 0).val; have h : (i 0).val < 1 := (i 0).isLt; omega)
    | ⟨1, _⟩ => rfl
    | ⟨2, _⟩ => exact Fin.ext (by show 0 = (i 2).val; have h : (i 2).val < 1 := (i 2).isLt; omega)

/-- The total: the number of kept channels. The reduction over both non-unit-result axes is the sum over every entry of
    the column, an indicator per channel. -/
theorem total_apply (v : FVec Ideal S96x224 .f32) (p : ℕ → Prop) [DecidablePred p]
    (hcm : ∀ (ch : Fin 96) (u : Fin 1), cmCol v (ix2 ch u) = if p ch.val then (1 : EReal) else 0) :
    total v = ((Nat.count p 96 : ℝ) : EReal) := by
  unfold total extractAt
  refine (shapeCast_apply _ shapeCasts_S1_S1x1x1 _ (ix1 (0 : Fin 1)) ?_).trans ?_
  · rw [Shape.rowMajor_val_one, Shape.rowMajor_val_three]; rfl
  refine (Ideal.multiReduction_add_total _ 0x00000000#32 reduces_S1x96x1_S1
    (fun b => by match b with | ⟨0, _⟩ => rfl) (.inl rfl) rfl (ix1 0)).trans ?_
  rw [← Equiv.sum_comp midEquiv]
  have hterm : ∀ c : Fin 96, shapeCast S1x96x1 (cmCol v) shapeCasts_S96x1_S1x96x1 (midEquiv c)
      = if p c.val then (1 : EReal) else 0 := fun c => by
    refine (shapeCast_apply _ shapeCasts_S96x1_S1x96x1 (ix3 (0 : Fin 1) c (0 : Fin 1)) (ix2 c (0 : Fin 1)) ?_).trans (hcm c 0)
    rw [Shape.rowMajor_val_two, Shape.rowMajor_val_three]
    show c.val * 1 + 0 = (0 * 96 + c.val) * 1 + 0
    omega
  rw [Finset.sum_congr rfl (fun c _ => hterm c), sum_ite_card, card_all]

/-- A column broadcast along its unit axis reads, at (i, j), the column's entry of row i. -/
theorem broadcastTo_a1_ab_apply {α : Type} {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

end Cert.KernelIdeal.Place
-- ==== Proof.Spec.lean ====
/-
  The function both programs compute.

  The mask input has shape [4, 224, 224, 96] and the data input and the result have shape [4, 2, 224, 224, 96]; the
  last axis is the channel. A channel `c < 96` is PRESENT when some entry of the mask input on that channel is nonzero.
  Slot `k` of the result takes the `k`-th present channel, in increasing order, when more than `k` channels are present, and
  channel `0` otherwise; the result's entry at `(b, t, i, j, k)` is the data input's entry at `(b, t, i, j, slot k)`.

  To make "the `k`-th present channel" a total function, every `c ≥ 96` is counted as present as well: the present numbers
  are then infinitely many, `Nat.nth` enumerates them, and the `k`-th one is a real channel exactly when it is below 96 —
  which is exactly when more than `k` real channels are present.
-/
import Idealize.ShloMosaic.PureOps.Ideal
import Idealize.ShloMosaic.Lib.ValueIdx
import Mathlib.Data.Nat.Nth

noncomputable section

namespace MaskChannels

open Idealize.ShloMosaic Idealize.ShloMosaic.ValueIdx

/-- The mask input's shape. -/
abbrev SM : Shape := ⟨4, ![4, 224, 224, 96]⟩
/-- The data input's and the result's shape. -/
abbrev SD : Shape := ⟨5, ![4, 2, 224, 224, 96]⟩

/-- `c` is present: it lies beyond the 96 channels, or some entry of the mask input on channel `c` is nonzero. -/
def present (x : SM.Idx → EReal) (c : ℕ) : Prop :=
  96 ≤ c ∨ ∃ (h : c < 96) (b : Fin 4) (i : Fin 224) (j : Fin 224), x (ix4 b i j ⟨c, h⟩) ≠ 0

/-- The present numbers are infinitely many: all of `[96, ∞)` is present. -/
theorem present_infinite (x : SM.Idx → EReal) : (Set.ofPred (present x)).Infinite :=
  Set.infinite_of_not_bddAbove fun ⟨B, hB⟩ =>
    absurd (hB (show present x (max B 96 + 1) from Or.inl (by omega))) (by omega)

/-- Slot `k`'s channel, as a number: the `k`-th member of `p` when that is below 96, and `0` otherwise. -/
def slotN (p : ℕ → Prop) (k : ℕ) : ℕ := if Nat.nth p k < 96 then Nat.nth p k else 0

theorem slotN_lt (p : ℕ → Prop) (k : ℕ) : slotN p k < 96 := by
  unfold slotN; split <;> omega

/-- Slot `k`'s channel. -/
def slot (p : ℕ → Prop) (k : Fin 96) : Fin 96 := ⟨slotN p k.val, slotN_lt p k.val⟩

/-- The result as one function of the two inputs: entry `(b, t, i, j, k)` is the data input's entry at channel `slot k`. -/
def G (x0 : SM.Idx → EReal) (x1 : SD.Idx → EReal) : SD.Idx → EReal :=
  fun i => x1 (ix5 (i 0) (i 1) (i 2) (i 3) (slot (present x0) (i 4)))

end MaskChannels

end
-- ==== Proof.LibNthSlot.lean ====
/-
  Counting and enumerating the members of a predicate on the natural numbers: the facts that relate

  * "the number of members among the first `i + 1` numbers" (an inclusive prefix count, `Nat.count p (i + 1)`),
  * a histogram of those prefix counts and ITS prefix sums — the way an index-of-the-`k`-th-nonzero computation is
    commonly arranged: `pos k = Σ_{j ≤ k} #{i < n | count (i + 1) = j}` —, and
  * a rank test — the way a one-hot placement is commonly arranged: "member `c` has exactly `k` members before it" —

  to Mathlib's `Nat.nth p k`, the `k`-th member of `p` in increasing order. Everything is stated for a predicate
  with infinitely many members, where `Nat.count p` and `Nat.nth p` form a Galois connection; a predicate on
  `[0, n)` is brought into that form by counting every number `≥ n` as a member, and then "fewer than `k + 1` real
  members" reads `n ≤ Nat.nth p k`. General: nothing here mentions any program.
-/
import Mathlib.Data.Nat.Nth
import Mathlib.Algebra.BigOperators.Group.Finset.Basic
import Mathlib.Algebra.Order.BigOperators.Group.Finset

open Finset

namespace NthSlot

variable (p : ℕ → Prop) [DecidablePred p]

/-- At most `k` members among the first `i + 1` numbers, exactly when `i` lies strictly before the `k`-th member. -/
theorem count_succ_le_iff (hp : (Set.ofPred p).Infinite) (i k : ℕ) :
    Nat.count p (i + 1) ≤ k ↔ i < Nat.nth p k := by
  rw [Nat.count_le_iff_le_nth hp]; exact Nat.succ_le_iff

/-- The numbers below `n` whose inclusive prefix count is at most `k` are those before the `k`-th member: there
    are `min n (nth k)` of them. -/
theorem card_prefix_le (hp : (Set.ofPred p).Infinite) (n k : ℕ) :
    #{i ∈ range n | Nat.count p (i + 1) ≤ k} = min n (Nat.nth p k) := by
  have h : {i ∈ range n | Nat.count p (i + 1) ≤ k} = range (min n (Nat.nth p k)) := by
    ext i; simp only [mem_filter, mem_range, count_succ_le_iff p hp, lt_min_iff]
  rw [h, card_range]

/-- Prefix sums of a histogram: the bins `0 … k` of the values `f i`, `i < n`, together hold the `i` with `f i ≤ k`. -/
theorem sum_bins (f : ℕ → ℕ) (n k : ℕ) :
    ∑ j ∈ range (k + 1), #{i ∈ range n | f i = j} = #{i ∈ range n | f i ≤ k} := by
  rw [card_eq_sum_card_fiberwise (s := {i ∈ range n | f i ≤ k}) (t := range (k + 1)) (f := f)
    (fun x hx => by
      have hx' := (mem_filter.mp hx).2
      exact mem_range.mpr (Nat.lt_succ_of_le hx'))]
  refine sum_congr rfl fun j hj => ?_
  congr 1
  ext i
  have hj' : j ≤ k := Nat.lt_succ_iff.mp (mem_range.mp hj)
  simp only [mem_filter, mem_range]
  constructor
  · rintro ⟨hi, rfl⟩; exact ⟨⟨hi, hj'⟩, rfl⟩
  · rintro ⟨⟨hi, _⟩, h⟩; exact ⟨hi, h⟩

/-- The position computed by the histogram of prefix counts: `min n (nth k)`. -/
theorem pos_eq_min (hp : (Set.ofPred p).Infinite) (n k : ℕ) :
    ∑ j ∈ range (k + 1), #{i ∈ range n | Nat.count p (i + 1) = j} = min n (Nat.nth p k) :=
  (sum_bins (fun i => Nat.count p (i + 1)) n k).trans (card_prefix_le p hp n k)

/-- Reduced modulo `n`, that position is the `k`-th member when it lies below `n`, and `0` otherwise. -/
theorem min_mod (n a : ℕ) : min n a % n = if a < n then a else 0 := by
  split
  · rename_i h; rw [min_eq_right h.le, Nat.mod_eq_of_lt h]
  · rename_i h; rw [min_eq_left (not_lt.mp h), Nat.mod_self]

/-- A member `c` has exactly `k` members before it exactly when it IS the `k`-th member. -/
theorem count_eq_iff_eq_nth (hp : (Set.ofPred p).Infinite) {c : ℕ} (hc : p c) (k : ℕ) :
    Nat.count p c = k ↔ c = Nat.nth p k := by
  constructor
  · rintro rfl; exact (Nat.nth_count hc).symm
  · rintro rfl; exact Nat.count_nth_of_infinite hp k

/-- The inclusive prefix count at a member is one more than the number of members before it. -/
theorem count_succ_of_mem {c : ℕ} (hc : p c) : Nat.count p (c + 1) = Nat.count p c + 1 := by
  rw [Nat.count_succ, if_pos hc]

/-- At most `k` members below `n`, exactly when the `k`-th member is not below `n`. -/
theorem count_le_iff (hp : (Set.ofPred p).Infinite) (n k : ℕ) : Nat.count p n ≤ k ↔ n ≤ Nat.nth p k :=
  Nat.count_le_iff_le_nth hp

/-- The `k`-th member is a member. -/
theorem nth_mem (hp : (Set.ofPred p).Infinite) (k : ℕ) : p (Nat.nth p k) := Nat.nth_mem_of_infinite hp k

end NthSlot
-- ==== Proof.KI.PlaceMath.lean ====
/-
  The arithmetic of the placement entry. With n the number of kept channels up to and including c, T the number of kept
  channels among the 96 and q the k-th member of the predicate: the entry
      [n − 1 = k] · [c kept] + [c = 0 and T ≤ k]
  is 1 exactly when c is slot k's channel — q when q is a real channel (then T > k, the second term vanishes, and among
  kept channels "exactly k kept channels before c" singles out q), and 0 otherwise (then T ≤ k, no channel has rank k,
  and the second term marks channel 0).
-/
import proofs.«123979_g27556510171775_cont_sun_c4_435_14_alg».proof.Proof.Spec
import proofs.«123979_g27556510171775_cont_sun_c4_435_14_alg».proof.Proof.LibNthSlot
import Mathlib.Data.EReal.Basic
import Mathlib.Tactic

namespace Cert.KernelIdeal.Place

/-- On casts of naturals, "n − 1 = k" in the extended reals is "n = k + 1". -/
theorem coe_sub_one_eq_iff (n k : ℕ) : (((n : ℝ) : EReal) - 1 = ((k : ℝ) : EReal)) ↔ n = k + 1 := by
  rw [← EReal.coe_one, ← EReal.coe_sub, EReal.coe_eq_coe_iff]
  constructor
  · intro h
    have h' : (n : ℝ) = ((k + 1 : ℕ) : ℝ) := by push_cast; linarith
    exact_mod_cast h'
  · intro h; subst h; push_cast; ring

/-- On casts of naturals the extended reals' order is the naturals'. -/
theorem coe_le_coe_nat_iff (T k : ℕ) : (((T : ℝ) : EReal) ≤ ((k : ℝ) : EReal)) ↔ T ≤ k := by
  rw [EReal.coe_le_coe_iff, Nat.cast_le]

/-- The placement entry is the indicator of "c is slot k's channel". -/
theorem place_entry (p : ℕ → Prop) [DecidablePred p] (hp : (Set.ofPred p).Infinite) (c k : Fin 96) :
    (if (((Nat.count p (c.val + 1) : ℝ) : EReal) - 1 = ((k.val : ℝ) : EReal)) then (1 : EReal) else 0)
        * (if p c.val then (1 : EReal) else 0)
      + (if c.val = 0 ∧ ((Nat.count p 96 : ℝ) : EReal) ≤ ((k.val : ℝ) : EReal) then (1 : EReal) else 0)
    = if c.val = MaskChannels.slotN p k.val then (1 : EReal) else 0 := by
  simp only [coe_sub_one_eq_iff, coe_le_coe_nat_iff]
  have hT : Nat.count p 96 ≤ k.val ↔ 96 ≤ Nat.nth p k.val := NthSlot.count_le_iff p hp 96 k.val
  have hfirst : ∀ (hc : p c.val), (Nat.count p (c.val + 1) = k.val + 1) ↔ c.val = Nat.nth p k.val := fun hc => by
    rw [NthSlot.count_succ_of_mem p hc, Nat.add_right_cancel_iff]
    exact NthSlot.count_eq_iff_eq_nth p hp hc k.val
  by_cases hq : Nat.nth p k.val < 96
  · have hs : MaskChannels.slotN p k.val = Nat.nth p k.val := by unfold MaskChannels.slotN; rw [if_pos hq]
    rw [hs]
    have hT' : ¬ (Nat.count p 96 ≤ k.val) := fun h => by have := hT.1 h; omega
    have h2 : ¬ (c.val = 0 ∧ Nat.count p 96 ≤ k.val) := fun h => hT' h.2
    by_cases hpc : p c.val
    · by_cases hcq : c.val = Nat.nth p k.val
      · rw [if_pos ((hfirst hpc).2 hcq), if_pos hpc, if_neg h2, if_pos hcq, mul_one, add_zero]
      · rw [if_neg (mt (hfirst hpc).1 hcq), if_neg h2, if_neg hcq, zero_mul, add_zero]
    · have hcq : c.val ≠ Nat.nth p k.val := fun e => hpc (e ▸ NthSlot.nth_mem p hp k.val)
      rw [if_neg hpc, if_neg h2, if_neg hcq, mul_zero, add_zero]
  · have hs : MaskChannels.slotN p k.val = 0 := by unfold MaskChannels.slotN; rw [if_neg hq]
    rw [hs]
    have hT' : Nat.count p 96 ≤ k.val := hT.2 (by omega)
    have hcq : c.val ≠ Nat.nth p k.val := by have := c.isLt; omega
    by_cases hpc : p c.val
    · rw [if_neg (mt (hfirst hpc).1 hcq), zero_mul, zero_add]
      by_cases hc0 : c.val = 0
      · rw [if_pos ⟨hc0, hT'⟩, if_pos hc0]
      · have h3 : ¬ (c.val = 0 ∧ Nat.count p 96 ≤ k.val) := fun h => hc0 h.1
        rw [if_neg h3, if_neg hc0]
    · rw [if_neg hpc, mul_zero, zero_add]
      by_cases hc0 : c.val = 0
      · rw [if_pos ⟨hc0, hT'⟩, if_pos hc0]
      · have h3 : ¬ (c.val = 0 ∧ Nat.count p 96 ≤ k.val) := fun h => hc0 h.1
        rw [if_neg h3, if_neg hc0]

end Cert.KernelIdeal.Place
-- ==== Proof.KI.PlaceFinal.lean ====
/-
  The placement payload read at an index: with the flags 0/1 and a channel kept exactly when one of its flags is set, the
  payload's entry at (c, k) is 1 when c is slot k's channel and 0 otherwise. The stages are read at the index one after
  another — the two broadcasts of a column, the column index as a float, the inclusive rank and the total as counts — the
  two comparisons and the conjunction become propositions about natural numbers, and the arithmetic lemma closes.
-/
import proofs.«123979_g27556510171775_cont_sun_c4_435_14_alg».proof.Proof.KI.PlaceStage2
import proofs.«123979_g27556510171775_cont_sun_c4_435_14_alg».proof.Proof.KI.PlaceMath
import proofs.«123979_g27556510171775_cont_sun_c4_435_14_alg».proof.Proof.Spec
import proofs.«123979_g27556510171775_cont_sun_c4_435_14_alg».proof.Proof.LibNthSlot

noncomputable section

namespace Cert.KernelIdeal.Place

open Idealize.ShloMosaic Idealize.ShloMosaic.ValueIdx Cert.KernelIdeal Cert.KernelIdeal.Gen

/-- A select on the bit of a decided proposition is the `if` on the proposition. -/
theorem select_ofBool_decide {α : Type} (P : Prop) [Decidable P] (x y : α) :
    Scalar.select (BitVec.ofBool (decide P)) x y = if P then x else y := by
  by_cases h : P
  · rw [if_pos h, decide_eq_true h]; rfl
  · rw [if_neg h, decide_eq_false h]; rfl

/-- The integer operations at an index, and the ideal comparisons as decided propositions (all by unfolding). -/
theorem andi_at {s : Shape} {w : ℕ} (x y : IVec s w) (i : s.Idx) : andi x y i = IntOp.andi (x i) (y i) := rfl
theorem cmpi_at {s : Shape} {w : ℕ} (q : CmpIPredicate) (x y : IVec s w) (i : s.Idx) :
    cmpi q x y i = IntOp.cmpi q (x i) (y i) := rfl
theorem cmpi_eq_word {w : ℕ} (x y : BitVec w) : IntOp.cmpi .eq x y = BitVec.ofBool (x == y) := rfl
theorem cmpf_oeq (x y : EReal) : FloatOps.cmpf (F := Ideal) (φ := .f32) .oeq x y = BitVec.ofBool (decide (x = y)) := rfl
theorem cmpf_oge (x y : EReal) : FloatOps.cmpf (F := Ideal) (φ := .f32) .oge x y = BitVec.ofBool (decide (y ≤ x)) := rfl
theorem scalar_ofBits (b : BitVec 32) : Scalar.ofBits (F := Ideal) .f32 b = Ideal.ofBits .f32 b := rfl

/-- THE PLACEMENT ENTRY: for 0/1 flags `v`, with channel `ch` kept (`p ch`) exactly when one of its flags is set and every
    number from 96 on counted as kept, the payload at (c, k) is 1 when `c` is slot `k`'s channel and 0 otherwise. -/
theorem pay3_apply (v : FVec Ideal S96x224 .f32) (A : Fin 96 → Fin 224 → Prop) [∀ ch w, Decidable (A ch w)]
    (hv : ∀ (ch : Fin 96) (w : Fin 224), v (ix2 ch w) = if A ch w then (1 : EReal) else 0)
    (p : ℕ → Prop) [DecidablePred p] (hp : (Set.ofPred p).Infinite) (hge : ∀ n, 96 ≤ n → p n)
    (hA : ∀ ch : Fin 96, (∃ w, A ch w) ↔ p ch.val)
    (c k : Fin 96) :
    k0_pay3 (F := Ideal) v (ix2 c k) = if c.val = MaskChannels.slotN p k.val then (1 : EReal) else 0 := by
  have hcm : ∀ (ch : Fin 96) (u : Fin 1), cmCol v (ix2 ch u) = if p ch.val then (1 : EReal) else 0 := fun ch u => by
    rw [cmCol_apply v A hv]
    by_cases h : p ch.val
    · rw [if_pos ((hA ch).2 h), if_pos h]
    · rw [if_neg (fun e => h ((hA ch).1 e)), if_neg h]
  rw [pay3_eq, addf_apply, mulf_apply, select_apply, select_apply, cmpf_apply, andi_at, cmpi_at, cmpf_apply]
  simp only [broadcast_apply]
  rw [broadcastTo_a1_ab_apply, broadcastTo_a1_ab_apply, subf_apply, broadcast_apply, colF_apply, rowIota_apply,
    total_apply v p hcm, hcm, rankInc_apply v p hcm]
  simp only [scalar_ofBits, Ideal.ofBits_one_f32, Ideal.ofBits_zero_f32]
  rw [cmpf_oeq, cmpf_oge, cmpi_eq_word, beq_zero_ofNat_small _ c.isLt, andi_ofBool, ← Bool.decide_and,
    select_ofBool_decide, select_ofBool_decide]
  exact place_entry p hp c k

end Cert.KernelIdeal.Place
-- ==== Proof.KI.Value.lean ====
/-
  The kernel program's value, on the extended reals: the result buffer after the run is the specification's function
  `MaskChannels.G` of the two argument buffers.

  Reading the run's last boundary backwards: the result is the transpose (last two axes swapped) of the gather pass's
  array; that array is `Σ_c P (c, k) · X (b, s, h, c, w)` with `X` the data argument with its last two axes swapped and
  `P` the mask pass's array; `P` is the placement matrix of the mask pass's final scratch, whose entry `(ch, w)` is the
  indicator that some `(b, h)` entry of the (transposed) mask argument is nonzero there — so its row maxima are the
  indicators of the present channels and `P (c, k)` is `1` exactly when `c` is slot `k`'s channel. A sum of a one-hot
  row against the data picks the slot's channel, which is what the specification says.
-/
import proofs.«123979_g27556510171775_cont_sun_c4_435_14_alg».proof.Proof.KI.Run
import proofs.«123979_g27556510171775_cont_sun_c4_435_14_alg».proof.Proof.KI.Val0c
import proofs.«123979_g27556510171775_cont_sun_c4_435_14_alg».proof.Proof.KI.Val1b
import proofs.«123979_g27556510171775_cont_sun_c4_435_14_alg».proof.Proof.KI.PlaceFinal
import proofs.«123979_g27556510171775_cont_sun_c4_435_14_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Val Idealize.ShloMosaic.ValueIdx

variable (m : (ℓ : Loc nD τ sig) → Buf (Elt Ideal) ℓ) (ρ : Dev nD → PrngReg)

/-! ## The boundary contents, read back -/

/-- The mask pass's input array: the mask argument with its last two axes swapped. -/
theorem V1_v0_eq (c : Dev nD) : (V1 m ρ c main_v0 : S4x224x96x224.Idx → EReal)
    = transpose S4x224x96x224 [0, 1, 3, 2] (m ((c : Thread nD τ).loc main_arg0)) transposes_S4x224x224x96_S4x224x96x224_0_1_3_2 := by
  show StableHlo.after hostOps0 (W0 m ρ c) (Proc.devRef .tc main_v0) = _
  after_results <;> rfl

/-- The gather pass's data array: the data argument with its last two axes swapped. -/
theorem V2_v1_eq (c : Dev nD) : (V2 m ρ c main_v1 : S4x2x224x96x224.Idx → EReal)
    = transpose S4x2x224x96x224 [0, 1, 2, 4, 3] (m ((c : Thread nD τ).loc main_arg1)) transposes_S4x2x224x224x96_S4x2x224x96x224_0_1_2_4_3 := by
  refine (W2_of_ne m ρ c main_v1 (by decide)).trans ?_
  show StableHlo.after hostOps0 (W0 m ρ c) (Proc.devRef .tc main_v1) = _
  after_results <;> rfl

/-- The gather pass's matrix array: what the mask pass left. -/
theorem V2_v2_eq (c : Dev nD) : (V2 m ρ c main_v2 : S96x96.Idx → EReal) = k0_pay3 (F := Ideal) (accN (V1 m ρ) c 31 N0_31) :=
  (W2_arr m ρ c 1).trans (final_P (V1 m ρ) c)

/-- The gather pass's result array. -/
theorem W3_v3_eq (c : Dev nD) : (W3 m ρ c (Proc.devRef .tc main_v3) : S4x2x224x96x224.Idx → EReal) = G1 (V2 m ρ c main_v2) (V2 m ρ c main_v1) :=
  (W3_arr m ρ c 2).trans (final1 (V2 m ρ) c)

/-- The program's result: that array with its last two axes swapped back. -/
theorem W4_v4_eq (c : Dev nD) : (W4 m ρ c (Proc.devRef .tc main_v4) : S4x2x224x224x96.Idx → EReal)
    = transpose S4x2x224x224x96 [0, 1, 2, 4, 3] (W3 m ρ c (Proc.devRef .tc main_v3)) transposes_S4x2x224x96x224_S4x2x224x224x96_0_1_2_4_3 := by
  show StableHlo.after hostOps2 (W3 m ρ c) (Proc.devRef .tc main_v4) = _
  after_results <;> rfl

/-! ## The value -/

/-- A one-hot row against a vector picks the hot entry. -/
theorem onehot_sum (s : Fin 96) (P : Fin 96 → EReal) (hP : ∀ cc, P cc = if cc = s then (1 : EReal) else 0) (x : Fin 96 → EReal) :
    ∑ cc : Fin 96, P cc * x cc = x s := by
  rw [Finset.sum_eq_single s]
  · rw [hP s, if_pos rfl, one_mul]
  · intro b _ hb; rw [hP b, if_neg hb, zero_mul]
  · intro h; exact absurd (Finset.mem_univ s) h

open Classical in
/-- THE KERNEL'S VALUE. -/
theorem kernel_value (c : Dev nD) : (W4 m ρ c (Proc.devRef .tc main_v4) : MaskChannels.SD.Idx → EReal)
    = MaskChannels.G (m ((c : Thread nD τ).loc main_arg0)) (m ((c : Thread nD τ).loc main_arg1)) := by
  funext i
  obtain ⟨b, s, h, w, k, rfl⟩ : ∃ (b : Fin 4) (s : Fin 2) (h : Fin 224) (w : Fin 224) (k : Fin 96), i = ix5 b s h w k :=
    ⟨i 0, i 1, i 2, i 3, i 4, eq_ix5 i⟩
  -- the mask argument and the present channels
  have hx0 : ∀ (b' : Fin 4) (h' : Fin 224) (ch : Fin 96) (w' : Fin 224),
      arrE (V1 m ρ) c (ix4 b' h' ch w')
        = (m ((c : Thread nD τ).loc main_arg0) : S4x224x224x96.Idx → EReal) (ix4 b' h' w' ch) := fun b' h' ch w' => by
    refine (congrFun (V1_v0_eq m ρ c) (ix4 b' h' ch w')).trans ?_
    exact transpose_apply [0, 1, 3, 2] _ _ (ix4 b' h' ch w') (ix4 b' h' w' ch) (fun a => by
      match a with
      | ⟨0, _⟩ => rfl
      | ⟨1, _⟩ => rfl
      | ⟨2, _⟩ => rfl
      | ⟨3, _⟩ => rfl)
  have hA : ∀ ch : Fin 96, (∃ w' : Fin 224, ∃ (b' : Fin 4) (h' : Fin 224), arrE (V1 m ρ) c (ix4 b' h' ch w') ≠ 0)
      ↔ MaskChannels.present (m ((c : Thread nD τ).loc main_arg0)) ch.val := fun ch => by
    constructor
    · rintro ⟨w', b', h', hne⟩
      rw [hx0] at hne
      exact Or.inr ⟨ch.isLt, b', h', w', hne⟩
    · rintro (h96 | ⟨hlt, b', h', w', hne⟩)
      · exact absurd ch.isLt (by omega)
      · exact ⟨w', b', h', by rw [hx0]; exact hne⟩
  -- the matrix
  have hP : ∀ cc : Fin 96, (V2 m ρ c main_v2 : S96x96.Idx → EReal) (ix2 cc k)
      = if cc = MaskChannels.slot (MaskChannels.present (m ((c : Thread nD τ).loc main_arg0))) k then (1 : EReal) else 0 := fun cc => by
    rw [V2_v2_eq]
    refine (Cert.KernelIdeal.Place.pay3_apply _ (fun ch w' => ∃ (b' : Fin 4) (h' : Fin 224), arrE (V1 m ρ) c (ix4 b' h' ch w') ≠ 0)
      (acc_last_apply (V1 m ρ) c) (MaskChannels.present (m ((c : Thread nD τ).loc main_arg0)))
      (MaskChannels.present_infinite _) (fun n hn => Or.inl hn) hA cc k).trans ?_
    refine ite_congr_iff ?_ _ _
    constructor
    · intro e; exact Fin.ext e
    · intro e; exact congrArg Fin.val e
  -- the data
  have hX : ∀ cc : Fin 96, (V2 m ρ c main_v1 : S4x2x224x96x224.Idx → EReal) (ix5 b s h cc w)
      = (m ((c : Thread nD τ).loc main_arg1) : S4x2x224x224x96.Idx → EReal) (ix5 b s h w cc) := fun cc => by
    refine (congrFun (V2_v1_eq m ρ c) (ix5 b s h cc w)).trans ?_
    exact transpose_apply [0, 1, 2, 4, 3] _ _ (ix5 b s h cc w) (ix5 b s h w cc) (fun a => by
      match a with
      | ⟨0, _⟩ => rfl
      | ⟨1, _⟩ => rfl
      | ⟨2, _⟩ => rfl
      | ⟨3, _⟩ => rfl
      | ⟨4, _⟩ => rfl)
  rw [W4_v4_eq]
  rw [transpose_apply [0, 1, 2, 4, 3] _ _ (ix5 b s h w k) (ix5 b s h k w) (fun a => by
      match a with
      | ⟨0, _⟩ => rfl
      | ⟨1, _⟩ => rfl
      | ⟨2, _⟩ => rfl
      | ⟨3, _⟩ => rfl
      | ⟨4, _⟩ => rfl)]
  rw [W3_v3_eq]
  show G1 (V2 m ρ c main_v2) (V2 m ρ c main_v1) (ix5 b s h k w)
    = (m ((c : Thread nD τ).loc main_arg1) : S4x2x224x224x96.Idx → EReal) (ix5 b s h w (MaskChannels.slot (MaskChannels.present (m ((c : Thread nD τ).loc main_arg0))) k))
  unfold G1
  refine (Finset.sum_congr rfl fun cc _ => congrArg₂ (fun (a b : EReal) => a * b) (hP cc) (hX cc)).trans ?_
  exact onehot_sum (MaskChannels.slot (MaskChannels.present (m ((c : Thread nD τ).loc main_arg0))) k)
    (fun cc => if cc = MaskChannels.slot (MaskChannels.present (m ((c : Thread nD τ).loc main_arg0))) k then (1 : EReal) else 0)
    (fun cc => rfl)
    (fun cc => (m ((c : Thread nD τ).loc main_arg1) : S4x2x224x224x96.Idx → EReal) (ix5 b s h w cc))

/-- THE KERNEL'S RUN with its result named: the result buffer is the specification's function of the argument
    buffers, and the arguments end as launched. -/
theorem run_value : θ_run defs (onTc (τ := τ) (main (F := Ideal))) ⟨m, fun _ => 0, ρ⟩ (fun r => ∀ c : Dev nD,
      r.2.mem ((c.tc : Thread nD τ).loc main_v4) = MaskChannels.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v4 (by decide))).trans (kernel_value m ρ c),
     (h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.RefRun.lean ====
/-
  The reference program's run, read back. Its @main calls outlined functions (two prefix sums through a shared
  windowed-sum helper, a clamp, a floor division, a remainder, a gather-by-index helper), each call executing the
  callee's body on the caller's buffers; with the calls unfolded @main is one straight line of 92 host operations,
  `ops`. Every weakly fair execution terminates and leaves each buffer at the operations' fold over the launch
  contents (`run_all`); no operation writes an argument buffer, so the arguments end unchanged.

  The line is also cut into seven consecutive stretches, one per stage of the computation — the channel mask, the
  first prefix sum, the scatter of ones, the second prefix sum, the floor division, the remainder, the gather — each
  reading only the previous stretch's result (the first the mask input, the last also the data input).
-/
import proofs.«123979_g27556510171775_cont_sun_c4_435_14_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 92 operations in order, every call unfolded at its own buffers. -/
abbrev ops : List (HloOp τ sig (Elt F)) :=
  [ nullary main_cst (constant S_ .f32 0x00000000#32),
    unary main_cst main_v0 (broadcastInDim S4x224x224x96 ![] bcast_S_S4x224x224x96 : (⟨S_, .f32⟩ : BufTy).Contents (Elt F) → (⟨S4x224x224x96, .f32⟩ : BufTy).Contents (Elt F)),
    binary main_v0 main_arg0 main_v1 (cmpf .oeq : (⟨S4x224x224x96, .f32⟩ : BufTy).Contents (Elt F) → (⟨S4x224x224x96, .f32⟩ : BufTy).Contents (Elt F) → (⟨S4x224x224x96, .i1⟩ : BufTy).Contents (Elt F)),
    nullary main_c (constantI S_ 1 1#1),
    binary main_v1 main_c main_v2 ((fun x v => Host.reduce IntOp.andi x v reducesTo_S4x224x224x96_S96_d0_1_2 h_S_) : (⟨S4x224x224x96, .i1⟩ : BufTy).Contents (Elt F) → (⟨S_, .i1⟩ : BufTy).Contents (Elt F) → (⟨S96, .i1⟩ : BufTy).Contents (Elt F)),
    unary main_v2 main_v3 (noti : (⟨S96, .i1⟩ : BufTy).Contents (Elt F) → (⟨S96, .i1⟩ : BufTy).Contents (Elt F)),
    TRef.unary (.of main_v3 : TRef sig ⟨S96, .i1⟩) main_call0.v0 (extui 32 · natLt_1_32),
    TRef.nullary main_call0.call0.c (constantI S_ 32 0#32),
    TRef.unary main_call0.call0.c main_call0.call0.v0 (broadcastInDim S_ ![] bcast_S_S_),
    TRef.binary main_call0.v0 main_call0.call0.v0 main_call0.call0.v1 (fun x v => Host.reduceWindow IntOp.addi ![96] ![1] ![95] ![0] x v reduceWindows_S96_S96_w96s1p95_0 h_S_),
    nullary main_c_0 (constantI S_ 32 0#32),
    unary main_c_0 main_v5 (broadcastInDim S96 ![] bcast_S_S96 : (⟨S_, .i32⟩ : BufTy).Contents (Elt F) → (⟨S96, .i32⟩ : BufTy).Contents (Elt F)),
    nullary main_c_1 (constantI S_ 32 0#32),
    TRef.unary (.of main_c_1 : TRef sig ⟨S_, .i32⟩) main_call1.v0 id,
    TRef.unary main_call1.v0 main_call1.v1 (broadcastInDim S96 ![] bcast_S_S96),
    TRef.binary main_call1.v1 (.of main_v4 : TRef sig ⟨S96, .i32⟩) main_call1.v2 maxsi,
    nullary main_c_2 (constantI S_ 32 0#32),
    unary main_c_2 main_v7 (broadcastInDim S96 ![] bcast_S_S96 : (⟨S_, .i32⟩ : BufTy).Contents (Elt F) → (⟨S96, .i32⟩ : BufTy).Contents (Elt F)),
    binary main_v6 main_v7 main_v8 (cmpi .slt : (⟨S96, .i32⟩ : BufTy).Contents (Elt F) → (⟨S96, .i32⟩ : BufTy).Contents (Elt F) → (⟨S96, .i1⟩ : BufTy).Contents (Elt F)),
    nullary main_c_3 (constantI S_ 32 96#32),
    unary main_c_3 main_v9 (broadcastInDim S96 ![] bcast_S_S96 : (⟨S_, .i32⟩ : BufTy).Contents (Elt F) → (⟨S96, .i32⟩ : BufTy).Contents (Elt F)),
    binary main_v6 main_v9 main_v10 (addi : (⟨S96, .i32⟩ : BufTy).Contents (Elt F) → (⟨S96, .i32⟩ : BufTy).Contents (Elt F) → (⟨S96, .i32⟩ : BufTy).Contents (Elt F)),
    ternary main_v8 main_v10 main_v6 main_v11 (select : (⟨S96, .i1⟩ : BufTy).Contents (Elt F) → (⟨S96, .i32⟩ : BufTy).Contents (Elt F) → (⟨S96, .i32⟩ : BufTy).Contents (Elt F) → (⟨S96, .i32⟩ : BufTy).Contents (Elt F)),
    unary main_v11 main_v12 (broadcastInDim S96x1 ![0] bcast_S96_S96x1_0 : (⟨S96, .i32⟩ : BufTy).Contents (Elt F) → (⟨S96x1, .i32⟩ : BufTy).Contents (Elt F)),
    nullary main_c_4 (constantI S_ 32 1#32),
    unary main_c_4 main_v13 (broadcastInDim S96 ![] bcast_S_S96 : (⟨S_, .i32⟩ : BufTy).Contents (Elt F) → (⟨S96, .i32⟩ : BufTy).Contents (Elt F)),
    ternary main_v5 main_v12 main_v13 main_v14 ((fun x i u => Host.scatter scatter_S96_S96x1_S96_n_0_0_1 IntOp.addi x i u) : (⟨S96, .i32⟩ : BufTy).Contents (Elt F) → (⟨S96x1, .i32⟩ : BufTy).Contents (Elt F) → (⟨S96, .i32⟩ : BufTy).Contents (Elt F) → (⟨S96, .i32⟩ : BufTy).Contents (Elt F)),
    TRef.nullary main_call2.call0.c (constantI S_ 32 0#32),
    TRef.unary main_call2.call0.c main_call2.call0.v0 (broadcastInDim S_ ![] bcast_S_S_),
    TRef.binary (.of main_v14 : TRef sig ⟨S96, .i32⟩) main_call2.call0.v0 main_call2.call0.v1 (fun x v => Host.reduceWindow IntOp.addi ![96] ![1] ![95] ![0] x v reduceWindows_S96_S96_w96s1p95_0 h_S_),
    nullary main_c_5 (constantI S_ 32 1#32),
    TRef.unary (.of main_c_5 : TRef sig ⟨S_, .i32⟩) main_call3.v0 (broadcastInDim S96 ![] bcast_S_S96),
    TRef.binary (.of main_v15 : TRef sig ⟨S96, .i32⟩) main_call3.v0 main_call3.v1 Host.divsi,
    TRef.unary (.of main_v15 : TRef sig ⟨S96, .i32⟩) main_call3.v2 signi,
    TRef.unary (.of main_c_5 : TRef sig ⟨S_, .i32⟩) main_call3.v3 signi,
    TRef.unary main_call3.v3 main_call3.v4 (broadcastInDim S96 ![] bcast_S_S96),
    TRef.binary main_call3.v2 main_call3.v4 main_call3.v5 (cmpi .ne),
    TRef.unary (.of main_c_5 : TRef sig ⟨S_, .i32⟩) main_call3.v6 (broadcastInDim S96 ![] bcast_S_S96),
    TRef.binary (.of main_v15 : TRef sig ⟨S96, .i32⟩) main_call3.v6 main_call3.v7 Host.remsi,
    TRef.nullary main_call3.c (constantI S_ 32 0#32),
    TRef.unary main_call3.c main_call3.v8 (broadcastInDim S96 ![] bcast_S_S96),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S96 ![] bcast_S_S96),
    TRef.binary main_call3.v1 main_call3.v11 main_call3.v12 subi,
    TRef.ternary main_call3.v10 main_call3.v12 main_call3.v1 main_call3.call0.v0 select,
    nullary main_c_6 (constantI S_ 32 96#32),
    TRef.unary (.of main_c_6 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S96 ![] bcast_S_S96),
    TRef.binary (.of main_v16 : TRef sig ⟨S96, .i32⟩) main_call4.v3 main_call4.v4 Host.remsi,
    TRef.nullary main_call4.c_1 (constantI S_ 32 0#32),
    TRef.unary main_call4.c_1 main_call4.v5 (broadcastInDim S96 ![] bcast_S_S96),
    TRef.binary main_call4.v4 main_call4.v5 main_call4.v6 (cmpi .ne),
    TRef.nullary main_call4.c_2 (constantI S_ 32 0#32),
    TRef.unary main_call4.c_2 main_call4.v7 (broadcastInDim S96 ![] bcast_S_S96),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S96 ![] bcast_S_S96),
    TRef.binary main_call4.v8 main_call4.v10 main_call4.v11 (cmpi .ne),
    TRef.binary main_call4.v11 main_call4.v6 main_call4.v12 andi,
    TRef.unary main_call4.call0.v0 main_call4.v13 (broadcastInDim S96 ![] bcast_S_S96),
    TRef.binary main_call4.v4 main_call4.v13 main_call4.v14 addi,
    TRef.ternary main_call4.v12 main_call4.v14 main_call4.v4 main_call4.v15 select,
    TRef.nullary main_call5.c (constantI S_ 32 0#32),
    TRef.unary main_call5.c main_call5.v0 (broadcastInDim S96 ![] bcast_S_S96),
    TRef.binary (.of main_v17 : TRef sig ⟨S96, .i32⟩) main_call5.v0 main_call5.v1 (cmpi .slt),
    TRef.nullary main_call5.c_0 (constantI S_ 32 96#32),
    TRef.unary main_call5.c_0 main_call5.v2 (broadcastInDim S96 ![] bcast_S_S96),
    TRef.binary (.of main_v17 : TRef sig ⟨S96, .i32⟩) main_call5.v2 main_call5.v3 addi,
    TRef.ternary main_call5.v1 main_call5.v3 (.of main_v17 : TRef sig ⟨S96, .i32⟩) main_call5.call0.v0 select,
    TRef.unary main_call5.call0.v0 main_call5.v5 (broadcastInDim S96x1 ![0] bcast_S96_S96x1_0),
    TRef.nullary main_call5.c_1 (constantI S1 32 95#32),
    TRef.nullary main_call5.c_2 (constantI S_ 32 0#32),
    TRef.unary main_call5.c_2 main_call5.v6 (broadcastInDim S96x1 ![] bcast_S_S96x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S96x1 ![0, 1] bcast_S1x1_S96x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S96x1_S96_d1 h_S_),
    TRef.binary (.of main_arg1 : TRef sig ⟨S4x2x224x224x96, .f32⟩) main_call5.v5 main_call5.v13 (fun x i => Host.gather gather_S4x2x224x224x96_S96x1_S4x2x224x224x96_0123_4_n_n_4_1_422242241 x i),
    TRef.unary main_call5.v12 main_call5.v14 (broadcastInDim S4x2x224x224x96 ![4] bcast_S96_S4x2x224x224x96_4),
    TRef.nullary main_call5.cst (constant S_ .f32 0x7FC00000#32),
    TRef.unary main_call5.cst main_call5.v15 (broadcastInDim S4x2x224x224x96 ![] bcast_S_S4x2x224x224x96),
    TRef.ternary main_call5.v14 main_call5.v13 main_call5.v15 main_call5.v16 select ]

/-- Stretch A of the line: operations 1 to 6. -/
abbrev opsA : List (HloOp τ sig (Elt F)) :=
  [ nullary main_cst (constant S_ .f32 0x00000000#32),
    unary main_cst main_v0 (broadcastInDim S4x224x224x96 ![] bcast_S_S4x224x224x96 : (⟨S_, .f32⟩ : BufTy).Contents (Elt F) → (⟨S4x224x224x96, .f32⟩ : BufTy).Contents (Elt F)),
    binary main_v0 main_arg0 main_v1 (cmpf .oeq : (⟨S4x224x224x96, .f32⟩ : BufTy).Contents (Elt F) → (⟨S4x224x224x96, .f32⟩ : BufTy).Contents (Elt F) → (⟨S4x224x224x96, .i1⟩ : BufTy).Contents (Elt F)),
    nullary main_c (constantI S_ 1 1#1),
    binary main_v1 main_c main_v2 ((fun x v => Host.reduce IntOp.andi x v reducesTo_S4x224x224x96_S96_d0_1_2 h_S_) : (⟨S4x224x224x96, .i1⟩ : BufTy).Contents (Elt F) → (⟨S_, .i1⟩ : BufTy).Contents (Elt F) → (⟨S96, .i1⟩ : BufTy).Contents (Elt F)),
    unary main_v2 main_v3 (noti : (⟨S96, .i1⟩ : BufTy).Contents (Elt F) → (⟨S96, .i1⟩ : BufTy).Contents (Elt F)) ]

/-- Stretch B of the line: operations 7 to 10. -/
abbrev opsB : List (HloOp τ sig (Elt F)) :=
  [ TRef.unary (.of main_v3 : TRef sig ⟨S96, .i1⟩) main_call0.v0 (extui 32 · natLt_1_32),
    TRef.nullary main_call0.call0.c (constantI S_ 32 0#32),
    TRef.unary main_call0.call0.c main_call0.call0.v0 (broadcastInDim S_ ![] bcast_S_S_),
    TRef.binary main_call0.v0 main_call0.call0.v0 main_call0.call0.v1 (fun x v => Host.reduceWindow IntOp.addi ![96] ![1] ![95] ![0] x v reduceWindows_S96_S96_w96s1p95_0 h_S_) ]

/-- Stretch C of the line: operations 11 to 27. -/
abbrev opsC : List (HloOp τ sig (Elt F)) :=
  [ nullary main_c_0 (constantI S_ 32 0#32),
    unary main_c_0 main_v5 (broadcastInDim S96 ![] bcast_S_S96 : (⟨S_, .i32⟩ : BufTy).Contents (Elt F) → (⟨S96, .i32⟩ : BufTy).Contents (Elt F)),
    nullary main_c_1 (constantI S_ 32 0#32),
    TRef.unary (.of main_c_1 : TRef sig ⟨S_, .i32⟩) main_call1.v0 id,
    TRef.unary main_call1.v0 main_call1.v1 (broadcastInDim S96 ![] bcast_S_S96),
    TRef.binary main_call1.v1 (.of main_v4 : TRef sig ⟨S96, .i32⟩) main_call1.v2 maxsi,
    nullary main_c_2 (constantI S_ 32 0#32),
    unary main_c_2 main_v7 (broadcastInDim S96 ![] bcast_S_S96 : (⟨S_, .i32⟩ : BufTy).Contents (Elt F) → (⟨S96, .i32⟩ : BufTy).Contents (Elt F)),
    binary main_v6 main_v7 main_v8 (cmpi .slt : (⟨S96, .i32⟩ : BufTy).Contents (Elt F) → (⟨S96, .i32⟩ : BufTy).Contents (Elt F) → (⟨S96, .i1⟩ : BufTy).Contents (Elt F)),
    nullary main_c_3 (constantI S_ 32 96#32),
    unary main_c_3 main_v9 (broadcastInDim S96 ![] bcast_S_S96 : (⟨S_, .i32⟩ : BufTy).Contents (Elt F) → (⟨S96, .i32⟩ : BufTy).Contents (Elt F)),
    binary main_v6 main_v9 main_v10 (addi : (⟨S96, .i32⟩ : BufTy).Contents (Elt F) → (⟨S96, .i32⟩ : BufTy).Contents (Elt F) → (⟨S96, .i32⟩ : BufTy).Contents (Elt F)),
    ternary main_v8 main_v10 main_v6 main_v11 (select : (⟨S96, .i1⟩ : BufTy).Contents (Elt F) → (⟨S96, .i32⟩ : BufTy).Contents (Elt F) → (⟨S96, .i32⟩ : BufTy).Contents (Elt F) → (⟨S96, .i32⟩ : BufTy).Contents (Elt F)),
    unary main_v11 main_v12 (broadcastInDim S96x1 ![0] bcast_S96_S96x1_0 : (⟨S96, .i32⟩ : BufTy).Contents (Elt F) → (⟨S96x1, .i32⟩ : BufTy).Contents (Elt F)),
    nullary main_c_4 (constantI S_ 32 1#32),
    unary main_c_4 main_v13 (broadcastInDim S96 ![] bcast_S_S96 : (⟨S_, .i32⟩ : BufTy).Contents (Elt F) → (⟨S96, .i32⟩ : BufTy).Contents (Elt F)),
    ternary main_v5 main_v12 main_v13 main_v14 ((fun x i u => Host.scatter scatter_S96_S96x1_S96_n_0_0_1 IntOp.addi x i u) : (⟨S96, .i32⟩ : BufTy).Contents (Elt F) → (⟨S96x1, .i32⟩ : BufTy).Contents (Elt F) → (⟨S96, .i32⟩ : BufTy).Contents (Elt F) → (⟨S96, .i32⟩ : BufTy).Contents (Elt F)) ]

/-- Stretch D of the line: operations 28 to 30. -/
abbrev opsD : List (HloOp τ sig (Elt F)) :=
  [ TRef.nullary main_call2.call0.c (constantI S_ 32 0#32),
    TRef.unary main_call2.call0.c main_call2.call0.v0 (broadcastInDim S_ ![] bcast_S_S_),
    TRef.binary (.of main_v14 : TRef sig ⟨S96, .i32⟩) main_call2.call0.v0 main_call2.call0.v1 (fun x v => Host.reduceWindow IntOp.addi ![96] ![1] ![95] ![0] x v reduceWindows_S96_S96_w96s1p95_0 h_S_) ]

/-- Stretch E of the line: operations 31 to 47. -/
abbrev opsE : List (HloOp τ sig (Elt F)) :=
  [ nullary main_c_5 (constantI S_ 32 1#32),
    TRef.unary (.of main_c_5 : TRef sig ⟨S_, .i32⟩) main_call3.v0 (broadcastInDim S96 ![] bcast_S_S96),
    TRef.binary (.of main_v15 : TRef sig ⟨S96, .i32⟩) main_call3.v0 main_call3.v1 Host.divsi,
    TRef.unary (.of main_v15 : TRef sig ⟨S96, .i32⟩) main_call3.v2 signi,
    TRef.unary (.of main_c_5 : TRef sig ⟨S_, .i32⟩) main_call3.v3 signi,
    TRef.unary main_call3.v3 main_call3.v4 (broadcastInDim S96 ![] bcast_S_S96),
    TRef.binary main_call3.v2 main_call3.v4 main_call3.v5 (cmpi .ne),
    TRef.unary (.of main_c_5 : TRef sig ⟨S_, .i32⟩) main_call3.v6 (broadcastInDim S96 ![] bcast_S_S96),
    TRef.binary (.of main_v15 : TRef sig ⟨S96, .i32⟩) main_call3.v6 main_call3.v7 Host.remsi,
    TRef.nullary main_call3.c (constantI S_ 32 0#32),
    TRef.unary main_call3.c main_call3.v8 (broadcastInDim S96 ![] bcast_S_S96),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S96 ![] bcast_S_S96),
    TRef.binary main_call3.v1 main_call3.v11 main_call3.v12 subi,
    TRef.ternary main_call3.v10 main_call3.v12 main_call3.v1 main_call3.call0.v0 select ]

/-- Stretch F of the line: operations 48 to 69. -/
abbrev opsF : List (HloOp τ sig (Elt F)) :=
  [ nullary main_c_6 (constantI S_ 32 96#32),
    TRef.unary (.of main_c_6 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S96 ![] bcast_S_S96),
    TRef.binary (.of main_v16 : TRef sig ⟨S96, .i32⟩) main_call4.v3 main_call4.v4 Host.remsi,
    TRef.nullary main_call4.c_1 (constantI S_ 32 0#32),
    TRef.unary main_call4.c_1 main_call4.v5 (broadcastInDim S96 ![] bcast_S_S96),
    TRef.binary main_call4.v4 main_call4.v5 main_call4.v6 (cmpi .ne),
    TRef.nullary main_call4.c_2 (constantI S_ 32 0#32),
    TRef.unary main_call4.c_2 main_call4.v7 (broadcastInDim S96 ![] bcast_S_S96),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S96 ![] bcast_S_S96),
    TRef.binary main_call4.v8 main_call4.v10 main_call4.v11 (cmpi .ne),
    TRef.binary main_call4.v11 main_call4.v6 main_call4.v12 andi,
    TRef.unary main_call4.call0.v0 main_call4.v13 (broadcastInDim S96 ![] bcast_S_S96),
    TRef.binary main_call4.v4 main_call4.v13 main_call4.v14 addi,
    TRef.ternary main_call4.v12 main_call4.v14 main_call4.v4 main_call4.v15 select ]

/-- Stretch G of the line: operations 70 to 92. -/
abbrev opsG : List (HloOp τ sig (Elt F)) :=
  [ TRef.nullary main_call5.c (constantI S_ 32 0#32),
    TRef.unary main_call5.c main_call5.v0 (broadcastInDim S96 ![] bcast_S_S96),
    TRef.binary (.of main_v17 : TRef sig ⟨S96, .i32⟩) main_call5.v0 main_call5.v1 (cmpi .slt),
    TRef.nullary main_call5.c_0 (constantI S_ 32 96#32),
    TRef.unary main_call5.c_0 main_call5.v2 (broadcastInDim S96 ![] bcast_S_S96),
    TRef.binary (.of main_v17 : TRef sig ⟨S96, .i32⟩) main_call5.v2 main_call5.v3 addi,
    TRef.ternary main_call5.v1 main_call5.v3 (.of main_v17 : TRef sig ⟨S96, .i32⟩) main_call5.call0.v0 select,
    TRef.unary main_call5.call0.v0 main_call5.v5 (broadcastInDim S96x1 ![0] bcast_S96_S96x1_0),
    TRef.nullary main_call5.c_1 (constantI S1 32 95#32),
    TRef.nullary main_call5.c_2 (constantI S_ 32 0#32),
    TRef.unary main_call5.c_2 main_call5.v6 (broadcastInDim S96x1 ![] bcast_S_S96x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S96x1 ![0, 1] bcast_S1x1_S96x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S96x1_S96_d1 h_S_),
    TRef.binary (.of main_arg1 : TRef sig ⟨S4x2x224x224x96, .f32⟩) main_call5.v5 main_call5.v13 (fun x i => Host.gather gather_S4x2x224x224x96_S96x1_S4x2x224x224x96_0123_4_n_n_4_1_422242241 x i),
    TRef.unary main_call5.v12 main_call5.v14 (broadcastInDim S4x2x224x224x96 ![4] bcast_S96_S4x2x224x224x96_4),
    TRef.nullary main_call5.cst (constant S_ .f32 0x7FC00000#32),
    TRef.unary main_call5.cst main_call5.v15 (broadcastInDim S4x2x224x224x96 ![] bcast_S_S4x2x224x224x96),
    TRef.ternary main_call5.v14 main_call5.v13 main_call5.v15 main_call5.v16 select ]

/-- The line is its seven stretches in order. -/
theorem ops_split : (ops : List (HloOp τ sig (Elt F))) = opsA ++ (opsB ++ (opsC ++ (opsD ++ (opsE ++ (opsF ++ opsG))))) := rfl

-- ninety-two binds re-associated: the rewrite under the chain recurses once per statement
set_option maxRecDepth 4096 in
set_option maxHeartbeats 4000000 in
/-- @main is that straight line: the functions' definitions unfolded at their calls and the records at their fields,
    both sides are one chain of host steps once sequencing is re-associated. -/
theorem main_eq (c : Dev nD) : main (F := F) c = seq ops := by
  simp only [main, fn_cumsum.body, fn_cumsum_0.body, fn_clip.body, fn_cumsum_1.body, fn_where.body, fn_floor_divide.body,
    fn_where_2.body, fn_remainder.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., binary_bufs_sub .., unary_bufs_sub ..,
    unary_bufs_sub .., nullary_bufs_sub .., unary_bufs_sub .., binary_bufs_sub .., nullary_bufs_sub .., unary_bufs_sub ..,
    nullary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub ..⟩

/-- At the compiled mesh, from any memory with zero counters: every weakly fair execution of @main on the TensorCores
    terminates, and every final state has each buffer at the operations' fold over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The reference's result as one function of its two inputs. Each of the seven stretches of the straight line is a
  function of the one buffer it reads from the stretch before (the last also of the data input):
    the channel mask (a channel is kept when not all its entries compare equal to zero),
    the inclusive prefix sum of the mask as 32-bit words,
    the histogram of those prefix sums (a scatter-add of ones into 96 zero bins at the clamped, wrapped sums),
    the inclusive prefix sum of the histogram,
    its floor division by one, its remainder modulo 96,
    and the gather of the data input's channels at the resulting positions (guarded by an in-range test).
  Reading the fold of the operations at each stretch's result buffer gives these functions; composing them gives
  `refTerm`, and the run leaves the result buffer at `refTerm` of the launch contents of the two arguments.
-/
import proofs.«123979_g27556510171775_cont_sun_c4_435_14_alg».proof.Proof.RefRun
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The stages -/

/-- The 96-vector with every entry the word `n`. -/
def bc96 (n : BitVec 32) : IVec S96 32 := broadcastInDim S96 ![] bcast_S_S96 (constantI S_ 32 n)

/-- The channel mask: one where not every entry of the channel equals zero. -/
def stA (x0 : FVec Ideal S4x224x224x96 .f32) : IVec S96 1 :=
  noti (Host.reduce IntOp.andi
    (cmpf (F := Ideal) .oeq (broadcastInDim S4x224x224x96 ![] bcast_S_S4x224x224x96 (constant (F := Ideal) S_ .f32 0x00000000#32)) x0)
    (constantI S_ 1 1#1) reducesTo_S4x224x224x96_S96_d0_1_2 h_S_)

/-- The inclusive prefix sum of a 96-vector of words: a window of 96 over the vector padded by 95 zeros below. -/
def cumsum32 (x : IVec S96 32) : IVec S96 32 :=
  Host.reduceWindow IntOp.addi ![96] ![1] ![95] ![0] x (broadcastInDim S_ ![] bcast_S_S_ (constantI S_ 32 0#32))
    reduceWindows_S96_S96_w96s1p95_0 h_S_

/-- The prefix sum of the mask. -/
def stB (msk : IVec S96 1) : IVec S96 32 := cumsum32 (extui 32 msk natLt_1_32)

/-- A negative index counted from the end: 96 is added to an entry below zero. -/
def wrap96 (i : IVec S96 32) : IVec S96 32 := select (cmpi .slt i (bc96 0#32)) (addi i (bc96 96#32)) i

/-- The entries clamped below at zero. -/
def clip0 (cs : IVec S96 32) : IVec S96 32 := maxsi (broadcastInDim S96 ![] bcast_S_S96 (id (constantI S_ 32 0#32))) cs

/-- The histogram: ones added into 96 zero bins at the positions the vector names. -/
def stC (cs : IVec S96 32) : IVec S96 32 :=
  Host.scatter scatter_S96_S96x1_S96_n_0_0_1 IntOp.addi (bc96 0#32)
    (broadcastInDim S96x1 ![0] bcast_S96_S96x1_0 (wrap96 (clip0 cs))) (bc96 1#32)

/-- The floor division by one, as it is computed: the truncating quotient, less one where the signs differ and the
    remainder is not zero. -/
def stE (x : IVec S96 32) : IVec S96 32 :=
  select
    (andi (cmpi .ne (signi x) (broadcastInDim S96 ![] bcast_S_S96 (signi (constantI S_ 32 1#32))))
      (cmpi .ne (Host.remsi x (bc96 1#32)) (bc96 0#32)))
    (subi (Host.divsi x (bc96 1#32)) (bc96 1#32))
    (Host.divsi x (bc96 1#32))

/-- The divisor of the remainder: 96, or one were it zero. -/
def div96 : IVec S_ 32 :=
  select (cmpi .eq (id (constantI S_ 32 96#32)) (constantI S_ 32 0#32)) (constantI S_ 32 1#32) (id (constantI S_ 32 96#32))

/-- The truncating remainder by that divisor. -/
def rem96 (x : IVec S96 32) : IVec S96 32 := Host.remsi x (broadcastInDim S96 ![] bcast_S_S96 div96)

/-- The remainder modulo 96 with the divisor's sign, as it is computed: the truncating remainder, plus the divisor
    where it is not zero and its sign differs from the divisor's. -/
def stF (x : IVec S96 32) : IVec S96 32 :=
  select
    (andi (cmpi .ne (cmpi .slt (rem96 x) (bc96 0#32)) (broadcastInDim S96 ![] bcast_S_S96 (cmpi .slt div96 (constantI S_ 32 0#32))))
      (cmpi .ne (rem96 x) (bc96 0#32)))
    (addi (rem96 x) (broadcastInDim S96 ![] bcast_S_S96 div96))
    (rem96 x)

/-- The gather's start indices: the wrapped positions as a 96 × 1 table. -/
def takeIdx (idx : IVec S96 32) : IVec S96x1 32 := broadcastInDim S96x1 ![0] bcast_S96_S96x1_0 (wrap96 idx)

/-- The in-range test of the gather: the position is between 0 and 95. -/
def takeOk (idx : IVec S96 32) : IVec S96 1 :=
  Host.reduce IntOp.andi
    (andi (cmpi .sge (takeIdx idx) (broadcastInDim S96x1 ![] bcast_S_S96x1 (constantI S_ 32 0#32)))
      (cmpi .sle (takeIdx idx)
        (broadcastInDim S96x1 ![0, 1] bcast_S1x1_S96x1_0_1 (broadcastInDim S1x1 ![1] bcast_S1_S1x1_1 (constantI S1 32 95#32)))))
    (constantI S_ 1 1#1) reducesTo_S96x1_S96_d1 h_S_

/-- The gather of the data input's channels at the positions, a fill value where the in-range test fails. -/
def stG (x1 : FVec Ideal S4x2x224x224x96 .f32) (idx : IVec S96 32) : FVec Ideal S4x2x224x224x96 .f32 :=
  select (broadcastInDim S4x2x224x224x96 ![4] bcast_S96_S4x2x224x224x96_4 (takeOk idx))
    (Host.gather gather_S4x2x224x224x96_S96x1_S4x2x224x224x96_0123_4_n_n_4_1_422242241 x1 (takeIdx idx))
    (broadcastInDim S4x2x224x224x96 ![] bcast_S_S4x2x224x224x96 (constant (F := Ideal) S_ .f32 0x7FC00000#32))

/-- The reference's result as one function of the mask input and the data input. -/
def refTerm (x0 : FVec Ideal S4x224x224x96 .f32) (x1 : FVec Ideal S4x2x224x224x96 .f32) : FVec Ideal S4x2x224x224x96 .f32 :=
  stG x1 (stF (stE (cumsum32 (stC (stB (stA x0))))))

/-! ## Each stretch computes its stage -/

section Stretches

variable (W : Valuation τ sig (Elt Ideal))

attribute [local irreducible] Host.reduceWindow Host.reduce Host.gather Host.scatter in
theorem outA : after opsA W (main_v3 : DevRef τ sig) = stA (W (main_arg0 : DevRef τ sig)) := by
  after_results_simp <;> rfl
attribute [local irreducible] Host.reduceWindow Host.reduce Host.gather Host.scatter in
theorem outB : after opsB W (main_v4 : DevRef τ sig) = stB (W (main_v3 : DevRef τ sig)) := by
  after_results_simp <;> rfl
attribute [local irreducible] Host.reduceWindow Host.reduce Host.gather Host.scatter in
theorem outC : after opsC W (main_v14 : DevRef τ sig) = stC (W (main_v4 : DevRef τ sig)) := by
  after_results_simp <;> rfl
attribute [local irreducible] Host.reduceWindow Host.reduce Host.gather Host.scatter in
theorem outD : after opsD W (main_v15 : DevRef τ sig) = cumsum32 (W (main_v14 : DevRef τ sig)) := by
  after_results_simp <;> rfl
attribute [local irreducible] Host.reduceWindow Host.reduce Host.gather Host.scatter in
theorem outE : after opsE W (main_v16 : DevRef τ sig) = stE (W (main_v15 : DevRef τ sig)) := by
  after_results_simp <;> rfl
attribute [local irreducible] Host.reduceWindow Host.reduce Host.gather Host.scatter in
theorem outF : after opsF W (main_v17 : DevRef τ sig) = stF (W (main_v16 : DevRef τ sig)) := by
  after_results_simp <;> rfl
attribute [local irreducible] Host.reduceWindow Host.reduce Host.gather Host.scatter in
theorem outG : after opsG W (main_v18 : DevRef τ sig) = stG (W (main_arg1 : DevRef τ sig)) (W (main_v17 : DevRef τ sig)) := by
  after_results_simp <;> rfl

end Stretches

/-- Two lines run one after the other: the second from what the first leaves. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- No operation writes an argument buffer. -/
theorem arg0_eq (V : Valuation τ sig (Elt Ideal)) : after ops V (main_arg0 : DevRef τ sig) = V (main_arg0 : DevRef τ sig) := by
  after_results_simp
theorem arg1_eq (V : Valuation τ sig (Elt Ideal)) : after ops V (main_arg1 : DevRef τ sig) = V (main_arg1 : DevRef τ sig) := by
  after_results_simp

/-- The data input is still at its launch contents when the last stretch reads it. -/
theorem arg1_keep (V : Valuation τ sig (Elt Ideal)) :
    after (opsA ++ (opsB ++ (opsC ++ (opsD ++ (opsE ++ opsF))))) V (main_arg1 : DevRef τ sig) = V (main_arg1 : DevRef τ sig) := by
  simp only [after_app]
  after_results_simp

/-- The fold of the whole line at the result buffer is `refTerm` of the arguments' contents. -/
theorem out_eq (V : Valuation τ sig (Elt Ideal)) :
    after ops V (main_v18 : DevRef τ sig) = refTerm (V (main_arg0 : DevRef τ sig)) (V (main_arg1 : DevRef τ sig)) := by
  have h6 : (ops : List (HloOp τ sig (Elt Ideal))) = (opsA ++ (opsB ++ (opsC ++ (opsD ++ (opsE ++ opsF))))) ++ opsG := rfl
  rw [h6, after_app, outG, arg1_keep]
  simp only [after_app]
  rw [outF, outE, outD, outC, outB, outA]
  rfl

/-- At the compiled mesh, from any memory with zero counters: every weakly fair execution of @main terminates with the
    result buffer at `refTerm` of the two arguments' launch contents, and the arguments unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v18).trans (out_eq _), (h c main_arg0).trans (arg0_eq _),
      (h c main_arg1).trans (arg1_eq _)⟩)
    (run_all (F := Ideal) m ρ)

end Cert.ReferenceIdeal.RefValue

end
-- ==== Proof.RefCumsum.lean ====
/-
  The inclusive prefix sum, read at one entry. The windowed sum of a 96-vector over a window of 96 positions, the vector
  padded by 95 zeros below, adds at result position `k` the entries at positions `k + n - 95` for the window offsets
  `n` with `95 ≤ k + n`: the entries `0 … k`. When each entry is the word of a natural number, the sum of words is the
  word of the sum.
-/
import proofs.«123979_g27556510171775_cont_sun_c4_435_14_alg».proof.Proof.RefStages
import Mathlib.Algebra.BigOperators.Fin
import Mathlib.Algebra.BigOperators.Intervals

noncomputable section

namespace Cert.ReferenceIdeal.RefValue

open Cert.ReferenceIdeal Cert.ReferenceIdeal.Gen Idealize.ShloMosaic
open scoped BigOperators

/-- A left fold by word addition of words of natural numbers is the word of their sum. -/
theorem foldl_addi_ofNat {ι : Type} (h : ι → ℕ) (l : List ι) (a : ℕ) :
    l.foldl (fun r n => IntOp.addi r (BitVec.ofNat 32 (h n))) (BitVec.ofNat 32 a) = BitVec.ofNat 32 (a + (l.map h).sum) := by
  induction l generalizing a with
  | nil => simp
  | cons b l ih =>
    simp only [List.foldl_cons, List.map_cons, List.sum_cons]
    rw [show IntOp.addi (BitVec.ofNat 32 a) (BitVec.ofNat 32 (h b)) = BitVec.ofNat 32 (a + h b) from (BitVec.ofNat_add _ _).symm, ih]
    congr 1; omega

/-- The same over all of `Fin N`, the summand a function of the position's number. -/
theorem foldl_addi_finRange (N : ℕ) (g : Fin N → BitVec 32) (h' : ℕ → ℕ) (hg : ∀ n, g n = BitVec.ofNat 32 (h' n.val)) :
    (List.finRange N).foldl (fun r n => IntOp.addi r (g n)) 0#32 = BitVec.ofNat 32 (∑ n ∈ Finset.range N, h' n) := by
  have e : (fun (r : BitVec 32) (n : Fin N) => IntOp.addi r (g n)) = fun r n => IntOp.addi r (BitVec.ofNat 32 (h' n.val)) := by
    funext r n; rw [hg]
  rw [e]
  have := foldl_addi_ofNat (fun n : Fin N => h' n.val) (List.finRange N) 0
  rw [show (BitVec.ofNat 32 0) = 0#32 from rfl] at this
  rw [this, Nat.zero_add, ← Fin.sum_univ_def, Fin.sum_univ_eq_sum_range]

/-- The window offsets that reach the vector are the last `k + 1`: the sum over them is the sum of the first `k + 1` entries. -/
theorem sum_window_prefix (f : ℕ → ℕ) (k : ℕ) (hk : k < 96) :
    (∑ n ∈ Finset.range 96, if 95 ≤ k + n then f (k + n - 95) else 0) = ∑ i ∈ Finset.range (k + 1), f i := by
  rw [Finset.range_eq_Ico, ← Finset.sum_Ico_consecutive _ (Nat.zero_le (95 - k)) (by omega : 95 - k ≤ 96)]
  rw [Finset.sum_eq_zero (fun n hn => by rw [Finset.mem_Ico] at hn; rw [if_neg (by omega)]), Nat.zero_add,
    Finset.sum_Ico_eq_sum_range]
  rw [show 96 - (95 - k) = k + 1 by omega]
  refine Finset.sum_congr rfl fun i hi => ?_
  rw [Finset.mem_range] at hi
  rw [if_pos (by omega)]
  congr 1; omega

/-- THE PREFIX SUM AT AN ENTRY: when entry `i` of the vector is the word of `f i`, entry `k` of its prefix sum is the word
    of `f 0 + … + f k`. -/
theorem cumsum32_apply (x : IVec S96 32) (f : ℕ → ℕ) (hx : ∀ i : S96.Idx, x i = BitVec.ofNat 32 (f (i 0).val)) (j : S96.Idx) :
    cumsum32 x j = BitVec.ofNat 32 (∑ i ∈ Finset.range ((j 0).val + 1), f i) := by
  have hk : (j 0).val < 96 := (j 0).isLt
  have hN : ({ rank := 1, size := ![96] } : Shape).numel = 96 := Shape.numel_rank1 _
  unfold cumsum32 Host.reduceWindow
  dsimp only
  refine (foldl_addi_finRange _ _ (fun n => if 95 ≤ (j 0).val + n then f ((j 0).val + n - 95) else 0) ?_).trans ?_
  · intro n
    have hn : n.val < 96 := lt_of_lt_of_eq n.isLt hN
    have hrm : ∀ a : Fin 1, ((({ rank := 1, size := ![96] } : Shape).rowMajor.symm n) a).val = n.val := by
      intro a
      obtain rfl : a = 0 := Subsingleton.elim _ _
      have := Shape.rowMajor_val_one (({ rank := 1, size := ![96] } : Shape).rowMajor.symm n)
      rw [Equiv.apply_symm_apply] at this
      exact this.symm
    simp only [hrm]
    split_ifs with hin h95 h95
    · rw [hx]
      refine congrArg (fun t => BitVec.ofNat 32 (f t)) ?_
      show (j 0).val * 1 + n.val - 95 = _
      omega
    · exfalso
      have h0 := (hin 0).1
      change 95 ≤ (j 0).val * 1 + n.val at h0
      omega
    · exfalso; apply hin; intro a
      obtain rfl : a = 0 := Subsingleton.elim _ _
      show 95 ≤ (j 0).val * 1 + n.val ∧ (j 0).val * 1 + n.val - 95 < 96
      omega
    · rfl
  · rw [hN, sum_window_prefix f _ hk]

end Cert.ReferenceIdeal.RefValue

end
-- ==== Proof.RefWords.lean ====
/-
  The small integer stages of the reference, read at one entry, for words that are small natural numbers.
  Every 32-bit word the reference's integer stages handle is a count of channels, at most 96: read as a signed number
  it is its value as a natural number, so no comparison with zero fires, no addition wraps, the truncating division
  and remainder are the natural numbers', and the floor division by one and the remainder modulo 96 come out as the
  identity and the natural remainder.
-/
import proofs.«123979_g27556510171775_cont_sun_c4_435_14_alg».proof.Proof.RefStages

noncomputable section

namespace Cert.ReferenceIdeal.RefValue

open Cert.ReferenceIdeal Cert.ReferenceIdeal.Gen Idealize.ShloMosaic

/-! ## Words -/

/-- A word that is a natural number below 2³¹ reads the same signed. -/
theorem toInt_small {x : BitVec 32} (h : x.toNat ≤ 96) : x.toInt = (x.toNat : Int) :=
  BitVec.toInt_eq_toNat_of_lt (by omega)

theorem msb_small {x : BitVec 32} (h : x.toNat ≤ 96) : x.msb = false :=
  BitVec.msb_eq_false_iff_two_mul_lt.2 (by omega)

/-- Such a word is not below zero. -/
theorem slt_zero_small {x : BitVec 32} (h : x.toNat ≤ 96) : IntOp.cmpi .slt x 0#32 = 0#1 := by
  have : x.slt 0#32 = false := by
    rw [BitVec.slt_eq_decide, toInt_small h]; simp
  show BitVec.ofBool (x.slt 0#32) = 0#1
  rw [this]; rfl

/-- The wrap of a negative index does not fire on it. -/
theorem wrap96_apply (i : IVec S96 32) (k : S96.Idx) (h : (i k).toNat ≤ 96) : wrap96 i k = i k := by
  show Scalar.select (IntOp.cmpi .slt (i k) 0#32) (IntOp.addi (i k) 96#32) (i k) = i k
  rw [slt_zero_small h]; rfl

/-- The clamp at zero leaves it. -/
theorem clip0_apply (cs : IVec S96 32) (k : S96.Idx) (h : (cs k).toNat ≤ 96) : clip0 cs k = cs k := by
  show IntOp.maxsi 0#32 (cs k) = cs k
  unfold IntOp.maxsi
  have : (cs k).slt 0#32 = false := by
    rw [BitVec.slt_eq_decide, toInt_small h]; simp
  rw [this]; rfl

/-- The truncating remainder by one is zero. -/
theorem srem_one (x : BitVec 32) : x.srem 1#32 = 0#32 := by
  rw [BitVec.srem_eq]
  have h1 : (1#32 : BitVec 32).msb = false := by decide
  rw [h1]
  cases x.msb <;> simp [BitVec.umod_one]

/-- The floor division by one is the identity. -/
theorem stE_apply (x : IVec S96 32) (k : S96.Idx) : stE x k = x k := by
  have hc : ¬ IntOp.SDivCorner (x k) 1#32 := by
    unfold IntOp.SDivCorner
    rintro (h | ⟨_, h⟩)
    · exact absurd h (by decide)
    · exact absurd h (by decide)
  have hd : IntOp.divsi .host (x k) 1#32 = x k := by
    unfold IntOp.divsi; rw [if_neg hc, BitVec.sdiv_one]
  have hr : IntOp.remsi .host (x k) 1#32 = 0#32 := by
    unfold IntOp.remsi; rw [if_neg hc, srem_one]
  show Scalar.select (IntOp.andi (IntOp.cmpi .ne _ _) (IntOp.cmpi .ne (IntOp.remsi .host (x k) 1#32) 0#32))
      (IntOp.subi (IntOp.divsi .host (x k) 1#32) 1#32) (IntOp.divsi .host (x k) 1#32) = x k
  rw [hr, hd]
  have : IntOp.cmpi .ne (0#32) (0#32) = 0#1 := by decide
  rw [this]
  unfold IntOp.andi
  rw [BitVec.and_zero]
  rfl

/-- The divisor of the remainder is 96. -/
theorem div96_apply (j : S_.Idx) : div96 j = 96#32 := by
  show Scalar.select (IntOp.cmpi .eq 96#32 0#32) 1#32 96#32 = 96#32
  decide

theorem div96_eq : div96 = constantI S_ 32 96#32 := funext div96_apply

/-- The remainder modulo 96 of a small word is the natural numbers'. -/
theorem stF_apply (x : IVec S96 32) (k : S96.Idx) (h : (x k).toNat ≤ 96) : stF x k = BitVec.ofNat 32 ((x k).toNat % 96) := by
  have hc : ¬ IntOp.SDivCorner (x k) 96#32 := by
    unfold IntOp.SDivCorner
    rintro (h | ⟨_, h⟩)
    · exact absurd h (by decide)
    · exact absurd h (by decide)
  have hr : IntOp.remsi .host (x k) 96#32 = (x k) % 96#32 := by
    unfold IntOp.remsi; rw [if_neg hc, BitVec.srem_eq, msb_small h]
    have h1 : (96#32 : BitVec 32).msb = false := by decide
    rw [h1]
  have hn : ((x k) % 96#32).toNat = (x k).toNat % 96 := by rw [BitVec.toNat_umod]; rfl
  have hlt : ((x k) % 96#32).toNat ≤ 96 := by rw [hn]; omega
  unfold stF rem96
  rw [div96_eq]
  show Scalar.select (IntOp.andi (IntOp.cmpi .ne (IntOp.cmpi .slt (IntOp.remsi .host (x k) 96#32) 0#32) (IntOp.cmpi .slt 96#32 0#32))
      (IntOp.cmpi .ne (IntOp.remsi .host (x k) 96#32) 0#32)) (IntOp.addi (IntOp.remsi .host (x k) 96#32) 96#32)
      (IntOp.remsi .host (x k) 96#32) = _
  rw [hr, slt_zero_small hlt]
  have h2 : IntOp.cmpi .slt (96#32) (0#32) = 0#1 := by decide
  rw [h2]
  have h3 : IntOp.cmpi .ne (0#1) (0#1) = 0#1 := by decide
  rw [h3]
  unfold IntOp.andi
  rw [BitVec.zero_and]
  show (x k) % 96#32 = _
  apply BitVec.eq_of_toNat_eq
  rw [hn, BitVec.toNat_ofNat]
  omega

end Cert.ReferenceIdeal.RefValue

end
-- ==== Proof.RefScatter.lean ====
/-
  The scatter of ones, read at one bin. A scatter-add of the constant one into 96 zero bins, one update per position
  `n` at the bin the start-index table names for `n`, leaves in bin `j` the number of positions whose update lands
  on `j`; an update whose bin lies outside `0 … 95` lands nowhere (it is dropped). When the table is a 96-vector of small
  natural numbers, broadcast to 96 × 1, position `n`'s update lands on bin `j` exactly when entry `n` is `j`.
-/
import proofs.«123979_g27556510171775_cont_sun_c4_435_14_alg».proof.Proof.RefWords
import Idealize.ShloMosaic.Lib.ValueIdx
import Idealize.ShloMosaic.Lib.Pipeline.Value
import Mathlib.Algebra.BigOperators.Fin

noncomputable section

namespace Cert.ReferenceIdeal.RefValue

open Cert.ReferenceIdeal Cert.ReferenceIdeal.Gen Idealize.ShloMosaic Idealize.ShloMosaic.ValueIdx
open scoped BigOperators

/-- The scatter's dimension numbers. -/
abbrev sd : ScatterDims S96 S96x1 S96 := scatter_S96_S96x1_S96_n_0_0_1

/-- A fold whose step adds one at the bin a position names, and does nothing where it names none, leaves at bin `j` what
    was there plus the number of positions naming `j`. -/
theorem fold_count {ι κ : Type} [DecidableEq κ] (tgt : ι → Option κ) (step : (κ → BitVec 32) → ι → (κ → BitVec 32))
    (hsome : ∀ r n i, tgt n = some i → step r n = fun i' => if i' = i then IntOp.addi (r i) 1#32 else r i')
    (hnone : ∀ r n, tgt n = none → step r n = r) (j : κ) :
    ∀ (l : List ι) (r : κ → BitVec 32),
      (l.foldl step r) j = IntOp.addi (r j) (BitVec.ofNat 32 ((l.map fun n => if tgt n = some j then 1 else 0).sum)) := by
  intro l
  induction l with
  | nil => intro r; simp [IntOp.addi]
  | cons n l ih =>
    intro r
    rw [List.foldl_cons, ih, List.map_cons, List.sum_cons]
    cases h : tgt n with
    | none =>
      rw [hnone r n h]
      simp
    | some i =>
      rw [hsome r n i h]
      by_cases hij : j = i
      · subst hij
        simp only [if_true]
        unfold IntOp.addi
        rw [BitVec.ofNat_add, BitVec.add_assoc]
      · have hne : ¬ (some i = some j) := fun e => hij (Option.some.inj e).symm
        simp only [if_neg hij, if_neg hne]
        simp

/-- THE SCATTER OF ONES AT A BIN: the number of positions whose update lands on it. -/
theorem scatter_ones (idx : IVec S96x1 32) (j : S96.Idx) :
    Host.scatter sd IntOp.addi (bc96 0#32) idx (bc96 1#32) j
      = BitVec.ofNat 32 (Finset.univ.filter fun n' : S96.Idx => sd.resultIdx? n' idx = some j).card := by
  unfold Host.scatter
  refine (fold_count (fun n => sd.resultIdx? (S96.rowMajor.symm n) idx) _ ?_ ?_ j _ _).trans ?_
  · intro r n i h
    simp only [h]
    rfl
  · intro r n h
    simp only [h]
  · show IntOp.addi 0#32 _ = _
    unfold IntOp.addi
    rw [BitVec.zero_add, ← Fin.sum_univ_def, Finset.card_filter]
    congr 1
    all_goals exact Equiv.sum_comp S96.rowMajor.symm (fun n' : S96.Idx => if sd.resultIdx? n' idx = some j then 1 else 0)

/-- Position `n`'s start index, read off the broadcast table: entry `n` of the vector, signed. -/
theorem start_bcast (pos : IVec S96 32) (n' : S96.Idx) (a : Fin 1) :
    sd.start n' (broadcastInDim S96x1 ![0] bcast_S96_S96x1_0 pos) a = (pos n').toInt := by
  obtain rfl : a = 0 := Subsingleton.elim _ _
  have h1 : sd.start n' (broadcastInDim S96x1 ![0] bcast_S96_S96x1_0 pos) 0
      = ((broadcastInDim S96x1 ![0] bcast_S96_S96x1_0 pos) (sd.siIdx n' ⟨0, by decide⟩)).toInt := by
    unfold ScatterDims.start; rw [dif_pos (by decide)]; rfl
  have h2 : sd.siIdx n' ⟨0, by decide⟩ = ix2 (n' 0) 0 := by
    funext b
    match b with
    | ⟨0, _⟩ => rfl
    | ⟨1, _⟩ => rfl
  rw [h1, h2]
  congr 1
  refine broadcastInDim_apply _ _ pos _ n' ?_
  intro a
  obtain rfl : a = 0 := Subsingleton.elim _ _
  rfl

theorem window_zero (n' : S96.Idx) (a : Fin 1) : sd.window n' a = 0 := by
  obtain rfl : a = 0 := Subsingleton.elim _ _
  rfl

/-- Position `n`'s update lands on bin `j` exactly when entry `n` of the vector, a small natural number, is `j`. -/
theorem resultIdx_bcast (pos : IVec S96 32) (n' j : S96.Idx) (h : (pos n').toNat ≤ 96) :
    sd.resultIdx? n' (broadcastInDim S96x1 ![0] bcast_S96_S96x1_0 pos) = some j ↔ (pos n').toNat = (j 0).val := by
  have hst : ∀ a : Fin 1, sd.start n' (broadcastInDim S96x1 ![0] bcast_S96_S96x1_0 pos) a + (sd.window n' a : Int)
      = ((pos n').toNat : Int) := by
    intro a; rw [start_bcast, window_zero, toInt_small h]; simp
  have hj : (j 0).val < 96 := (j 0).isLt
  unfold ScatterDims.resultIdx?
  simp only [hst]
  split_ifs with hc
  · constructor
    · intro e
      have e0 := congrArg Fin.val (congrFun (Option.some.inj e) 0)
      simpa using e0
    · intro e
      congr 1
      funext a
      obtain rfl : a = 0 := Subsingleton.elim _ _
      apply Fin.ext
      simpa using e
  · constructor
    · intro e; exact absurd e (by simp)
    · intro e
      exfalso; apply hc; intro a
      obtain rfl : a = 0 := Subsingleton.elim _ _
      show (0 : Int) ≤ ((pos n').toNat : Int) ∧ ((pos n').toNat : Int) < ((96 : ℕ) : Int)
      constructor <;> omega

end Cert.ReferenceIdeal.RefValue

end
-- ==== Proof.RefGather.lean ====
/-
  The gather tail, read at one entry. The positions handed to the gather are small natural numbers below 96: the wrap of a
  negative index does not fire, the in-range test (0 ≤ position ≤ 95, reduced over the table's unit axis) holds at every
  slot, so the select never takes the fill value, and the gather — whose start index is clamped into 0 … 95 — reads the
  data input at that very channel, the other four coordinates unchanged.
-/
import proofs.«123979_g27556510171775_cont_sun_c4_435_14_alg».proof.Proof.RefWords
import Idealize.ShloMosaic.Lib.ValueIdx
import Idealize.ShloMosaic.Lib.Pipeline.Value
import Idealize.ShloMosaic.PureOps.Reduce

noncomputable section

namespace Cert.ReferenceIdeal.RefValue

open Cert.ReferenceIdeal Cert.ReferenceIdeal.Gen Idealize.ShloMosaic Idealize.ShloMosaic.ValueIdx

/-- The gather's dimension numbers. -/
abbrev gd : GatherDims S4x2x224x224x96 S96x1 S4x2x224x224x96 :=
  gather_S4x2x224x224x96_S96x1_S4x2x224x224x96_0123_4_n_n_4_1_422242241

/-- The start-index table at row `k`: the position itself. -/
theorem takeIdx_apply (idx : IVec S96 32) (k : Fin 96) (z : Fin 1) (h : (idx (ix1 k)).toNat ≤ 96) :
    takeIdx idx (ix2 k z) = idx (ix1 k) := by
  unfold takeIdx
  refine (broadcastInDim_apply _ _ (wrap96 idx) (ix2 k z) (ix1 k) ?_).trans (wrap96_apply idx _ h)
  intro a
  obtain rfl : a = 0 := Subsingleton.elim _ _
  rfl

/-- A left fold by `and` from one over ones is one. -/
theorem foldl_andi_ones {ι : Type} (g : ι → BitVec 1) (l : List ι) (hg : ∀ n ∈ l, g n = 1#1) :
    l.foldl (fun r n => IntOp.andi r (g n)) 1#1 = 1#1 := by
  induction l with
  | nil => rfl
  | cons a l ih =>
    rw [List.foldl_cons, hg a List.mem_cons_self]
    exact ih fun n hn => hg n (List.mem_cons_of_mem _ hn)

/-- A small natural number below 96 passes the in-range test. -/
theorem inRange_small {t : BitVec 32} (h : t.toNat < 96) :
    IntOp.andi (IntOp.cmpi .sge t 0#32) (IntOp.cmpi .sle t 95#32) = 1#1 := by
  have ht : t.toInt = (t.toNat : Int) := toInt_small (by omega)
  have h1 : (0#32 : BitVec 32).sle t = true := by
    rw [BitVec.sle_eq_decide, ht]; simp
  have h2 : t.sle 95#32 = true := by
    rw [BitVec.sle_eq_decide, ht]
    have : (95#32 : BitVec 32).toInt = 95 := by decide
    rw [this]; simp; omega
  show IntOp.andi (BitVec.ofBool ((0#32 : BitVec 32).sle t)) (BitVec.ofBool (t.sle 95#32)) = 1#1
  rw [h1, h2]; decide

/-- The in-range test holds at every slot. -/
theorem takeOk_apply (idx : IVec S96 32) (hidx : ∀ k, (idx k).toNat < 96) (k : S96.Idx) : takeOk idx k = 1#1 := by
  unfold takeOk
  rw [Host.reduce_eq_foldl]
  refine foldl_andi_ones _ _ fun i _ => ?_
  obtain ⟨a, z, rfl⟩ : ∃ (a : Fin 96) (z : Fin 1), i = ix2 a z := ⟨i 0, i 1, eq_ix2 i⟩
  show IntOp.andi (IntOp.cmpi .sge (takeIdx idx (ix2 a z)) 0#32) (IntOp.cmpi .sle (takeIdx idx (ix2 a z)) 95#32) = 1#1
  rw [takeIdx_apply idx a z (by have := hidx (ix1 a); omega)]
  exact inRange_small (hidx _)

/-- The operand index the gather reads at a result index: the position's channel, the other coordinates the result's. -/
theorem operandIdx_take (idx : IVec S96 32) (hidx : ∀ k, (idx k).toNat < 96) (i : S4x2x224x224x96.Idx) :
    gd.operandIdx i (takeIdx idx) = ix5 (i 0) (i 1) (i 2) (i 3) ⟨(idx (ix1 (i 4))).toNat, hidx _⟩ := by
  have hb : ∀ a : Fin 5, gd.batchCoord i a = 0 := fun a => GatherDims.batchCoord_eq_zero _ _ _ List.not_mem_nil
  have hs : gd.siIdx i ⟨0, by decide⟩ = (ix2 (n0 := 96) (n1 := 1) (i 4) 0 : S96x1.Idx) := by
    funext b
    match b with
    | ⟨0, _⟩ => rfl
    | ⟨1, _⟩ => rfl
  have h4 : gd.start i (takeIdx idx) 4 = (idx (ix1 (i 4))).toNat := by
    have e : gd.start i (takeIdx idx) 4 = min ((takeIdx idx) (gd.siIdx i ⟨0, by decide⟩)).toInt.toNat 95 := by
      unfold GatherDims.start; rw [dif_pos (by decide)]; rfl
    rw [e, hs, takeIdx_apply idx (i 4) 0 (by have := hidx (ix1 (i 4)); omega), toInt_small (by have := hidx (ix1 (i 4)); omega)]
    have := hidx (ix1 (i 4))
    simp only [Int.toNat_natCast]
    omega
  funext a
  apply Fin.ext
  show gd.start i (takeIdx idx) a + gd.batchCoord i a + gd.offCoord i a = _
  rw [hb]
  match a with
  | ⟨0, _⟩ =>
    have e1 : gd.start i (takeIdx idx) 0 = 0 := by unfold GatherDims.start; rw [dif_neg (by decide)]
    have e2 : gd.offCoord i 0 = (i 0).val := by unfold GatherDims.offCoord; rw [dif_pos (by decide)]; rfl
    show gd.start i (takeIdx idx) 0 + 0 + gd.offCoord i 0 = (i 0).val
    rw [e1, e2]; omega
  | ⟨1, _⟩ =>
    have e1 : gd.start i (takeIdx idx) 1 = 0 := by unfold GatherDims.start; rw [dif_neg (by decide)]
    have e2 : gd.offCoord i 1 = (i 1).val := by unfold GatherDims.offCoord; rw [dif_pos (by decide)]; rfl
    show gd.start i (takeIdx idx) 1 + 0 + gd.offCoord i 1 = (i 1).val
    rw [e1, e2]; omega
  | ⟨2, _⟩ =>
    have e1 : gd.start i (takeIdx idx) 2 = 0 := by unfold GatherDims.start; rw [dif_neg (by decide)]
    have e2 : gd.offCoord i 2 = (i 2).val := by unfold GatherDims.offCoord; rw [dif_pos (by decide)]; rfl
    show gd.start i (takeIdx idx) 2 + 0 + gd.offCoord i 2 = (i 2).val
    rw [e1, e2]; omega
  | ⟨3, _⟩ =>
    have e1 : gd.start i (takeIdx idx) 3 = 0 := by unfold GatherDims.start; rw [dif_neg (by decide)]
    have e2 : gd.offCoord i 3 = (i 3).val := by unfold GatherDims.offCoord; rw [dif_pos (by decide)]; rfl
    show gd.start i (takeIdx idx) 3 + 0 + gd.offCoord i 3 = (i 3).val
    rw [e1, e2]; omega
  | ⟨4, _⟩ =>
    have e2 : gd.offCoord i 4 = 0 := GatherDims.offCoord_eq_zero _ _ _ (by decide)
    show gd.start i (takeIdx idx) 4 + 0 + gd.offCoord i 4 = (idx (ix1 (i 4))).toNat
    rw [h4, e2]
    rfl

/-- THE TAIL AT AN ENTRY: the data input at the position's channel. -/
theorem stG_apply (x1 : FVec Ideal S4x2x224x224x96 .f32) (idx : IVec S96 32) (hidx : ∀ k, (idx k).toNat < 96)
    (i : S4x2x224x224x96.Idx) :
    stG x1 idx i = x1 (ix5 (i 0) (i 1) (i 2) (i 3) ⟨(idx (ix1 (i 4))).toNat, hidx _⟩) := by
  have hok : broadcastInDim S4x2x224x224x96 ![4] bcast_S96_S4x2x224x224x96_4 (takeOk idx) i = 1#1 := by
    refine (broadcastInDim_apply _ _ (takeOk idx) i (ix1 (i 4)) ?_).trans (takeOk_apply idx hidx _)
    intro a
    obtain rfl : a = 0 := Subsingleton.elim _ _
    rfl
  show Scalar.select (broadcastInDim S4x2x224x224x96 ![4] bcast_S96_S4x2x224x224x96_4 (takeOk idx) i)
      (x1 (gd.operandIdx i (takeIdx idx))) _ = _
  rw [hok, select_one, operandIdx_take idx hidx i]
  rfl

end Cert.ReferenceIdeal.RefValue

end
-- ==== Proof.RefMask.lean ====
/-
  The channel mask, read at one channel. Channel `c`'s mask bit is the negation of "every entry of the mask input on
  channel `c` compares equal to zero"; at the ideal instance a float comparison for equality is equality of extended
  reals, and the zero constant is the number zero. So the bit is one exactly when some entry on the channel is not zero.
-/
import proofs.«123979_g27556510171775_cont_sun_c4_435_14_alg».proof.Proof.RefGather
import Idealize.ShloMosaic.Lib.ReduceAll
import proofs.«123979_g27556510171775_cont_sun_c4_435_14_alg».proof.Proof.Spec

noncomputable section

namespace Cert.ReferenceIdeal.RefValue

open Cert.ReferenceIdeal Cert.ReferenceIdeal.Gen Idealize.ShloMosaic Idealize.ShloMosaic.ValueIdx

/-- The zero constant is the number zero. -/
theorem zero_bits : Ideal.ofBits .f32 0x00000000#32 = 0 := by simp [Ideal.ofBits, Ideal.ieee]

/-- A left fold by `and` from one is one exactly when every word met is one. -/
theorem foldl_andi_eq_one_iff {ι : Type} (g : ι → BitVec 1) (l : List ι) :
    l.foldl (fun r n => IntOp.andi r (g n)) 1#1 = 1#1 ↔ ∀ n ∈ l, g n = 1#1 :=
  ⟨fun h => (IntOp.foldl_andi_eq_one g l _ h).2, foldl_andi_ones g l⟩

/-- The comparison of zero with an entry is one exactly when the entry is zero. -/
theorem cmp_zero_eq_one (x0 : FVec Ideal S4x224x224x96 .f32) (i : S4x224x224x96.Idx) :
    cmpf (F := Ideal) .oeq (broadcastInDim S4x224x224x96 ![] bcast_S_S4x224x224x96 (constant (F := Ideal) S_ .f32 0x00000000#32)) x0 i = 1#1
      ↔ x0 i = 0 := by
  show BitVec.ofBool (decide (Ideal.ofBits .f32 0x00000000#32 = x0 i)) = 1#1 ↔ _
  rw [zero_bits]
  constructor
  · intro h
    by_contra hne
    have : decide ((0 : EReal) = x0 i) = false := decide_eq_false (fun e => hne e.symm)
    rw [this] at h
    exact absurd h (by decide)
  · intro h
    have : decide ((0 : EReal) = x0 i) = true := decide_eq_true h.symm
    rw [this]; rfl

/-- THE MASK AT A CHANNEL: one exactly when some entry on the channel is not zero. -/
theorem stA_eq_one_iff (x0 : FVec Ideal S4x224x224x96 .f32) (c : S96.Idx) :
    stA x0 c = 1#1 ↔ ∃ (b : Fin 4) (i : Fin 224) (j : Fin 224), x0 (ix4 (n3 := 96) b i j (c 0)) ≠ 0 := by
  have hnot : ∀ R : BitVec 1, ~~~R = 1#1 ↔ ¬ R = 1#1 := by decide
  unfold stA
  show ~~~(Host.reduce IntOp.andi _ _ reducesTo_S4x224x224x96_S96_d0_1_2 h_S_ c) = 1#1 ↔ _
  rw [hnot, Host.reduce_eq_foldl]
  refine (not_congr (foldl_andi_eq_one_iff _ _)).trans ?_
  constructor
  · intro hne
    by_contra hall
    push Not at hall
    apply hne
    intro i hi
    have hd : reducesTo_S4x224x224x96_S96_d0_1_2.drop i = c := by simpa using (List.mem_filter.1 hi).2
    have h3 : (c 0).val = (i 3).val := by
      rw [← hd]; exact Shape.ReducesTo.drop_apply_val_of_eq _ i 0 3
    rw [cmp_zero_eq_one]
    have hi4 := eq_ix4 i
    rw [hi4]
    have : (i 3 : Fin 96) = c 0 := Fin.ext h3.symm
    have h0 := hall (i 0) (i 1) (i 2)
    rw [← this] at h0
    exact h0
  · rintro ⟨b, i, j, hx⟩ hall
    have hmem : ix4 (n3 := 96) b i j (c 0) ∈ (((List.finRange S4x224x224x96.numel).map S4x224x224x96.rowMajor.symm).filter
        fun i => reducesTo_S4x224x224x96_S96_d0_1_2.drop i = c) := by
      rw [List.mem_filter]
      refine ⟨List.mem_map.2 ⟨S4x224x224x96.rowMajor (ix4 (n3 := 96) b i j (c 0)), List.mem_finRange _, Equiv.symm_apply_apply _ _⟩, ?_⟩
      have : reducesTo_S4x224x224x96_S96_d0_1_2.drop (ix4 (n3 := 96) b i j (c 0)) = c := by
        funext a
        obtain rfl : a = 0 := Subsingleton.elim _ _
        apply Fin.ext
        exact Shape.ReducesTo.drop_apply_val_of_eq _ (ix4 (n3 := 96) b i j (c 0)) 0 3
      simp [this]
    exact hx ((cmp_zero_eq_one x0 _).1 (hall _ hmem))

/-- The mask bit says whether the channel is present. -/
theorem stA_eq_one_iff_present (x0 : FVec Ideal S4x224x224x96 .f32) (c : S96.Idx) :
    stA x0 c = 1#1 ↔ MaskChannels.present x0 (c 0).val := by
  rw [stA_eq_one_iff]
  have hc : (c 0).val < 96 := (c 0).isLt
  unfold MaskChannels.present
  constructor
  · rintro ⟨b, i, j, h⟩
    exact Or.inr ⟨hc, b, i, j, h⟩
  · rintro (h | ⟨_, b, i, j, h⟩)
    · omega
    · exact ⟨b, i, j, h⟩

end Cert.ReferenceIdeal.RefValue

end
-- ==== Proof.RefBridge.lean ====
/-
  The reference computes the specification. With `p` the predicate "channel is present" of the mask input (every number
  from 96 on counted as present): the mask's prefix sum at `i` is the number of present channels among `0 … i`; the
  histogram's bin `j` holds the number of `i < 96` with that count equal to `j` (a count of 96, when every channel is
  present, names no bin: its update is dropped); the histogram's prefix sum at `k` is therefore the number of `i < 96`
  whose count is at most `k`, which is `min 96 (nth p k)` because `count p (i + 1) ≤ k ↔ i < nth p k`; the floor division
  by one keeps it, the remainder modulo 96 turns it into the `k`-th present channel when there is one below 96 and into 0
  otherwise — the specification's slot —, and the gather reads the data input at that channel.
-/
import proofs.«123979_g27556510171775_cont_sun_c4_435_14_alg».proof.Proof.RefCumsum
import proofs.«123979_g27556510171775_cont_sun_c4_435_14_alg».proof.Proof.RefScatter
import proofs.«123979_g27556510171775_cont_sun_c4_435_14_alg».proof.Proof.RefGather
import proofs.«123979_g27556510171775_cont_sun_c4_435_14_alg».proof.Proof.RefMask
import proofs.«123979_g27556510171775_cont_sun_c4_435_14_alg».proof.Proof.LibNthSlot
import proofs.«123979_g27556510171775_cont_sun_c4_435_14_alg».proof.Proof.Spec

noncomputable section

namespace Cert.ReferenceIdeal.RefValue

open Cert.ReferenceIdeal Cert.ReferenceIdeal.Gen Idealize.ShloMosaic Idealize.ShloMosaic.ValueIdx Idealize.SL.Sem
open scoped BigOperators

/-- Whether a number is present is decided classically (the prefix counts below are stated with it). -/
local instance presentDec (x : MaskChannels.SM.Idx → EReal) : DecidablePred (MaskChannels.present x) := Classical.decPred _

/-- The word of a natural number that fits has that value. -/
theorem toNat_ofNat_small {m : ℕ} (h : m ≤ 96) : (BitVec.ofNat 32 m).toNat = m := by
  rw [BitVec.toNat_ofNat]; omega

section
variable (x0 : FVec Ideal S4x224x224x96 .f32)

/-- The mask bit widened to a word: one for a present channel, zero otherwise. -/
theorem maskWord (c : S96.Idx) :
    extui 32 (stA x0) natLt_1_32 c = BitVec.ofNat 32 (if MaskChannels.present x0 (c 0).val then 1 else 0) := by
  show (stA x0 c).setWidth 32 = _
  by_cases h : MaskChannels.present x0 (c 0).val
  · rw [if_pos h, (stA_eq_one_iff_present x0 c).2 h]; rfl
  · rw [if_neg h, eq_zero_of_ne_one (fun e => h ((stA_eq_one_iff_present x0 c).1 e))]; rfl

/-- The first prefix sum at `c`: the number of present channels among `0 … c`. -/
theorem cs_apply (c : S96.Idx) :
    stB (stA x0) c = BitVec.ofNat 32 (Nat.count (MaskChannels.present x0) ((c 0).val + 1)) := by
  unfold stB
  rw [cumsum32_apply _ (fun n => if MaskChannels.present x0 n then 1 else 0) (maskWord x0) c]
  refine congrArg (BitVec.ofNat 32) ?_
  rw [Nat.count_eq_card_filter_range, Finset.card_filter]

theorem cs_le (c : S96.Idx) : Nat.count (MaskChannels.present x0) ((c 0).val + 1) ≤ 96 :=
  le_trans (Nat.count_le _) (by have h : (c 0).val < 96 := (c 0).isLt; omega)

/-- The positions handed to the scatter are those counts: neither the clamp nor the wrap changes a small number. -/
theorem pos_toNat (n' : S96.Idx) :
    (wrap96 (clip0 (stB (stA x0))) n').toNat = Nat.count (MaskChannels.present x0) ((n' 0).val + 1) := by
  have hs : (stB (stA x0) n').toNat = Nat.count (MaskChannels.present x0) ((n' 0).val + 1) := by
    rw [cs_apply, toNat_ofNat_small (cs_le x0 n')]
  have hle : (stB (stA x0) n').toNat ≤ 96 := by rw [hs]; exact cs_le x0 n'
  have hc := clip0_apply (stB (stA x0)) n' hle
  rw [wrap96_apply _ _ (by rw [hc]; exact hle), hc, hs]

/-- The histogram's bin `j`: the number of `i < 96` whose count is `j`. -/
theorem bins_apply (j : S96.Idx) :
    stC (stB (stA x0)) j
      = BitVec.ofNat 32 ((Finset.range 96).filter fun i => Nat.count (MaskChannels.present x0) (i + 1) = (j 0).val).card := by
  unfold stC
  rw [scatter_ones]
  refine congrArg (BitVec.ofNat 32) ?_
  have hiff : ∀ n' : S96.Idx,
      sd.resultIdx? n' (broadcastInDim S96x1 ![0] bcast_S96_S96x1_0 (wrap96 (clip0 (stB (stA x0))))) = some j
        ↔ Nat.count (MaskChannels.present x0) ((n' 0).val + 1) = (j 0).val := by
    intro n'
    rw [resultIdx_bcast _ _ _ (by rw [pos_toNat]; exact cs_le x0 n'), pos_toNat]
  refine Finset.card_bij (fun n' _ => (n' 0).val) ?_ ?_ ?_
  · intro n' hn'
    rw [Finset.mem_filter] at hn' ⊢
    exact ⟨Finset.mem_range.2 (n' 0).isLt, (hiff n').1 hn'.2⟩
  · intro a _ b _ e
    funext d
    obtain rfl : d = 0 := Subsingleton.elim _ _
    exact Fin.ext e
  · intro m hm
    rw [Finset.mem_filter, Finset.mem_range] at hm
    refine ⟨ix1 ⟨m, hm.1⟩, ?_, rfl⟩
    rw [Finset.mem_filter]
    exact ⟨Finset.mem_univ _, (hiff _).2 hm.2⟩

/-- The second prefix sum at `k`: `min 96 (nth p k)`. -/
theorem pos_apply (k : S96.Idx) :
    cumsum32 (stC (stB (stA x0))) k = BitVec.ofNat 32 (min 96 (Nat.nth (MaskChannels.present x0) (k 0).val)) := by
  rw [cumsum32_apply _
    (fun c => ((Finset.range 96).filter fun i => Nat.count (MaskChannels.present x0) (i + 1) = c).card) (bins_apply x0) k]
  refine congrArg (BitVec.ofNat 32) ?_
  exact NthSlot.pos_eq_min (MaskChannels.present x0) (MaskChannels.present_infinite x0) 96 (k 0).val

/-- After the floor division by one and the remainder modulo 96: the specification's slot. -/
theorem slot_apply (k : S96.Idx) :
    stF (stE (cumsum32 (stC (stB (stA x0))))) k = BitVec.ofNat 32 (MaskChannels.slotN (MaskChannels.present x0) (k 0).val) := by
  have hE : stE (cumsum32 (stC (stB (stA x0)))) k
      = BitVec.ofNat 32 (min 96 (Nat.nth (MaskChannels.present x0) (k 0).val)) := by
    rw [stE_apply, pos_apply]
  have hle : (stE (cumsum32 (stC (stB (stA x0)))) k).toNat ≤ 96 := by
    rw [hE, toNat_ofNat_small (Nat.min_le_left _ _)]; exact Nat.min_le_left _ _
  rw [stF_apply _ _ hle, hE, toNat_ofNat_small (Nat.min_le_left _ _), NthSlot.min_mod]
  rfl

theorem slot_lt (k : S96.Idx) : (stF (stE (cumsum32 (stC (stB (stA x0))))) k).toNat < 96 := by
  rw [slot_apply, toNat_ofNat_small (le_of_lt (MaskChannels.slotN_lt _ _))]
  exact MaskChannels.slotN_lt _ _

end

/-- THE REFERENCE'S TERM IS THE SPECIFICATION. -/
theorem refTerm_eq_G (x0 : FVec Ideal S4x224x224x96 .f32) (x1 : FVec Ideal S4x2x224x224x96 .f32) :
    refTerm x0 x1 = MaskChannels.G x0 x1 := by
  funext i
  unfold refTerm
  rw [stG_apply x1 _ (slot_lt x0) i]
  unfold MaskChannels.G
  refine congrArg x1 ?_
  funext a
  match a with
  | ⟨0, _⟩ => rfl
  | ⟨1, _⟩ => rfl
  | ⟨2, _⟩ => rfl
  | ⟨3, _⟩ => rfl
  | ⟨4, _⟩ =>
    apply Fin.ext
    show (stF (stE (cumsum32 (stC (stB (stA x0))))) (ix1 (i 4))).toNat = MaskChannels.slotN (MaskChannels.present x0) (i 4).val
    rw [slot_apply, toNat_ofNat_small (le_of_lt (MaskChannels.slotN_lt _ _))]

/-- At the compiled mesh, from any memory with zero counters: every weakly fair execution of the reference's @main
    terminates with the result buffer at the specification of the two argument buffers, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v18)
            = MaskChannels.G (m ((c.tc : Thread _ _).loc Cert.ReferenceIdeal.main_arg0))
                (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1) :=
  (θ_run _ _ _).mono (fun _ h c => ⟨(h c).1.trans (refTerm_eq_G _ _), (h c).2⟩) (run_ref m ρ)

end Cert.ReferenceIdeal.RefValue

end
-- ==== Proof.lean ====
/-
  Equivalence, over the extended reals, of a two-launch kernel with its reference: "keep the channels of the data input
  that are not identically zero in the mask input, compacted to the front, the vacant slots reading channel 0".

  THE REFERENCE computes, for each of the 96 channels, whether every entry of the mask input on it equals zero; takes the
  complement; turns that into the index of the `k`-th present channel by an inclusive prefix count, a histogram of the
  prefix counts, the histogram's prefix sums and a reduction modulo 96 (which sends the "no such channel" value 96 to 0);
  and gathers the data input's channels at those indices. THE KERNEL first streams the mask input, folding "entry nonzero"
  into a scratch by a running maximum, and from the scratch's row maxima builds a 96 × 96 one-hot placement matrix
  (the rank of a present channel among the present ones, by a triangular sum, compared with the slot number; the
  vacant slots, those at or beyond the number of present channels, pointed at channel 0); it then streams the data input
  and contracts each row's channel axis with that matrix.

  Both are the function `MaskChannels.G` (Proof/Spec.lean): entry `(b, t, i, j, k)` of the result is the data input's
  entry at channel `slot k`, where `slot k` is the `k`-th present channel when there are more than `k` of them and
  `0` otherwise. The two arrangements meet in the Galois connection between "how many members lie below `n`" and "the
  `k`-th member" (Proof/LibNthSlot.lean): the reference's position is `min 96 (nth k)`, the kernel's rank test says
  `c = nth k`, and "slot vacant" says `96 ≤ nth k` on both sides. A product with a one-hot row involves no
  cancellation, so no finiteness of the inputs is used.

  The kernel's run (every weakly fair execution terminates, faults nowhere and leaves the named contents) is proved
  once for both instances from the two launches' bodies: the mask pass keeps its scratch in the launch's invariant,
  named point by point; the gather pass's 28 stores per point are one function of the point's blocks. The reference's
  run is its 92 host operations read back in order.
-/
import proofs.«123979_g27556510171775_cont_sun_c4_435_14_alg».proof.Defs
import proofs.«123979_g27556510171775_cont_sun_c4_435_14_alg».proof.Proof.Gen.Kernel
import proofs.«123979_g27556510171775_cont_sun_c4_435_14_alg».proof.Proof.Gen.KernelIdeal
import proofs.«123979_g27556510171775_cont_sun_c4_435_14_alg».proof.Proof.Gen.ReferenceIdeal
import proofs.«123979_g27556510171775_cont_sun_c4_435_14_alg».proof.Proof.Gen.Pre_finite_inputs
import proofs.«123979_g27556510171775_cont_sun_c4_435_14_alg».proof.Proof.K.Run
import proofs.«123979_g27556510171775_cont_sun_c4_435_14_alg».proof.Proof.KI.Value
import proofs.«123979_g27556510171775_cont_sun_c4_435_14_alg».proof.Proof.RefBridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Hand.frame m ρ

/-- So does the kernel read on the extended reals. -/
theorem frame_ki : Cert.frame_KernelIdeal := fun m ρ _ => Cert.KernelIdeal.Hand.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefValue.run m ρ)

/-- Nothing of the kernel was rewritten on the way to the extended reals. -/
theorem preserves : Cert.preserves_Kernel_KernelIdeal := trivial

/-- From memories agreeing on the arguments both programs end with the specification's function of the arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
